-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg11 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg11 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg15 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg11 : FVec F S128 .f32) (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg11 main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S650000x128 : Shape := ⟨2, ![650000, 128]⟩
abbrev S1x40 : Shape := ⟨2, ![1, 40]⟩
abbrev S50000x40 : Shape := ⟨2, ![50000, 40]⟩
abbrev S5000x40 : Shape := ⟨2, ![5000, 40]⟩
abbrev S650000x40 : Shape := ⟨2, ![650000, 40]⟩
abbrev S5000 : Shape := ⟨1, ![5000]⟩

abbrev nBuf : Space → Nat
  | .hbm => 101
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S50000, .i32⟩
  | .hbm, ⟨17, _⟩ => ⟨S1x600000, .i32⟩
  | .hbm, ⟨18, _⟩ => ⟨S600000, .i32⟩
  | .hbm, ⟨19, _⟩ => ⟨S650000, .i32⟩
  | .hbm, ⟨20, _⟩ => ⟨S1x600000, .i32⟩
  | .hbm, ⟨21, _⟩ => ⟨S600000, .i32⟩
  | .hbm, ⟨22, _⟩ => ⟨S650000, .i32⟩
  | .hbm, ⟨23, _⟩ => ⟨S_, .f32⟩
  | .hbm, ⟨24, _⟩ => ⟨S650000, .f32⟩
  | .hbm, ⟨25, _⟩ => ⟨S_, .f32⟩
  | .hbm, ⟨26, _⟩ => ⟨S50000, .f32⟩
  | .hbm, ⟨27, _⟩ => ⟨S650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .bf16⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000x128, .bf16⟩
  | .hbm, ⟨45, _⟩ => ⟨S650000x128, .f32⟩
  | .hbm, ⟨46, _⟩ => ⟨S_, .f32⟩
  | .hbm, ⟨47, _⟩ => ⟨S50000x128, .f32⟩
  | .hbm, ⟨48, _⟩ => ⟨S650000x1, .i32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .bf16⟩
  | .hbm, ⟨61, _⟩ => ⟨S_, .i32⟩
  | .hbm, ⟨62, _⟩ => ⟨S650000, .i32⟩
  | .hbm, ⟨63, _⟩ => ⟨S650000, .i1⟩
  | .hbm, ⟨64, _⟩ => ⟨S_, .i32⟩
  | .hbm, ⟨65, _⟩ => ⟨S650000, .i32⟩
  | .hbm, ⟨66, _⟩ => ⟨S650000, .i32⟩
  | .hbm, ⟨67, _⟩ => ⟨S650000, .i32⟩
  | .hbm, ⟨68, _⟩ => ⟨S650000x1, .i32⟩
  | .hbm, ⟨69, _⟩ => ⟨S650000x128, .bf16⟩
  | .hbm, ⟨70, _⟩ => ⟨S650000x128, .f32⟩
  | .hbm, ⟨71, _⟩ => ⟨S_, .f32⟩
  | .hbm, ⟨72, _⟩ => ⟨S50000x128, .f32⟩
  | .hbm, ⟨73, _⟩ => ⟨S650000x1, .i32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S1x40, .f32⟩
  | .hbm, ⟨85, _⟩ => ⟨S50000x40, .bf16⟩
  | .hbm, ⟨86, _⟩ => ⟨S_, .i32⟩
  | .hbm, ⟨87, _⟩ => ⟨S650000, .i32⟩
  | .hbm, ⟨88, _⟩ => ⟨S650000, .i1⟩
  | .hbm, ⟨89, _⟩ => ⟨S_, .i32⟩
  | .hbm, ⟨90, _⟩ => ⟨S650000, .i32⟩
  | .hbm, ⟨91, _⟩ => ⟨S650000, .i32⟩
  | .hbm, ⟨92, _⟩ => ⟨S650000, .i32⟩
  | .hbm, ⟨93, _⟩ => ⟨S650000x1, .i32⟩
  | .hbm, ⟨94, _⟩ => ⟨S650000x40, .bf16⟩
  | .hbm, ⟨95, _⟩ => ⟨S650000x40, .f32⟩
  | .hbm, ⟨96, _⟩ => ⟨S_, .f32⟩
  | .hbm, ⟨97, _⟩ => ⟨S50000x40, .f32⟩
  | .hbm, ⟨98, _⟩ => ⟨S650000x1, .i32⟩
  | .hbm, ⟨99, _⟩ => ⟨S50000x40, .f32⟩
  | .hbm, ⟨100, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S1x128, .f32⟩
  | .local _ .vmem, ⟨23, _⟩ => ⟨S1x128, .f32⟩
  | .local _ .vmem, ⟨24, _⟩ => ⟨S128x40, .f32⟩
  | .local _ .vmem, ⟨25, _⟩ => ⟨S1x40, .f32⟩
  | .local _ .vmem, ⟨26, _⟩ => ⟨S5000x40, .bf16⟩
  | .local _ .vmem, ⟨27, _⟩ => ⟨S5000x40, .bf16⟩
  | .local _ .vmem, ⟨28, _⟩ => ⟨S5000x40, .f32⟩
  | .local _ .vmem, ⟨29, _⟩ => ⟨S5000x40, .f32⟩
  | .local _ .vmem, ⟨30, _⟩ => ⟨S5000x1, .f32⟩
  | .local _ .vmem, ⟨31, _⟩ => ⟨S5000x1, .f32⟩
  | .local _ .vmem, ⟨32, _⟩ => ⟨S5000x40, .f32⟩
  | .local _ .vmem, ⟨33, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S_S128 : S_.BroadcastsInDim S128 (![] : Fin 0 → Fin S128.rank)
  shapeCasts_S5000x128_S5000x128 : S5000x128.ShapeCasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S_S50000x40 : S_.BroadcastsInDim S50000x40 (![] : Fin 0 → Fin S50000x40.rank)
  shapeCasts_S5000x40_S5000x40 : S5000x40.ShapeCasts S5000x40
  reduces_S5000x40_S5000 : S5000x40.Reduces [1] S5000
  shapeCasts_S5000_S5000x1 : S5000.ShapeCasts S5000x1
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S50000x40.size a
  hwx2_6 : ∀ i : grid2.Coords, EltTy.bits .bf16 = 32 ∨ (Rect.block (s := S50000x40) S5000x40.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v69) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S650000x128 : Shape := ⟨2, ![650000, 128]⟩
abbrev S50000x40 : Shape := ⟨2, ![50000, 40]⟩
abbrev S1x40 : Shape := ⟨2, ![1, 40]⟩
abbrev S650000x40 : Shape := ⟨2, ![650000, 40]⟩
abbrev S50000x1 : Shape := ⟨2, ![50000, 1]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S50000, .i32⟩
  | 17 => ⟨S1x600000, .i32⟩
  | 18 => ⟨S600000, .i32⟩
  | 19 => ⟨S650000, .i32⟩
  | 20 => ⟨S1x600000, .i32⟩
  | 21 => ⟨S600000, .i32⟩
  | 22 => ⟨S650000, .i32⟩
  | 23 => ⟨S_, .f32⟩
  | 24 => ⟨S650000, .f32⟩
  | 25 => ⟨S_, .f32⟩
  | 26 => ⟨S50000, .f32⟩
  | 27 => ⟨S650000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S1x128, .f32⟩
  | 54 => ⟨S50000x128, .f32⟩
  | 55 => ⟨S50000x128, .f32⟩
  | 56 => ⟨S650000x1, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S650000x1, .f32⟩
  | 94 => ⟨S_, .i32⟩
  | 95 => ⟨S650000, .i32⟩
  | 96 => ⟨S650000, .i1⟩
  | 97 => ⟨S_, .i32⟩
  | 98 => ⟨S650000, .i32⟩
  | 99 => ⟨S650000, .i32⟩
  | 100 => ⟨S650000, .i32⟩
  | 101 => ⟨S650000x1, .i32⟩
  | 102 => ⟨S650000x128, .f32⟩
  | 103 => ⟨S650000x128, .f32⟩
  | 104 => ⟨S650000x128, .f32⟩
  | 105 => ⟨S_, .f32⟩
  | 106 => ⟨S50000x128, .f32⟩
  | 107 => ⟨S650000x1, .i32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x40, .f32⟩
  | 127 => ⟨S1x40, .f32⟩
  | _ => ⟨S50000x128, .f32⟩

abbrev hbmTy0_1 (i : Nat) : BufTy := match i % 128 with
  | 0 => ⟨S50000x40, .f32⟩
  | 1 => ⟨S50000x40, .f32⟩
  | 2 => ⟨S650000x1, .f32⟩
  | 3 => ⟨S_, .i32⟩
  | 4 => ⟨S650000, .i32⟩
  | 5 => ⟨S650000, .i1⟩
  | 6 => ⟨S_, .i32⟩
  | 7 => ⟨S650000, .i32⟩
  | 8 => ⟨S650000, .i32⟩
  | 9 => ⟨S650000, .i32⟩
  | 10 => ⟨S650000x1, .i32⟩
  | 11 => ⟨S650000x40, .f32⟩
  | 12 => ⟨S650000x40, .f32⟩
  | 13 => ⟨S650000x40, .f32⟩
  | 14 => ⟨S_, .f32⟩
  | 15 => ⟨S50000x40, .f32⟩
  | 16 => ⟨S650000x1, .i32⟩
  | 17 => ⟨S50000x40, .f32⟩
  | 18 => ⟨S_, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S50000x40, .f32⟩
  | 25 => ⟨S50000x40, .f32⟩
  | 26 => ⟨S50000x40, .f32⟩
  | 27 => ⟨S_, .f32⟩
  | 28 => ⟨S50000, .f32⟩
  | 29 => ⟨S50000x1, .f32⟩
  | 30 => ⟨S50000x1, .f32⟩
  | 31 => ⟨S50000x40, .f32⟩
  | 32 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call0_cst : Ref sig .tc := ⟨.hbm, 86, rfl⟩
abbrev main_call0_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_9 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_11 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_call1_cst : Ref sig .tc := ⟨.hbm, 123, rfl⟩
abbrev main_call1_v0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_13 : Ref sig .tc := ⟨.hbm, 131, rfl⟩
abbrev main_v96 : Ref sig .tc := ⟨.hbm, 132, rfl⟩
abbrev main_v97 : Ref sig .tc := ⟨.hbm, 133, rfl⟩
abbrev main_c_14 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_call2_cst : Ref sig .tc := ⟨.hbm, 146, rfl⟩
abbrev main_call2_v0 : Ref sig .tc := ⟨.hbm, 147, rfl⟩
abbrev main_call2_cst_0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_cst_1 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_v108 : Ref sig .tc := ⟨.hbm, 160, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S_S128 : S_.BroadcastsInDim S128 (![] : Fin 0 → Fin S128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

class Facts : Prop extends Facts₀ where

variable [Facts]
-- ==== Proof.KernelRun.lean ====
/-
  The kernel program's run with its result buffer named.

  @main is four pallas_calls among stretches of host operations. The run over its eight segments ends with every
  unscoped buffer of the TensorCore at the last boundary's contents; read at the result buffer and at the sixteen
  argument buffers this gives: every weakly fair execution terminates, nothing faulting, the result buffer holds what the
  fourth pallas_call's write-backs leave, and the arguments are as launched.
-/
import proofs.«135466_j22454089023507_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eight segments, with the final state read at the result buffer as well as at the arguments. -/
theorem run_value : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.RefStaged.lean ====
/-
  The reference's run, read a few operations at a time.

  The reference's @main is 145 host operations in a row. Its run leaves, at every buffer, the fold of the operations over
  the launch contents (`StableHlo.after`). Here the list is cut into five stretches — the edge lists, the degrees and the
  per-edge weights; each of the three layers; the final log-softmax — and each stretch is read by itself: what it leaves
  at the buffers later stretches read, as the stage functions `val_…` of the argument arrays, given what it found at
  the buffers it reads. Chaining the five gives the result buffer as `val_main_v108` of the arguments.
-/
import proofs.«135466_j22454089023507_2_alg».proof.Proof.RefRead

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The fold over two lists in a row is the fold over the second from the fold over the first. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

/-- Contents carried to a buffer's own type and back are the contents. -/
theorem ofBuf_toBuf {T : BufTy} (x : TRef sig T) (v : T.Contents (Elt F)) : x.ofBuf (x.toBuf v) = v := by
  obtain ⟨r, h, a, b⟩ := x
  subst h
  rfl

/-- Operations 0–35 of @main. -/
abbrev opsA : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S650000 ![] bcast_S_S650000 : (⟨S_, .i32⟩ : BufTy).Contents (Elt F) → (⟨S650000, .i32⟩ : BufTy).Contents (Elt F)),
    binary main_v3 main_v14 main_v15 (cmpi .slt : (⟨S650000, .i32⟩ : BufTy).Contents (Elt F) → (⟨S650000, .i32⟩ : BufTy).Contents (Elt F) → (⟨S650000, .i1⟩ : BufTy).Contents (Elt F)),
    nullary main_c_2 (constantI S_ 32 50000#32),
    unary main_c_2 main_v16 (broadcastInDim S650000 ![] bcast_S_S650000 : (⟨S_, .i32⟩ : BufTy).Contents (Elt F) → (⟨S650000, .i32⟩ : BufTy).Contents (Elt F)),
    binary main_v3 main_v16 main_v17 (addi : (⟨S650000, .i32⟩ : BufTy).Contents (Elt F) → (⟨S650000, .i32⟩ : BufTy).Contents (Elt F) → (⟨S650000, .i32⟩ : BufTy).Contents (Elt F)),
    ternary main_v15 main_v17 main_v3 main_v18 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v18 main_v19 (broadcastInDim S650000x1 ![0] bcast_S650000_S650000x1_0 : (⟨S650000, .i32⟩ : BufTy).Contents (Elt F) → (⟨S650000x1, .i32⟩ : BufTy).Contents (Elt F)),
    binary main_v13 main_v19 main_v20 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_3 (constantI S_ 32 0#32),
    unary main_c_3 main_v21 (broadcastInDim S650000 ![] bcast_S_S650000 : (⟨S_, .i32⟩ : BufTy).Contents (Elt F) → (⟨S650000, .i32⟩ : BufTy).Contents (Elt F)),
    binary main_v6 main_v21 main_v22 (cmpi .slt : (⟨S650000, .i32⟩ : BufTy).Contents (Elt F) → (⟨S650000, .i32⟩ : BufTy).Contents (Elt F) → (⟨S650000, .i1⟩ : BufTy).Contents (Elt F)),
    nullary main_c_4 (constantI S_ 32 50000#32),
    unary main_c_4 main_v23 (broadcastInDim S650000 ![] bcast_S_S650000 : (⟨S_, .i32⟩ : BufTy).Contents (Elt F) → (⟨S650000, .i32⟩ : BufTy).Contents (Elt F)),
    binary main_v6 main_v23 main_v24 (addi : (⟨S650000, .i32⟩ : BufTy).Contents (Elt F) → (⟨S650000, .i32⟩ : BufTy).Contents (Elt F) → (⟨S650000, .i32⟩ : BufTy).Contents (Elt F)),
    ternary main_v22 main_v24 main_v6 main_v25 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v25 main_v26 (broadcastInDim S650000x1 ![0] bcast_S650000_S650000x1_0 : (⟨S650000, .i32⟩ : BufTy).Contents (Elt F) → (⟨S650000x1, .i32⟩ : BufTy).Contents (Elt F)),
    binary main_v13 main_v26 main_v27 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v20 main_v27 main_v28 (mulf : (⟨S650000, .f32⟩ : BufTy).Contents (Elt F) → (⟨S650000, .f32⟩ : BufTy).Contents (Elt F) → (⟨S650000, .f32⟩ : BufTy).Contents (Elt F)) ]

/-- Operations 36–72 of @main. -/
abbrev opsB : List (HloOp τ sig (Elt F)) :=
  [ binary main_arg0 main_arg2 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    unary main_v28 main_v33 (broadcastInDim S650000x1 ![0] bcast_S650000_S650000x1_0 : (⟨S650000, .f32⟩ : BufTy).Contents (Elt F) → (⟨S650000x1, .f32⟩ : BufTy).Contents (Elt F)),
    nullary main_c_5 (constantI S_ 32 0#32),
    unary main_c_5 main_v34 (broadcastInDim S650000 ![] bcast_S_S650000 : (⟨S_, .i32⟩ : BufTy).Contents (Elt F) → (⟨S650000, .i32⟩ : BufTy).Contents (Elt F)),
    binary main_v3 main_v34 main_v35 (cmpi .slt : (⟨S650000, .i32⟩ : BufTy).Contents (Elt F) → (⟨S650000, .i32⟩ : BufTy).Contents (Elt F) → (⟨S650000, .i1⟩ : BufTy).Contents (Elt F)),
    nullary main_c_6 (constantI S_ 32 50000#32),
    unary main_c_6 main_v36 (broadcastInDim S650000 ![] bcast_S_S650000 : (⟨S_, .i32⟩ : BufTy).Contents (Elt F) → (⟨S650000, .i32⟩ : BufTy).Contents (Elt F)),
    binary main_v3 main_v36 main_v37 (addi : (⟨S650000, .i32⟩ : BufTy).Contents (Elt F) → (⟨S650000, .i32⟩ : BufTy).Contents (Elt F) → (⟨S650000, .i32⟩ : BufTy).Contents (Elt F)),
    ternary main_v35 main_v37 main_v3 main_v38 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v38 main_v39 (broadcastInDim S650000x1 ![0] bcast_S650000_S650000x1_0 : (⟨S650000, .i32⟩ : BufTy).Contents (Elt F) → (⟨S650000x1, .i32⟩ : BufTy).Contents (Elt F)),
    binary main_v32 main_v39 main_v40 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v33 main_v41 (broadcastInDim S650000x128 ![0, 1] bcast_S650000x1_S650000x128_0_1 : (⟨S650000x1, .f32⟩ : BufTy).Contents (Elt F) → (⟨S650000x128, .f32⟩ : BufTy).Contents (Elt F)),
    binary main_v41 main_v40 main_v42 (mulf : (⟨S650000x128, .f32⟩ : BufTy).Contents (Elt F) → (⟨S650000x128, .f32⟩ : BufTy).Contents (Elt F) → (⟨S650000x128, .f32⟩ : BufTy).Contents (Elt F)),
    nullary main_cst_7 (constant S_ .f32 0x00000000#32),
    unary main_cst_7 main_v43 (broadcastInDim S50000x128 ![] bcast_S_S50000x128 : (⟨S_, .f32⟩ : BufTy).Contents (Elt F) → (⟨S50000x128, .f32⟩ : BufTy).Contents (Elt F)),
    unary main_v6 main_v44 (broadcastInDim S650000x1 ![0] bcast_S650000_S650000x1_0 : (⟨S650000, .i32⟩ : BufTy).Contents (Elt F) → (⟨S650000x1, .i32⟩ : BufTy).Contents (Elt F)),
    ternary main_v43 main_v44 main_v42 main_v45 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg10 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v49 (broadcastInDim S128 ![] bcast_S_S128 : (⟨S_, .f32⟩ : BufTy).Contents (Elt F) → (⟨S128, .f32⟩ : BufTy).Contents (Elt F)),
    binary main_arg11 main_v49 main_v50 (addf : (⟨S128, .f32⟩ : BufTy).Contents (Elt F) → (⟨S128, .f32⟩ : BufTy).Contents (Elt F) → (⟨S128, .f32⟩ : BufTy).Contents (Elt F)),
    unary main_v50 main_v51 (Host.rsqrt : (⟨S128, .f32⟩ : BufTy).Contents (Elt F) → (⟨S128, .f32⟩ : BufTy).Contents (Elt F)),
    binary main_arg8 main_v51 main_v52 (mulf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v48 main_v54 main_v55 (mulf : (⟨S50000x128, .f32⟩ : BufTy).Contents (Elt F) → (⟨S50000x128, .f32⟩ : BufTy).Contents (Elt F) → (⟨S50000x128, .f32⟩ : BufTy).Contents (Elt F)),
    unary main_arg9 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v58) (TRef.of (T := ⟨S50000x128, .f32⟩) main_call0_v0) (TRef.of (T := ⟨S50000x128, .f32⟩) main_v59) maximumf ]

/-- Operations 73–109 of @main. -/
abbrev opsC : List (HloOp τ sig (Elt F)) :=
  [ binary main_v59 main_arg4 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    unary main_v28 main_v64 (broadcastInDim S650000x1 ![0] bcast_S650000_S650000x1_0 : (⟨S650000, .f32⟩ : BufTy).Contents (Elt F) → (⟨S650000x1, .f32⟩ : BufTy).Contents (Elt F)),
    nullary main_c_9 (constantI S_ 32 0#32),
    unary main_c_9 main_v65 (broadcastInDim S650000 ![] bcast_S_S650000 : (⟨S_, .i32⟩ : BufTy).Contents (Elt F) → (⟨S650000, .i32⟩ : BufTy).Contents (Elt F)),
    binary main_v3 main_v65 main_v66 (cmpi .slt : (⟨S650000, .i32⟩ : BufTy).Contents (Elt F) → (⟨S650000, .i32⟩ : BufTy).Contents (Elt F) → (⟨S650000, .i1⟩ : BufTy).Contents (Elt F)),
    nullary main_c_10 (constantI S_ 32 50000#32),
    unary main_c_10 main_v67 (broadcastInDim S650000 ![] bcast_S_S650000 : (⟨S_, .i32⟩ : BufTy).Contents (Elt F) → (⟨S650000, .i32⟩ : BufTy).Contents (Elt F)),
    binary main_v3 main_v67 main_v68 (addi : (⟨S650000, .i32⟩ : BufTy).Contents (Elt F) → (⟨S650000, .i32⟩ : BufTy).Contents (Elt F) → (⟨S650000, .i32⟩ : BufTy).Contents (Elt F)),
    ternary main_v66 main_v68 main_v3 main_v69 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v69 main_v70 (broadcastInDim S650000x1 ![0] bcast_S650000_S650000x1_0 : (⟨S650000, .i32⟩ : BufTy).Contents (Elt F) → (⟨S650000x1, .i32⟩ : BufTy).Contents (Elt F)),
    binary main_v63 main_v70 main_v71 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v64 main_v72 (broadcastInDim S650000x128 ![0, 1] bcast_S650000x1_S650000x128_0_1 : (⟨S650000x1, .f32⟩ : BufTy).Contents (Elt F) → (⟨S650000x128, .f32⟩ : BufTy).Contents (Elt F)),
    binary main_v72 main_v71 main_v73 (mulf : (⟨S650000x128, .f32⟩ : BufTy).Contents (Elt F) → (⟨S650000x128, .f32⟩ : BufTy).Contents (Elt F) → (⟨S650000x128, .f32⟩ : BufTy).Contents (Elt F)),
    nullary main_cst_11 (constant S_ .f32 0x00000000#32),
    unary main_cst_11 main_v74 (broadcastInDim S50000x128 ![] bcast_S_S50000x128 : (⟨S_, .f32⟩ : BufTy).Contents (Elt F) → (⟨S50000x128, .f32⟩ : BufTy).Contents (Elt F)),
    unary main_v6 main_v75 (broadcastInDim S650000x1 ![0] bcast_S650000_S650000x1_0 : (⟨S650000, .i32⟩ : BufTy).Contents (Elt F) → (⟨S650000x1, .i32⟩ : BufTy).Contents (Elt F)),
    ternary main_v74 main_v75 main_v73 main_v76 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg14 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v80 (broadcastInDim S128 ![] bcast_S_S128 : (⟨S_, .f32⟩ : BufTy).Contents (Elt F) → (⟨S128, .f32⟩ : BufTy).Contents (Elt F)),
    binary main_arg15 main_v80 main_v81 (addf : (⟨S128, .f32⟩ : BufTy).Contents (Elt F) → (⟨S128, .f32⟩ : BufTy).Contents (Elt F) → (⟨S128, .f32⟩ : BufTy).Contents (Elt F)),
    unary main_v81 main_v82 (Host.rsqrt : (⟨S128, .f32⟩ : BufTy).Contents (Elt F) → (⟨S128, .f32⟩ : BufTy).Contents (Elt F)),
    binary main_arg12 main_v82 main_v83 (mulf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v79 main_v85 main_v86 (mulf : (⟨S50000x128, .f32⟩ : BufTy).Contents (Elt F) → (⟨S50000x128, .f32⟩ : BufTy).Contents (Elt F) → (⟨S50000x128, .f32⟩ : BufTy).Contents (Elt F)),
    unary main_arg13 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v89) (TRef.of (T := ⟨S50000x128, .f32⟩) main_call1_v0) (TRef.of (T := ⟨S50000x128, .f32⟩) main_v90) maximumf ]

/-- Operations 110–129 of @main. -/
abbrev opsD : List (HloOp τ sig (Elt F)) :=
  [ binary main_v90 main_arg6 main_v91 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg7 main_v92 (broadcastInDim S1x40 ![1] bcast_S40_S1x40_1 : (⟨S40, .f32⟩ : BufTy).Contents (Elt F) → (⟨S1x40, .f32⟩ : BufTy).Contents (Elt F)),
    unary main_v92 main_v93 (broadcastInDim S50000x40 ![0, 1] bcast_S1x40_S50000x40_0_1 : (⟨S1x40, .f32⟩ : BufTy).Contents (Elt F) → (⟨S50000x40, .f32⟩ : BufTy).Contents (Elt F)),
    binary main_v91 main_v93 main_v94 (addf : (⟨S50000x40, .f32⟩ : BufTy).Contents (Elt F) → (⟨S50000x40, .f32⟩ : BufTy).Contents (Elt F) → (⟨S50000x40, .f32⟩ : BufTy).Contents (Elt F)),
    unary main_v28 main_v95 (broadcastInDim S650000x1 ![0] bcast_S650000_S650000x1_0 : (⟨S650000, .f32⟩ : BufTy).Contents (Elt F) → (⟨S650000x1, .f32⟩ : BufTy).Contents (Elt F)),
    nullary main_c_13 (constantI S_ 32 0#32),
    unary main_c_13 main_v96 (broadcastInDim S650000 ![] bcast_S_S650000 : (⟨S_, .i32⟩ : BufTy).Contents (Elt F) → (⟨S650000, .i32⟩ : BufTy).Contents (Elt F)),
    binary main_v3 main_v96 main_v97 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v98 (broadcastInDim S650000 ![] bcast_S_S650000 : (⟨S_, .i32⟩ : BufTy).Contents (Elt F) → (⟨S650000, .i32⟩ : BufTy).Contents (Elt F)),
    binary main_v3 main_v98 main_v99 (addi : (⟨S650000, .i32⟩ : BufTy).Contents (Elt F) → (⟨S650000, .i32⟩ : BufTy).Contents (Elt F) → (⟨S650000, .i32⟩ : BufTy).Contents (Elt F)),
    ternary main_v97 main_v99 main_v3 main_v100 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v100 main_v101 (broadcastInDim S650000x1 ![0] bcast_S650000_S650000x1_0 : (⟨S650000, .i32⟩ : BufTy).Contents (Elt F) → (⟨S650000x1, .i32⟩ : BufTy).Contents (Elt F)),
    binary main_v94 main_v101 main_v102 ((fun x i => Host.gather gather_S50000x40_S650000x1_S650000x40_1_0_n_n_0_1_140 x i) : (⟨S50000x40, .f32⟩ : BufTy).Contents (Elt F) → (⟨S650000x1, .i32⟩ : BufTy).Contents (Elt F) → (⟨S650000x40, .f32⟩ : BufTy).Contents (Elt F)),
    unary main_v95 main_v103 (broadcastInDim S650000x40 ![0, 1] bcast_S650000x1_S650000x40_0_1 : (⟨S650000x1, .f32⟩ : BufTy).Contents (Elt F) → (⟨S650000x40, .f32⟩ : BufTy).Contents (Elt F)),
    binary main_v103 main_v102 main_v104 (mulf : (⟨S650000x40, .f32⟩ : BufTy).Contents (Elt F) → (⟨S650000x40, .f32⟩ : BufTy).Contents (Elt F) → (⟨S650000x40, .f32⟩ : BufTy).Contents (Elt F)),
    nullary main_cst_15 (constant S_ .f32 0x00000000#32),
    unary main_cst_15 main_v105 (broadcastInDim S50000x40 ![] bcast_S_S50000x40 : (⟨S_, .f32⟩ : BufTy).Contents (Elt F) → (⟨S50000x40, .f32⟩ : BufTy).Contents (Elt F)),
    unary main_v6 main_v106 (broadcastInDim S650000x1 ![0] bcast_S650000_S650000x1_0 : (⟨S650000, .i32⟩ : BufTy).Contents (Elt F) → (⟨S650000x1, .i32⟩ : BufTy).Contents (Elt F)),
    ternary main_v105 main_v106 main_v104 main_v107 ((fun x i u => Host.scatterAdd scatter_S50000x40_S650000x1_S650000x40_1_0_0_1 x i u) : (⟨S50000x40, .f32⟩ : BufTy).Contents (Elt F) → (⟨S650000x1, .i32⟩ : BufTy).Contents (Elt F) → (⟨S650000x40, .f32⟩ : BufTy).Contents (Elt F) → (⟨S50000x40, .f32⟩ : BufTy).Contents (Elt F)) ]

/-- Operations 130–134 of @main. -/
abbrev opsE1 : List (HloOp τ sig (Elt F)) :=
  [ TRef.nullary (TRef.of (T := ⟨S_, .f32⟩) main_call2_cst) (constant S_ .f32 0xFF800000#32),
    TRef.binary (TRef.of (T := ⟨S50000x40, .f32⟩) main_v107) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf ]

/-- Operations 135–137 of @main. -/
abbrev opsE2 : List (HloOp τ sig (Elt F)) :=
  [ TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v107) (TRef.of (T := ⟨S50000x40, .f32⟩) main_call2_v4) (TRef.of (T := ⟨S50000x40, .f32⟩) main_call2_v5) subf ]

/-- Operations 138–141 of @main. -/
abbrev opsE3 : List (HloOp τ sig (Elt F)) :=
  [ TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0) ]

/-- Operations 142–144 of @main. -/
abbrev opsE4 : List (HloOp τ sig (Elt F)) :=
  [ TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v108) subf ]

set_option maxRecDepth 8192 in
theorem ops_split : (ops : List (HloOp τ sig (Elt F))) = opsA ++ (opsB ++ (opsC ++ (opsD ++ (opsE1 ++ (opsE2 ++ (opsE3 ++ (opsE4))))))) := rfl

variable (V : Valuation τ sig (Elt F))

set_option maxRecDepth 8192 in
set_option maxHeartbeats 4000000 in
theorem stageA_main_v3 (x1 : (⟨S2x600000, .i32⟩ : BufTy).Contents (Elt F)) (h1 : V (Proc.devRef .tc main_arg1) = x1) :
    after opsA V (Proc.devRef .tc main_v3) = val_main_v3 (F := F) x1 := by
  after_results
  rw [h1]
  rfl
set_option maxRecDepth 8192 in
set_option maxHeartbeats 4000000 in
theorem stageA_main_v6 (x1 : (⟨S2x600000, .i32⟩ : BufTy).Contents (Elt F)) (h1 : V (Proc.devRef .tc main_arg1) = x1) :
    after opsA V (Proc.devRef .tc main_v6) = val_main_v6 (F := F) x1 := by
  after_results
  rw [h1]
  rfl
set_option maxRecDepth 8192 in
set_option maxHeartbeats 4000000 in
theorem stageA_main_v28 (x1 : (⟨S2x600000, .i32⟩ : BufTy).Contents (Elt F)) (h1 : V (Proc.devRef .tc main_arg1) = x1) :
    after opsA V (Proc.devRef .tc main_v28) = val_main_v28 (F := F) x1 := by
  after_results
  rw [h1]
  rfl
theorem keepA_main_arg0 : after opsA V (Proc.devRef .tc main_arg0) = V (Proc.devRef .tc main_arg0) := by after_results
theorem keepA_main_arg2 : after opsA V (Proc.devRef .tc main_arg2) = V (Proc.devRef .tc main_arg2) := by after_results
theorem keepA_main_arg3 : after opsA V (Proc.devRef .tc main_arg3) = V (Proc.devRef .tc main_arg3) := by after_results
theorem keepA_main_arg4 : after opsA V (Proc.devRef .tc main_arg4) = V (Proc.devRef .tc main_arg4) := by after_results
theorem keepA_main_arg5 : after opsA V (Proc.devRef .tc main_arg5) = V (Proc.devRef .tc main_arg5) := by after_results
theorem keepA_main_arg6 : after opsA V (Proc.devRef .tc main_arg6) = V (Proc.devRef .tc main_arg6) := by after_results
theorem keepA_main_arg7 : after opsA V (Proc.devRef .tc main_arg7) = V (Proc.devRef .tc main_arg7) := by after_results
theorem keepA_main_arg8 : after opsA V (Proc.devRef .tc main_arg8) = V (Proc.devRef .tc main_arg8) := by after_results
theorem keepA_main_arg9 : after opsA V (Proc.devRef .tc main_arg9) = V (Proc.devRef .tc main_arg9) := by after_results
theorem keepA_main_arg10 : after opsA V (Proc.devRef .tc main_arg10) = V (Proc.devRef .tc main_arg10) := by after_results
theorem keepA_main_arg11 : after opsA V (Proc.devRef .tc main_arg11) = V (Proc.devRef .tc main_arg11) := by after_results
theorem keepA_main_arg12 : after opsA V (Proc.devRef .tc main_arg12) = V (Proc.devRef .tc main_arg12) := by after_results
theorem keepA_main_arg13 : after opsA V (Proc.devRef .tc main_arg13) = V (Proc.devRef .tc main_arg13) := by after_results
theorem keepA_main_arg14 : after opsA V (Proc.devRef .tc main_arg14) = V (Proc.devRef .tc main_arg14) := by after_results
theorem keepA_main_arg15 : after opsA V (Proc.devRef .tc main_arg15) = V (Proc.devRef .tc main_arg15) := by after_results

set_option maxRecDepth 8192 in
set_option maxHeartbeats 4000000 in
theorem stageB_main_v59 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (h0 : V (Proc.devRef .tc main_arg0) = x0) (h2 : V (Proc.devRef .tc main_arg2) = x2) (h3 : V (Proc.devRef .tc main_arg3) = x3) (h8 : V (Proc.devRef .tc main_arg8) = x8) (h9 : V (Proc.devRef .tc main_arg9) = x9) (h10 : V (Proc.devRef .tc main_arg10) = x10) (h11 : V (Proc.devRef .tc main_arg11) = x11)
    (k_main_v3 : V (Proc.devRef .tc main_v3) = val_main_v3 (F := F) x1)
    (k_main_v6 : V (Proc.devRef .tc main_v6) = val_main_v6 (F := F) x1)
    (k_main_v28 : V (Proc.devRef .tc main_v28) = val_main_v28 (F := F) x1) :
    (TRef.of (T := ⟨S50000x128, .f32⟩) main_v59).ofBuf (after opsB V (Proc.devRef .tc main_v59)) = val_main_v59 (F := F) x0 x1 x2 x3 x8 x9 x10 x11 := by
  after_results_simp
  simp only [ofBuf_toBuf, h0, h2, h3, h8, h9, h10, h11, k_main_v3, k_main_v6, k_main_v28]
  rfl
theorem keepB_main_v3 : after opsB V (Proc.devRef .tc main_v3) = V (Proc.devRef .tc main_v3) := by after_results
theorem keepB_main_v6 : after opsB V (Proc.devRef .tc main_v6) = V (Proc.devRef .tc main_v6) := by after_results
theorem keepB_main_v28 : after opsB V (Proc.devRef .tc main_v28) = V (Proc.devRef .tc main_v28) := by after_results
theorem keepB_main_arg4 : after opsB V (Proc.devRef .tc main_arg4) = V (Proc.devRef .tc main_arg4) := by after_results
theorem keepB_main_arg5 : after opsB V (Proc.devRef .tc main_arg5) = V (Proc.devRef .tc main_arg5) := by after_results
theorem keepB_main_arg6 : after opsB V (Proc.devRef .tc main_arg6) = V (Proc.devRef .tc main_arg6) := by after_results
theorem keepB_main_arg7 : after opsB V (Proc.devRef .tc main_arg7) = V (Proc.devRef .tc main_arg7) := by after_results
theorem keepB_main_arg12 : after opsB V (Proc.devRef .tc main_arg12) = V (Proc.devRef .tc main_arg12) := by after_results
theorem keepB_main_arg13 : after opsB V (Proc.devRef .tc main_arg13) = V (Proc.devRef .tc main_arg13) := by after_results
theorem keepB_main_arg14 : after opsB V (Proc.devRef .tc main_arg14) = V (Proc.devRef .tc main_arg14) := by after_results
theorem keepB_main_arg15 : after opsB V (Proc.devRef .tc main_arg15) = V (Proc.devRef .tc main_arg15) := by after_results

set_option maxRecDepth 8192 in
set_option maxHeartbeats 4000000 in
theorem stageC_main_v90 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (h4 : V (Proc.devRef .tc main_arg4) = x4) (h5 : V (Proc.devRef .tc main_arg5) = x5) (h12 : V (Proc.devRef .tc main_arg12) = x12) (h13 : V (Proc.devRef .tc main_arg13) = x13) (h14 : V (Proc.devRef .tc main_arg14) = x14) (h15 : V (Proc.devRef .tc main_arg15) = x15)
    (k_main_v3 : V (Proc.devRef .tc main_v3) = val_main_v3 (F := F) x1)
    (k_main_v6 : V (Proc.devRef .tc main_v6) = val_main_v6 (F := F) x1)
    (k_main_v28 : V (Proc.devRef .tc main_v28) = val_main_v28 (F := F) x1)
    (k_main_v59 : V (Proc.devRef .tc main_v59) = val_main_v59 (F := F) x0 x1 x2 x3 x8 x9 x10 x11) :
    (TRef.of (T := ⟨S50000x128, .f32⟩) main_v90).ofBuf (after opsC V (Proc.devRef .tc main_v90)) = val_main_v90 (F := F) x0 x1 x2 x3 x4 x5 x8 x9 x10 x11 x12 x13 x14 x15 := by
  after_results_simp
  simp only [ofBuf_toBuf, h4, h5, h12, h13, h14, h15, k_main_v3, k_main_v6, k_main_v28, k_main_v59]
  rfl
theorem keepC_main_v3 : after opsC V (Proc.devRef .tc main_v3) = V (Proc.devRef .tc main_v3) := by after_results
theorem keepC_main_v6 : after opsC V (Proc.devRef .tc main_v6) = V (Proc.devRef .tc main_v6) := by after_results
theorem keepC_main_v28 : after opsC V (Proc.devRef .tc main_v28) = V (Proc.devRef .tc main_v28) := by after_results
theorem keepC_main_arg6 : after opsC V (Proc.devRef .tc main_arg6) = V (Proc.devRef .tc main_arg6) := by after_results
theorem keepC_main_arg7 : after opsC V (Proc.devRef .tc main_arg7) = V (Proc.devRef .tc main_arg7) := by after_results

set_option maxRecDepth 8192 in
set_option maxHeartbeats 4000000 in
theorem stageD_main_v107 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (h6 : V (Proc.devRef .tc main_arg6) = x6) (h7 : V (Proc.devRef .tc main_arg7) = x7)
    (k_main_v3 : V (Proc.devRef .tc main_v3) = val_main_v3 (F := F) x1)
    (k_main_v6 : V (Proc.devRef .tc main_v6) = val_main_v6 (F := F) x1)
    (k_main_v28 : V (Proc.devRef .tc main_v28) = val_main_v28 (F := F) x1)
    (k_main_v90 : V (Proc.devRef .tc main_v90) = val_main_v90 (F := F) x0 x1 x2 x3 x4 x5 x8 x9 x10 x11 x12 x13 x14 x15) :
    after opsD V (Proc.devRef .tc main_v107) = val_main_v107 (F := F) x0 x1 x2 x3 x4 x5 x6 x7 x8 x9 x10 x11 x12 x13 x14 x15 := by
  after_results_simp
  simp only [ofBuf_toBuf, h6, h7, k_main_v3, k_main_v6, k_main_v28, k_main_v90]
  rfl

set_option maxRecDepth 8192 in
set_option maxHeartbeats 4000000 in
theorem stageE1_main_call2_v2 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (k_main_v107 : (TRef.of (T := ⟨S50000x40, .f32⟩) main_v107).ofBuf (V (Proc.devRef .tc main_v107)) = val_main_v107 (F := F) x0 x1 x2 x3 x4 x5 x6 x7 x8 x9 x10 x11 x12 x13 x14 x15) :
    (TRef.of (T := ⟨S50000, .f32⟩) main_call2_v2).ofBuf (after opsE1 V (Proc.devRef .tc main_call2_v2)) = val_main_call2_v2 (F := F) x0 x1 x2 x3 x4 x5 x6 x7 x8 x9 x10 x11 x12 x13 x14 x15 := by
  after_results_simp
  simp only [ofBuf_toBuf, k_main_v107]
  rfl
theorem keepE1_main_v107 : after opsE1 V (Proc.devRef .tc main_v107) = V (Proc.devRef .tc main_v107) := by after_results

set_option maxRecDepth 8192 in
set_option maxHeartbeats 4000000 in
theorem stageE2_main_call2_v5 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (k_main_call2_v2 : (TRef.of (T := ⟨S50000, .f32⟩) main_call2_v2).ofBuf (V (Proc.devRef .tc main_call2_v2)) = val_main_call2_v2 (F := F) x0 x1 x2 x3 x4 x5 x6 x7 x8 x9 x10 x11 x12 x13 x14 x15)
    (k_main_v107 : (TRef.of (T := ⟨S50000x40, .f32⟩) main_v107).ofBuf (V (Proc.devRef .tc main_v107)) = val_main_v107 (F := F) x0 x1 x2 x3 x4 x5 x6 x7 x8 x9 x10 x11 x12 x13 x14 x15) :
    (TRef.of (T := ⟨S50000x40, .f32⟩) main_call2_v5).ofBuf (after opsE2 V (Proc.devRef .tc main_call2_v5)) = val_main_call2_v5 (F := F) x0 x1 x2 x3 x4 x5 x6 x7 x8 x9 x10 x11 x12 x13 x14 x15 := by
  after_results_simp
  simp only [ofBuf_toBuf, k_main_call2_v2, k_main_v107]
  rfl

set_option maxRecDepth 8192 in
set_option maxHeartbeats 4000000 in
theorem stageE3_main_call2_v8 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (k_main_call2_v5 : (TRef.of (T := ⟨S50000x40, .f32⟩) main_call2_v5).ofBuf (V (Proc.devRef .tc main_call2_v5)) = val_main_call2_v5 (F := F) x0 x1 x2 x3 x4 x5 x6 x7 x8 x9 x10 x11 x12 x13 x14 x15) :
    (TRef.of (T := ⟨S50000x1, .f32⟩) main_call2_v8).ofBuf (after opsE3 V (Proc.devRef .tc main_call2_v8)) = val_main_call2_v8 (F := F) x0 x1 x2 x3 x4 x5 x6 x7 x8 x9 x10 x11 x12 x13 x14 x15 := by
  after_results_simp
  simp only [ofBuf_toBuf, k_main_call2_v5]
  rfl
theorem keepE3_main_call2_v5 : after opsE3 V (Proc.devRef .tc main_call2_v5) = V (Proc.devRef .tc main_call2_v5) := by after_results

set_option maxRecDepth 8192 in
set_option maxHeartbeats 4000000 in
theorem stageE4_main_v108 (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (k_main_call2_v8 : (TRef.of (T := ⟨S50000x1, .f32⟩) main_call2_v8).ofBuf (V (Proc.devRef .tc main_call2_v8)) = val_main_call2_v8 (F := F) x0 x1 x2 x3 x4 x5 x6 x7 x8 x9 x10 x11 x12 x13 x14 x15)
    (k_main_call2_v5 : (TRef.of (T := ⟨S50000x40, .f32⟩) main_call2_v5).ofBuf (V (Proc.devRef .tc main_call2_v5)) = val_main_call2_v5 (F := F) x0 x1 x2 x3 x4 x5 x6 x7 x8 x9 x10 x11 x12 x13 x14 x15) :
    (TRef.of (T := ⟨S50000x40, .f32⟩) main_v108).ofBuf (after opsE4 V (Proc.devRef .tc main_v108)) = val_main_v108 (F := F) x0 x1 x2 x3 x4 x5 x6 x7 x8 x9 x10 x11 x12 x13 x14 x15 := by
  after_results_simp
  simp only [ofBuf_toBuf, k_main_call2_v8, k_main_call2_v5]
  rfl

set_option maxRecDepth 8192 in
set_option maxHeartbeats 4000000 in
/-- THE WHOLE LIST: the result buffer after all 145 operations is `val_main_v108` of what the argument buffers held. -/
theorem staged (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) :
    after ops V (Proc.devRef .tc main_v108) = val_main_v108 (F := F) x0 x1 x2 x3 x4 x5 x6 x7 x8 x9 x10 x11 x12 x13 x14 x15 := by
  rw [ops_split, after_append, after_append, after_append, after_append, after_append, after_append, after_append]
  have f0_main_v3 := stageA_main_v3 V x1 h1
  have f0_main_v6 := stageA_main_v6 V x1 h1
  have f0_main_v28 := stageA_main_v28 V x1 h1
  have f0_main_arg0 := (keepA_main_arg0 V).trans h0
  have f0_main_arg2 := (keepA_main_arg2 V).trans h2
  have f0_main_arg3 := (keepA_main_arg3 V).trans h3
  have f0_main_arg4 := (keepA_main_arg4 V).trans h4
  have f0_main_arg5 := (keepA_main_arg5 V).trans h5
  have f0_main_arg6 := (keepA_main_arg6 V).trans h6
  have f0_main_arg7 := (keepA_main_arg7 V).trans h7
  have f0_main_arg8 := (keepA_main_arg8 V).trans h8
  have f0_main_arg9 := (keepA_main_arg9 V).trans h9
  have f0_main_arg10 := (keepA_main_arg10 V).trans h10
  have f0_main_arg11 := (keepA_main_arg11 V).trans h11
  have f0_main_arg12 := (keepA_main_arg12 V).trans h12
  have f0_main_arg13 := (keepA_main_arg13 V).trans h13
  have f0_main_arg14 := (keepA_main_arg14 V).trans h14
  have f0_main_arg15 := (keepA_main_arg15 V).trans h15
  generalize after opsA V = V1 at *
  have f1_main_v59 := stageB_main_v59 V1 x0 x1 x2 x3 x8 x9 x10 x11 f0_main_arg0 f0_main_arg2 f0_main_arg3 f0_main_arg8 f0_main_arg9 f0_main_arg10 f0_main_arg11 f0_main_v3 f0_main_v6 f0_main_v28
  have f1_main_v3 := (keepB_main_v3 V1).trans f0_main_v3
  have f1_main_v6 := (keepB_main_v6 V1).trans f0_main_v6
  have f1_main_v28 := (keepB_main_v28 V1).trans f0_main_v28
  have f1_main_arg4 := (keepB_main_arg4 V1).trans f0_main_arg4
  have f1_main_arg5 := (keepB_main_arg5 V1).trans f0_main_arg5
  have f1_main_arg6 := (keepB_main_arg6 V1).trans f0_main_arg6
  have f1_main_arg7 := (keepB_main_arg7 V1).trans f0_main_arg7
  have f1_main_arg12 := (keepB_main_arg12 V1).trans f0_main_arg12
  have f1_main_arg13 := (keepB_main_arg13 V1).trans f0_main_arg13
  have f1_main_arg14 := (keepB_main_arg14 V1).trans f0_main_arg14
  have f1_main_arg15 := (keepB_main_arg15 V1).trans f0_main_arg15
  generalize after opsB V1 = V2 at *
  have g1_main_v59 : V2 (Proc.devRef .tc main_v59) = val_main_v59 (F := F) x0 x1 x2 x3 x8 x9 x10 x11 := f1_main_v59
  have f2_main_v90 := stageC_main_v90 V2 x0 x1 x2 x3 x4 x5 x8 x9 x10 x11 x12 x13 x14 x15 f1_main_arg4 f1_main_arg5 f1_main_arg12 f1_main_arg13 f1_main_arg14 f1_main_arg15 f1_main_v3 f1_main_v6 f1_main_v28 g1_main_v59
  have f2_main_v3 := (keepC_main_v3 V2).trans f1_main_v3
  have f2_main_v6 := (keepC_main_v6 V2).trans f1_main_v6
  have f2_main_v28 := (keepC_main_v28 V2).trans f1_main_v28
  have f2_main_arg6 := (keepC_main_arg6 V2).trans f1_main_arg6
  have f2_main_arg7 := (keepC_main_arg7 V2).trans f1_main_arg7
  generalize after opsC V2 = V3 at *
  have g2_main_v90 : V3 (Proc.devRef .tc main_v90) = val_main_v90 (F := F) x0 x1 x2 x3 x4 x5 x8 x9 x10 x11 x12 x13 x14 x15 := f2_main_v90
  have f3_main_v107 := stageD_main_v107 V3 x0 x1 x2 x3 x4 x5 x6 x7 x8 x9 x10 x11 x12 x13 x14 x15 f2_main_arg6 f2_main_arg7 f2_main_v3 f2_main_v6 f2_main_v28 g2_main_v90
  generalize after opsD V3 = V4 at *
  have f4_main_call2_v2 := stageE1_main_call2_v2 V4 x0 x1 x2 x3 x4 x5 x6 x7 x8 x9 x10 x11 x12 x13 x14 x15 (show (TRef.of (T := ⟨S50000x40, .f32⟩) main_v107).ofBuf (V4 (Proc.devRef .tc main_v107)) = val_main_v107 (F := F) x0 x1 x2 x3 x4 x5 x6 x7 x8 x9 x10 x11 x12 x13 x14 x15 from f3_main_v107)
  have f4_main_v107 := (keepE1_main_v107 V4).trans f3_main_v107
  generalize after opsE1 V4 = V5 at *
  have g4_main_call2_v2 : V5 (Proc.devRef .tc main_call2_v2) = val_main_call2_v2 (F := F) x0 x1 x2 x3 x4 x5 x6 x7 x8 x9 x10 x11 x12 x13 x14 x15 := f4_main_call2_v2
  have f5_main_call2_v5 := stageE2_main_call2_v5 V5 x0 x1 x2 x3 x4 x5 x6 x7 x8 x9 x10 x11 x12 x13 x14 x15 (show (TRef.of (T := ⟨S50000, .f32⟩) main_call2_v2).ofBuf (V5 (Proc.devRef .tc main_call2_v2)) = val_main_call2_v2 (F := F) x0 x1 x2 x3 x4 x5 x6 x7 x8 x9 x10 x11 x12 x13 x14 x15 from g4_main_call2_v2) (show (TRef.of (T := ⟨S50000x40, .f32⟩) main_v107).ofBuf (V5 (Proc.devRef .tc main_v107)) = val_main_v107 (F := F) x0 x1 x2 x3 x4 x5 x6 x7 x8 x9 x10 x11 x12 x13 x14 x15 from f4_main_v107)
  generalize after opsE2 V5 = V6 at *
  have g5_main_call2_v5 : V6 (Proc.devRef .tc main_call2_v5) = val_main_call2_v5 (F := F) x0 x1 x2 x3 x4 x5 x6 x7 x8 x9 x10 x11 x12 x13 x14 x15 := f5_main_call2_v5
  have f6_main_call2_v8 := stageE3_main_call2_v8 V6 x0 x1 x2 x3 x4 x5 x6 x7 x8 x9 x10 x11 x12 x13 x14 x15 (show (TRef.of (T := ⟨S50000x40, .f32⟩) main_call2_v5).ofBuf (V6 (Proc.devRef .tc main_call2_v5)) = val_main_call2_v5 (F := F) x0 x1 x2 x3 x4 x5 x6 x7 x8 x9 x10 x11 x12 x13 x14 x15 from g5_main_call2_v5)
  have f6_main_call2_v5 := (keepE3_main_call2_v5 V6).trans g5_main_call2_v5
  generalize after opsE3 V6 = V7 at *
  have g6_main_call2_v8 : V7 (Proc.devRef .tc main_call2_v8) = val_main_call2_v8 (F := F) x0 x1 x2 x3 x4 x5 x6 x7 x8 x9 x10 x11 x12 x13 x14 x15 := f6_main_call2_v8
  have f7_main_v108 := stageE4_main_v108 V7 x0 x1 x2 x3 x4 x5 x6 x7 x8 x9 x10 x11 x12 x13 x14 x15 (show (TRef.of (T := ⟨S50000x1, .f32⟩) main_call2_v8).ofBuf (V7 (Proc.devRef .tc main_call2_v8)) = val_main_call2_v8 (F := F) x0 x1 x2 x3 x4 x5 x6 x7 x8 x9 x10 x11 x12 x13 x14 x15 from g6_main_call2_v8) (show (TRef.of (T := ⟨S50000x40, .f32⟩) main_call2_v5).ofBuf (V7 (Proc.devRef .tc main_call2_v5)) = val_main_call2_v5 (F := F) x0 x1 x2 x3 x4 x5 x6 x7 x8 x9 x10 x11 x12 x13 x14 x15 from f6_main_call2_v5)
  generalize after opsE4 V7 = V8 at *
  have g7_main_v108 : V8 (Proc.devRef .tc main_v108) = val_main_v108 (F := F) x0 x1 x2 x3 x4 x5 x6 x7 x8 x9 x10 x11 x12 x13 x14 x15 := f7_main_v108
  exact g7_main_v108

set_option maxRecDepth 8192 in
set_option maxHeartbeats 4000000 in
/-- On every device, from any memory with zero counters: every weakly fair execution of @main terminates with the
    result buffer at `val_main_v108` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v108).trans (staged _ _ _ _ _ _ _ _ _ _ _ _ _ _ _ _ _ rfl rfl rfl rfl rfl rfl rfl rfl rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.ReferenceIdeal.Staged

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«135466_j22454089023507_2_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibRowLogSoftmax.lean ====
/-
  Log-softmax along the last axis of a matrix, on the extended reals, read at one element, over any sizes.

  For a row `r` with greatest entry `m = rowMax r`, the log-softmax at position `j` is

      (r j − m) − log (Σ_k exp (r k − m)),

  with the exponential, the logarithm and the subtraction of the ideal float values (`rowLogSoftmax`). A vector kernel and
  a host program both build it from the same pieces — the row maximum from −∞, subtracted; the exponential; the row sum
  from zero; its logarithm taken ON THE REDUCED COLUMN and only then laid back along the lanes; subtracted again — and
  differ only in how the reduced columns are laid back: the vector unit casts a vector [a] to [a, 1] and broadcasts it to
  [a, b], the host uses two `broadcast_in_dim`s (and one more maximum with −∞, which changes nothing). At (p, q) either
  expression is `rowLogSoftmax` of row p at q (`vector_apply`, `host_apply`); like a softmax, it only looks along rows.
-/
import Idealize.ShloMosaic.PureOps.Ideal.Laws
import Idealize.ShloMosaic.Lib.ValueIdx
import Idealize.ShloMosaic.Lib.Pipeline.Value
import proofs.«135466_j22454089023507_2_alg».proof.Proof.LibRowSoftmax
import proofs.«135466_j22454089023507_2_alg».proof.Proof.LibHostRowSoftmax
import proofs.«135466_j22454089023507_2_alg».proof.Proof.LibColRowBroadcast

noncomputable section

open scoped BigOperators

namespace Cert.RowLogSoftmax

open Idealize.ShloMosaic Idealize.ShloMosaic.ValueIdx Cert.RowSoftmax

/-- Log-softmax of a row at position `j`: the entry shifted by the row's maximum, less the logarithm of the sum of all
    the row's shifted exponentials. -/
def rowLogSoftmax {n : ℕ} (r : Fin n → EReal) (j : Fin n) : EReal :=
  (r j - rowMax r) - Ideal.log (∑ k : Fin n, Ideal.exp (r k - rowMax r))

/-- Log-softmax of every row of a matrix. -/
def logSoftmax2 {a b : ℕ} (x : (⟨2, ![a, b]⟩ : Shape).Idx → EReal) : (⟨2, ![a, b]⟩ : Shape).Idx → EReal :=
  fun y => rowLogSoftmax (fun k : Fin b => x (ix2 (n0 := a) (y 0) k)) (y 1)

theorem logSoftmax2_ix2 {a b : ℕ} (x : (⟨2, ![a, b]⟩ : Shape).Idx → EReal) (p : Fin a) (q : Fin b) :
    logSoftmax2 x (ix2 p q) = rowLogSoftmax (fun k => x (ix2 p k)) q := rfl

/-! ## The vector unit's spelling -/

/-- The whole vector expression — the lanes' maximum subtracted, the exponential, the lanes' sum, its logarithm on the
    reduced column, broadcast back and subtracted — reads, at (p, q), the log-softmax of row `p` at `q`. -/
theorem vector_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩ (multiReduction .maximumf [1] ⟨1, ![a]⟩ v 0xFF800000#32 hr hφ hm) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc)) hb) (ix2 p q)
      = rowLogSoftmax (fun k => v (ix2 p k)) q := by
  have hsub : ∀ k : Fin b, subf v (broadcastTo ⟨2, ![a, b]⟩ (shapeCast ⟨2, ![a, 1]⟩ (multiReduction .maximumf [1] ⟨1, ![a]⟩ v 0xFF800000#32 hr hφ hm) hc) hb) (ix2 p k)
      = v (ix2 p k) - rowMax (fun l : Fin b => v (ix2 p l)) := fun k => by
    rw [subf_apply, keepdimsCol_apply, laneMax_apply]
  unfold rowLogSoftmax
  rw [subf_apply, hsub q, Cert.ColRowBroadcast.colBroadcast_apply]
  show _ - Ideal.log (shapeCast ⟨2, ![a, 1]⟩ (multiReduction .add [1] ⟨1, ![a]⟩
      (exp (subf v (broadcastTo ⟨2, ![a, b]⟩ (shapeCast ⟨2, ![a, 1]⟩ (multiReduction .maximumf [1] ⟨1, ![a]⟩ v 0xFF800000#32 hr hφ hm) hc) hb)))
      0x00000000#32 hr hφ' hs) hc (ix2 p (0 : Fin 1))) = _
  rw [Cert.ColRowBroadcast.colCast_apply, laneSum_apply]
  refine congrArg (fun z => _ - Ideal.log z) (Finset.sum_congr rfl fun k _ => ?_)
  show Ideal.exp (subf v _ (ix2 p k)) = _
  rw [hsub k]

/-! ## The host's spelling -/

/-- A vector of `a` entries laid as a column [a, 1] by a `broadcast_in_dim` reads, at (p, 0), entry p. -/
theorem hostColCast_apply {α : Type} {a : ℕ} (u : (⟨1, ![a]⟩ : Shape).Idx → α)
    (b1 : (⟨1, ![a]⟩ : Shape).BroadcastsInDim ⟨2, ![a, 1]⟩ ![0]) (p : Fin a) (z : Fin 1) :
    broadcastInDim ⟨2, ![a, 1]⟩ ![0] b1 u (ix2 p z) = u (ix1 p) := by
  refine broadcastInDim_apply _ b1 u (ix2 p z) (ix1 p) fun c => ?_
  match c with
  | ⟨0, _⟩ =>
    show p.val = if a = 1 then 0 else p.val
    split
    · have := p.isLt; omega
    · rfl

/-- A column [a, 1] laid along the lanes to [a, b] by a `broadcast_in_dim` reads, at (p, q), the column at (p, 0). -/
theorem hostColBroadcast_apply {α : Type} {a b : ℕ} (w : (⟨2, ![a, 1]⟩ : Shape).Idx → α)
    (b2 : (⟨2, ![a, 1]⟩ : Shape).BroadcastsInDim ⟨2, ![a, b]⟩ ![0, 1]) (p : Fin a) (q : Fin b) :
    broadcastInDim ⟨2, ![a, b]⟩ ![0, 1] b2 w (ix2 p q) = w (ix2 p (0 : Fin 1)) := by
  refine broadcastInDim_apply _ b2 w (ix2 p q) (ix2 p (0 : Fin 1)) fun c => ?_
  match c with
  | ⟨0, _⟩ =>
    show p.val = if a = 1 then 0 else p.val
    split
    · have := p.isLt; omega
    · rfl
  | ⟨1, _⟩ => exact (if_pos rfl).symm

/-- The host's whole log-softmax expression at (p, q): the log-softmax of row p at q. -/
theorem host_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    subf
        (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu)))))
        (broadcastInDim ⟨2, ![a, b]⟩ ![0, 1] b2 (Host.log (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu)))) (ix2 p q)
      = rowLogSoftmax (fun k => s (ix2 p k)) q := by
  have hsub : ∀ k : Fin b, subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu)))) (ix2 p k)
      = s (ix2 p k) - rowMax (fun l : Fin b => s (ix2 p l)) := fun k => by
    rw [subf_apply, Cert.HostRowSoftmax.keepdimsCol_apply, Cert.HostRowSoftmax.hostRowMax_apply s h' h hu b0 p]
  unfold rowLogSoftmax
  rw [subf_apply, hsub q, hostColBroadcast_apply]
  show _ - Ideal.log (broadcastInDim ⟨2, ![a, 1]⟩ ![0] b1
      (Host.reduceAdd (Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))))
        (constant (F := Ideal) ⟨0, ![]⟩ .f32 0x00000000#32) h' hu) (ix2 p (0 : Fin 1))) = _
  rw [hostColCast_apply, Cert.HostRowSoftmax.hostRowSum_apply _ h' h hu p]
  refine congrArg (fun z => _ - Ideal.log z) (Finset.sum_congr rfl fun k _ => ?_)
  show Ideal.exp (subf s _ (ix2 p k)) = _
  rw [hsub k]

end Cert.RowLogSoftmax

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibGcnBnNet.lean ====
/-
  Three graph-convolution layers with batch normalisation between them, on the extended reals, in two arrangements.

  R nodes, E edges. Edge n is sent to node r when `sel n r` holds, reads the row of its source node `s n`, and names
  a destination node `t n`, which is r whenever the edge is sent to r. D gives one number per node (the inverse
  square root of its degree; nothing here asks what it is beyond its being a real number).

  One arrangement scales the rows of a table by D before the edges gather them and scales the gathered sums by D
  again afterwards (`convK`); the other puts the product D (s n) · D (t n) on every edge (`convR`). They agree on
  real entries: D r is a common factor of the finite sum over the edges sent to r. At an infinite entry they may
  differ, which is why the hypotheses are there.

  Between the layers the normalisation is spelt h · σ + (β − μ · σ) on one side and (h − μ) · σ + β on the other, with
  σ = γ · ρ; the two agree for real h, μ, σ, β (distributivity again).
-/
import Idealize.ShloMosaic.PureOps.Ideal
import proofs.«135466_j22454089023507_2_alg».proof.Proof.LibRealEntries

noncomputable section

open scoped BigOperators

namespace Cert.GcnBn

open Cert.LibRealEntries

variable {R E K C : Nat}

/-- The coercion of a finite sum of reals is the sum of the coercions. -/
theorem coe_sum {ι : Type} (u : Finset ι) (f : ι → ℝ) : ((∑ i ∈ u, f i : ℝ) : EReal) = ∑ i ∈ u, (f i : EReal) := by
  classical
  refine Finset.induction_on u (by simp) fun a u ha ih => ?_
  rw [Finset.sum_insert ha, Finset.sum_insert ha, EReal.coe_add, ih]

/-- A difference of reals is real. -/
theorem _root_.Cert.LibRealEntries.IsReal.sub {x y : EReal} (hx : IsReal x) (hy : IsReal y) : IsReal (x - y) := by
  obtain ⟨a, rfl⟩ := hx; obtain ⟨b, rfl⟩ := hy
  exact ⟨a - b, (EReal.coe_sub a b).symm⟩

/-- A dense layer: row r of X times column c of W, plus b c. -/
def lin (X : Fin R → Fin K → EReal) (W : Fin K → Fin C → EReal) (b : Fin C → EReal) (r : Fin R) (c : Fin C) : EReal :=
  (∑ k : Fin K, X r k * W k c) + b c

/-- Every row scaled by its node's number. -/
def scaleRows (D : Fin R → EReal) (H : Fin R → Fin C → EReal) (r : Fin R) (c : Fin C) : EReal := H r c * D r

/-- The rows of the source nodes of the edges sent to r, summed. -/
def gsum (sel : Fin E → Fin R → Prop) [∀ n r, Decidable (sel n r)] (s : Fin E → Fin R) (P : Fin R → Fin C → EReal)
    (r : Fin R) (c : Fin C) : EReal :=
  ∑ n : Fin E, if sel n r then P (s n) c else 0

/-- The propagation with the scale applied to the rows before and after the edges carry them. -/
def convK (sel : Fin E → Fin R → Prop) [∀ n r, Decidable (sel n r)] (s : Fin E → Fin R) (D : Fin R → EReal)
    (H : Fin R → Fin C → EReal) : Fin R → Fin C → EReal :=
  scaleRows D (gsum sel s (scaleRows D H))

/-- The propagation with both scales on every edge. -/
def convR (sel : Fin E → Fin R → Prop) [∀ n r, Decidable (sel n r)] (s t : Fin E → Fin R) (D : Fin R → EReal)
    (H : Fin R → Fin C → EReal) (r : Fin R) (c : Fin C) : EReal :=
  ∑ n : Fin E, if sel n r then (D (s n) * D (t n)) * H (s n) c else 0

/-- ON REAL ENTRIES THE TWO PROPAGATIONS AGREE. -/
theorem convK_eq_convR (sel : Fin E → Fin R → Prop) [∀ n r, Decidable (sel n r)] (s t : Fin E → Fin R)
    (hsel : ∀ n r, sel n r → t n = r) (D : Fin R → EReal) (H : Fin R → Fin C → EReal)
    (hD : ∀ r, IsReal (D r)) (hH : ∀ r c, IsReal (H r c)) : convK sel s D H = convR sel s t D H := by
  funext r c
  choose d hd using hD
  choose h hh using hH
  unfold convK convR scaleRows gsum
  have e1 : (∑ n : Fin E, if sel n r then H (s n) c * D (s n) else 0)
      = ((∑ n : Fin E, if sel n r then h (s n) c * d (s n) else 0 : ℝ) : EReal) := by
    rw [coe_sum]
    refine Finset.sum_congr rfl fun n _ => ?_
    split_ifs
    · rw [hh, hd, EReal.coe_mul]
    · exact EReal.coe_zero.symm
  have e2 : (∑ n : Fin E, if sel n r then (D (s n) * D (t n)) * H (s n) c else 0)
      = ((∑ n : Fin E, if sel n r then (d (s n) * d r) * h (s n) c else 0 : ℝ) : EReal) := by
    rw [coe_sum]
    refine Finset.sum_congr rfl fun n _ => ?_
    split_ifs with hs
    · rw [hsel n r hs, hh, hd, hd, EReal.coe_mul, EReal.coe_mul]
    · exact EReal.coe_zero.symm
  rw [e1, e2, hd r, ← EReal.coe_mul]
  refine congrArg _ ?_
  rw [Finset.sum_mul]
  refine Finset.sum_congr rfl fun n _ => ?_
  split_ifs
  · ring
  · exact zero_mul _

/-- The edgewise propagation of real entries is real. -/
theorem isReal_convR (sel : Fin E → Fin R → Prop) [∀ n r, Decidable (sel n r)] (s t : Fin E → Fin R)
    (D : Fin R → EReal) (H : Fin R → Fin C → EReal) (hD : ∀ r, IsReal (D r)) (hH : ∀ r c, IsReal (H r c))
    (r : Fin R) (c : Fin C) : IsReal (convR sel s t D H r c) :=
  isReal_sum _ _ fun n _ => IsReal.ite (((hD _).mul (hD _)).mul (hH _ _)) isReal_zero

/-- A dense layer of real entries is real. -/
theorem isReal_lin (X : Fin R → Fin K → EReal) (W : Fin K → Fin C → EReal) (b : Fin C → EReal)
    (hX : ∀ r k, IsReal (X r k)) (hW : ∀ k c, IsReal (W k c)) (hb : ∀ c, IsReal (b c)) (r : Fin R) (c : Fin C) :
    IsReal (lin X W b r c) :=
  (isReal_sum _ _ fun k _ => (hX r k).mul (hW k c)).add (hb c)

/-- The normalisation with the shift folded: max (h · σ + τ, 0) for a scale row σ and a shift row τ. -/
def bnK (σ τ : Fin C → EReal) (h : Fin R → Fin C → EReal) (r : Fin R) (c : Fin C) : EReal :=
  max (h r c * σ c + τ c) 0

/-- The normalisation as written out: max ((h − μ) · σ + β, 0). -/
def bnR (σ μ β : Fin C → EReal) (h : Fin R → Fin C → EReal) (r : Fin R) (c : Fin C) : EReal :=
  max ((h r c - μ c) * σ c + β c) 0

/-- ON REAL ENTRIES THE TWO NORMALISATIONS AGREE when the folded shift is β − μ · σ. -/
theorem bnK_eq_bnR (σ μ β : Fin C → EReal) (h : Fin R → Fin C → EReal) (hσ : ∀ c, IsReal (σ c))
    (hμ : ∀ c, IsReal (μ c)) (hβ : ∀ c, IsReal (β c)) (hh : ∀ r c, IsReal (h r c)) :
    bnK σ (fun c => β c - μ c * σ c) h = bnR σ μ β h := by
  funext r c
  unfold bnK bnR
  obtain ⟨a, ha⟩ := hσ c; obtain ⟨u, hu⟩ := hμ c; obtain ⟨v, hv⟩ := hβ c; obtain ⟨x, hx⟩ := hh r c
  refine congrArg (max · 0) ?_
  dsimp only
  rw [ha, hu, hv, hx]
  exact_mod_cast (by ring : x * a + (v - u * a) = (x - u) * a + v)

/-- The written-out normalisation of real entries is real. -/
theorem isReal_bnR (σ μ β : Fin C → EReal) (h : Fin R → Fin C → EReal) (hσ : ∀ c, IsReal (σ c))
    (hμ : ∀ c, IsReal (μ c)) (hβ : ∀ c, IsReal (β c)) (hh : ∀ r c, IsReal (h r c)) (r : Fin R) (c : Fin C) :
    IsReal (bnR σ μ β h r c) :=
  ((((hh r c).sub (hμ c)).mul (hσ c)).add (hβ c)).max isReal_zero

variable {C0 C1 C2 C3 : Nat}

/-- The three layers with the scale applied to rows (the scores before the final log-softmax). -/
def logitsK (sel : Fin E → Fin R → Prop) [∀ n r, Decidable (sel n r)] (s : Fin E → Fin R) (D : Fin R → EReal)
    (X : Fin R → Fin C0 → EReal) (W0 : Fin C0 → Fin C1 → EReal) (b0 : Fin C1 → EReal)
    (σ0 τ0 : Fin C1 → EReal) (W1 : Fin C1 → Fin C2 → EReal) (b1 : Fin C2 → EReal)
    (σ1 τ1 : Fin C2 → EReal) (W2 : Fin C2 → Fin C3 → EReal) (b2 : Fin C3 → EReal) : Fin R → Fin C3 → EReal :=
  convK sel s D (lin (bnK σ1 τ1 (convK sel s D (lin (bnK σ0 τ0 (convK sel s D (lin X W0 b0))) W1 b1))) W2 b2)

/-- The three layers with both scales on every edge. -/
def logitsR (sel : Fin E → Fin R → Prop) [∀ n r, Decidable (sel n r)] (s t : Fin E → Fin R) (D : Fin R → EReal)
    (X : Fin R → Fin C0 → EReal) (W0 : Fin C0 → Fin C1 → EReal) (b0 : Fin C1 → EReal)
    (σ0 μ0 β0 : Fin C1 → EReal) (W1 : Fin C1 → Fin C2 → EReal) (b1 : Fin C2 → EReal)
    (σ1 μ1 β1 : Fin C2 → EReal) (W2 : Fin C2 → Fin C3 → EReal) (b2 : Fin C3 → EReal) : Fin R → Fin C3 → EReal :=
  convR sel s t D (lin (bnR σ1 μ1 β1 (convR sel s t D (lin (bnR σ0 μ0 β0 (convR sel s t D (lin X W0 b0))) W1 b1))) W2 b2)

/-- THE TWO NETWORKS AGREE on real scales, features, weights, biases and normalisation rows. -/
theorem logitsK_eq_logitsR (sel : Fin E → Fin R → Prop) [∀ n r, Decidable (sel n r)] (s t : Fin E → Fin R)
    (hsel : ∀ n r, sel n r → t n = r) (D : Fin R → EReal)
    (X : Fin R → Fin C0 → EReal) (W0 : Fin C0 → Fin C1 → EReal) (b0 : Fin C1 → EReal)
    (σ0 μ0 β0 : Fin C1 → EReal) (W1 : Fin C1 → Fin C2 → EReal) (b1 : Fin C2 → EReal)
    (σ1 μ1 β1 : Fin C2 → EReal) (W2 : Fin C2 → Fin C3 → EReal) (b2 : Fin C3 → EReal)
    (hD : ∀ r, IsReal (D r)) (hX : ∀ r k, IsReal (X r k))
    (hW0 : ∀ k c, IsReal (W0 k c)) (hb0 : ∀ c, IsReal (b0 c))
    (hσ0 : ∀ c, IsReal (σ0 c)) (hμ0 : ∀ c, IsReal (μ0 c)) (hβ0 : ∀ c, IsReal (β0 c))
    (hW1 : ∀ k c, IsReal (W1 k c)) (hb1 : ∀ c, IsReal (b1 c))
    (hσ1 : ∀ c, IsReal (σ1 c)) (hμ1 : ∀ c, IsReal (μ1 c)) (hβ1 : ∀ c, IsReal (β1 c))
    (hW2 : ∀ k c, IsReal (W2 k c)) (hb2 : ∀ c, IsReal (b2 c)) :
    logitsK sel s D X W0 b0 σ0 (fun c => β0 c - μ0 c * σ0 c) W1 b1 σ1 (fun c => β1 c - μ1 c * σ1 c) W2 b2
      = logitsR sel s t D X W0 b0 σ0 μ0 β0 W1 b1 σ1 μ1 β1 W2 b2 := by
  unfold logitsK logitsR
  have r0 := isReal_lin X W0 b0 hX hW0 hb0
  rw [convK_eq_convR sel s t hsel D _ hD r0]
  have c0 := isReal_convR sel s t D _ hD r0
  rw [bnK_eq_bnR σ0 μ0 β0 _ hσ0 hμ0 hβ0 c0]
  have r1 := isReal_lin _ W1 b1 (isReal_bnR σ0 μ0 β0 _ hσ0 hμ0 hβ0 c0) hW1 hb1
  rw [convK_eq_convR sel s t hsel D _ hD r1]
  have c1 := isReal_convR sel s t D _ hD r1
  rw [bnK_eq_bnR σ1 μ1 β1 _ hσ1 hμ1 hβ1 c1]
  have r2 := isReal_lin _ W2 b2 (isReal_bnR σ1 μ1 β1 _ hσ1 hμ1 hβ1 c1) hW2 hb2
  rw [convK_eq_convR sel s t hsel D _ hD r2]

end Cert.GcnBn

end
-- ==== Proof.LibGcnReads.lean ====
/-
  Host-side and vector-unit expressions of a graph-convolution network, read as plain functions of node and edge
  numbers, over any sizes.

  `mat` and `vec` read a rank-2 and a rank-1 array by row and column numbers. An edge list is a column of index
  words: edge n is sent to node r (`sentTo`) when its word, read signed, is r (a scatter drops every other edge);
  the node an edge reads (`srcOf`) is its word read signed and clamped into the table (a gather's rule).

  With these: a scatter-add, into zeros, of gathered rows is the sum `gsum` over the edges sent to a node
  (`agg_mat`); the same with a per-edge weight column is the edgewise propagation `convR` (`refConv_mat`); a
  dot_general plus a bias laid over the rows is `lin` (`hostLin_mat`); the normalisation as the host spells it is
  `bnR` (`hostBn_mat`). On the vector unit, one block of rows: the dense layer with the row scale (`pay0_apply`)
  and the normalised dense layer with the row scale before and after (`pay1_apply`), each read at one entry.
-/
import Idealize.ShloMosaic.PureOps.Ideal.Laws
import Idealize.ShloMosaic.Lib.ValueIdx
import Idealize.ShloMosaic.Lib.Pipeline.Value
import proofs.«135466_j22454089023507_2_alg».proof.Proof.LibRowGatherScatter
import proofs.«135466_j22454089023507_2_alg».proof.Proof.LibHostLayout
import proofs.«135466_j22454089023507_2_alg».proof.Proof.LibHostReads
import proofs.«135466_j22454089023507_2_alg».proof.Proof.LibPlainMatmul
import proofs.«135466_j22454089023507_2_alg».proof.Proof.LibColRowBroadcast
import proofs.«135466_j22454089023507_2_alg».proof.Proof.LibRowLogSoftmax
import proofs.«135466_j22454089023507_2_alg».proof.Proof.LibGcnBnNet

noncomputable section

open scoped BigOperators

namespace Cert.GcnHost

open Idealize.ShloMosaic Idealize.ShloMosaic.ValueIdx Cert.LibRowGatherScatter Cert.GcnBn

/-- A rank-2 array by row and column. -/
def mat {α : Type} {a b : Nat} (x : (⟨2, ![a, b]⟩ : Shape).Idx → α) (r : Fin a) (c : Fin b) : α := x (ix2 r c)
/-- A rank-1 array by position. -/
def vec {α : Type} {a : Nat} (x : (⟨1, ![a]⟩ : Shape).Idx → α) (r : Fin a) : α := x (ix1 r)

variable {R N C K : Nat}

/-- Edge n's index word, read signed, is node r. -/
def sentTo {w : Nat} (idxD : IVec ⟨2, ![N, 1]⟩ w) (n : Fin N) (r : Fin R) : Prop :=
  (idxD (ix2 n (0 : Fin 1))).toInt = (r.val : ℤ)

instance {w : Nat} (idxD : IVec ⟨2, ![N, 1]⟩ w) (n : Fin N) (r : Fin R) : Decidable (sentTo idxD n r) :=
  inferInstanceAs (Decidable ((idxD (ix2 n (0 : Fin 1))).toInt = (r.val : ℤ)))

/-- The node edge n reads: its index word read signed and clamped into the R rows. -/
def srcOf (hR : 0 < R) {w : Nat} (idxS : IVec ⟨2, ![N, 1]⟩ w) (n : Fin N) : Fin R :=
  clampRow R hR (idxS (ix2 n (0 : Fin 1)))

/-- A word that, read signed, is a row number is that row after clamping. -/
theorem clampRow_of_toInt (hR : 0 < R) {w : Nat} (b : BitVec w) (r : Fin R) (h : b.toInt = (r.val : ℤ)) :
    clampRow R hR b = r := by
  apply Fin.ext
  show min b.toInt.toNat (R - 1) = r.val
  rw [h, Int.toNat_natCast]
  have := r.isLt
  omega

section Scatter

variable (d : ScatterDims ⟨2, ![R, C]⟩ ⟨2, ![N, 1]⟩ ⟨2, ![N, C]⟩)
  (g : GatherDims ⟨2, ![R, C]⟩ ⟨2, ![N, 1]⟩ ⟨2, ![N, C]⟩)

/-- Gathered rows, widened, scatter-added into zeros: the sum over the edges sent to each node of the row each reads. -/
theorem agg_mat (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {ψ : FTy} (hψ : ψ.bits < FTy.f32.bits)
    (hz : (⟨0, ![]⟩ : Shape).BroadcastsInDim ⟨2, ![R, C]⟩ ![]) {w w' : Nat}
    (P : FVec Ideal ⟨2, ![R, C]⟩ ψ) (idxD : IVec ⟨2, ![N, 1]⟩ w) (idxS : IVec ⟨2, ![N, 1]⟩ w') :
    mat (Host.scatterAdd (F := Ideal) d
        (broadcastInDim ⟨2, ![R, C]⟩ ![] hz (constant (F := Ideal) ⟨0, ![]⟩ .f32 0x00000000#32)) idxD
        (extf .f32 (Host.gather g P idxS) hψ))
      = gsum (sentTo idxD) (srcOf hR idxS) (mat (P : (⟨2, ![R, C]⟩ : Shape).Idx → EReal)) := by
  funext r c
  unfold mat gsum
  rw [scatterAdd_rows d h1 h2 h3 h4, Cert.HostLayout.scalar_apply, constant_apply, Ideal.ofBits_zero_f32, zero_add]
  refine Finset.sum_congr rfl fun n _ => ?_
  refine if_congr Iff.rfl ?_ rfl
  rw [extf_apply]
  exact gather_rows g k1 k2 k3 k4 k5 k6 k7 hR P idxS n c

/-- Gathered rows times a per-edge weight column, scatter-added into zeros: the edgewise propagation, when the weight of
    edge n is D at the node it reads times D at the node `t n`. -/
theorem refConv_mat (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R)
    (hz : (⟨0, ![]⟩ : Shape).BroadcastsInDim ⟨2, ![R, C]⟩ ![])
    (b2 : (⟨2, ![N, 1]⟩ : Shape).BroadcastsInDim ⟨2, ![N, C]⟩ ![0, 1]) {w w' : Nat}
    (wcol : FVec Ideal ⟨2, ![N, 1]⟩ .f32) (H : FVec Ideal ⟨2, ![R, C]⟩ .f32)
    (idxD : IVec ⟨2, ![N, 1]⟩ w) (idxS : IVec ⟨2, ![N, 1]⟩ w') (t : Fin N → Fin R) (D : Fin R → EReal)
    (hw : ∀ n : Fin N, wcol (ix2 n (0 : Fin 1)) = D (srcOf hR idxS n) * D (t n)) :
    mat (Host.scatterAdd (F := Ideal) d
        (broadcastInDim ⟨2, ![R, C]⟩ ![] hz (constant (F := Ideal) ⟨0, ![]⟩ .f32 0x00000000#32)) idxD
        (mulf (broadcastInDim ⟨2, ![N, C]⟩ ![0, 1] b2 wcol) (Host.gather g H idxS)))
      = convR (sentTo idxD) (srcOf hR idxS) t D (mat H) := by
  funext r c
  unfold mat convR
  rw [scatter_mul_gather d g h1 h2 h3 h4 k1 k2 k3 k4 k5 k6 k7 hR, Cert.HostLayout.scalar_apply, constant_apply,
    Ideal.ofBits_zero_f32, zero_add]
  refine Finset.sum_congr rfl fun n _ => ?_
  refine if_congr Iff.rfl ?_ rfl
  rw [Cert.RowLogSoftmax.hostColBroadcast_apply, hw n]
  rfl

end Scatter

/-- The host's dense layer: a plain product plus a bias vector laid over the rows. -/
theorem hostLin_mat {M : Nat} (prec : Option ContractPrecision) (X : FVec Ideal ⟨2, ![M, K]⟩ .f32)
    (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1]) :
    mat (addf (Host.dotGeneral (F := Ideal) (DotDims.plain M K C) prec X W)
        (broadcastInDim ⟨2, ![M, C]⟩ ![0, 1] h2 (broadcastInDim ⟨2, ![1, C]⟩ ![1] h1 b)))
      = lin (mat X) (mat W) (vec b) := by
  funext r c
  unfold mat lin vec
  rw [addf_apply, Cert.LibHostReads.dotGeneral_plain_apply, Cert.HostLayout.biasRow_apply]

/-- The host's normalisation: (A − μ) · σ + β, cut off below at zero, with μ, σ, β vectors laid over the rows. -/
theorem hostBn_mat {M : Nat} (A : FVec Ideal ⟨2, ![M, C]⟩ .f32) (mu sg be : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (hz : (⟨0, ![]⟩ : Shape).BroadcastsInDim ⟨2, ![M, C]⟩ ![]) :
    mat (maximumf (addf (mulf (subf A (broadcastInDim ⟨2, ![M, C]⟩ ![0, 1] h2 (broadcastInDim ⟨2, ![1, C]⟩ ![1] h1 mu)))
          (broadcastInDim ⟨2, ![M, C]⟩ ![0, 1] h2 (broadcastInDim ⟨2, ![1, C]⟩ ![1] h1 sg)))
          (broadcastInDim ⟨2, ![M, C]⟩ ![0, 1] h2 (broadcastInDim ⟨2, ![1, C]⟩ ![1] h1 be)))
        (broadcastInDim ⟨2, ![M, C]⟩ ![] hz (constant (F := Ideal) ⟨0, ![]⟩ .f32 0x00000000#32)))
      = bnR (vec sg) (vec mu) (vec be) (mat A) := by
  funext r c
  unfold mat bnR vec
  rw [maximumf_apply, addf_apply, mulf_apply, subf_apply, Cert.HostLayout.biasRow_apply, Cert.HostLayout.biasRow_apply,
    Cert.HostLayout.biasRow_apply, Cert.HostLayout.scalar_apply, constant_apply, Ideal.ofBits_zero_f32]

section Blocks

variable {TM : Nat}

/-- One block of rows of the first layer on the vector unit, read at (p, q): the dense layer of row p, times the row's
    scale. (The narrowings to a shorter float format change nothing on the extended reals.) -/
theorem pay0_apply {ψ : FTy} (hψ : ψ.bits < FTy.f32.bits)
    (x : FVec Ideal ⟨2, ![TM, K]⟩ .f32) (w : FVec Ideal ⟨2, ![K, C]⟩ .f32) (brow : FVec Ideal ⟨2, ![1, C]⟩ .f32)
    (dcol : FVec Ideal ⟨2, ![TM, 1]⟩ .f32)
    (hs1 : (⟨2, ![1, C]⟩ : Shape).ShapeCasts ⟨2, ![1, C]⟩) (hb1 : (⟨2, ![1, C]⟩ : Shape).Broadcasts ⟨2, ![TM, C]⟩)
    (hs2 : (⟨2, ![TM, 1]⟩ : Shape).ShapeCasts ⟨2, ![TM, 1]⟩) (hb2 : (⟨2, ![TM, 1]⟩ : Shape).Broadcasts ⟨2, ![TM, C]⟩)
    (p : Fin TM) (q : Fin C) :
    (truncf ψ (mulf (addf (FloatOps.matmul (DotDims.plain TM K C) none (truncf ψ x hψ) (truncf ψ w hψ)
            (constant ⟨2, ![TM, C]⟩ .f32 0x00000000#32))
          (broadcastTo ⟨2, ![TM, C]⟩ (shapeCast ⟨2, ![1, C]⟩ brow hs1) hb1))
        (broadcastTo ⟨2, ![TM, C]⟩ (shapeCast ⟨2, ![TM, 1]⟩ dcol hs2) hb2)) hψ : FVec Ideal ⟨2, ![TM, C]⟩ ψ) (ix2 p q)
      = ((∑ k : Fin K, x (ix2 p k) * w (ix2 k q)) + brow (ix2 (0 : Fin 1) q)) * dcol (ix2 p (0 : Fin 1)) := by
  rw [truncf_apply, mulf_apply, addf_apply, Cert.PlainMatmul.matmul_zero_apply, Cert.ColRowBroadcast.rowBroadcast_apply,
    Cert.ColRowBroadcast.colBroadcast_apply, shapeCast_self, shapeCast_self]
  rfl

/-- One block of rows of a later layer on the vector unit, read at (p, q): the row's sums scaled, normalised with a scale
    row and a shift row and cut off below at zero, then the dense layer, times the row's scale. -/
theorem pay1_apply {ψ : FTy} (hψ : ψ.bits < FTy.f32.bits)
    (a : FVec Ideal ⟨2, ![TM, K]⟩ .f32) (dcol : FVec Ideal ⟨2, ![TM, 1]⟩ .f32)
    (sc sh : FVec Ideal ⟨2, ![1, K]⟩ .f32) (w : FVec Ideal ⟨2, ![K, C]⟩ .f32) (brow : FVec Ideal ⟨2, ![1, C]⟩ .f32)
    (dcol' : FVec Ideal ⟨2, ![TM, 1]⟩ .f32)
    (hsa : (⟨2, ![TM, K]⟩ : Shape).ShapeCasts ⟨2, ![TM, K]⟩)
    (hsd : (⟨2, ![TM, 1]⟩ : Shape).ShapeCasts ⟨2, ![TM, 1]⟩) (hbd : (⟨2, ![TM, 1]⟩ : Shape).Broadcasts ⟨2, ![TM, K]⟩)
    (hsk : (⟨2, ![1, K]⟩ : Shape).ShapeCasts ⟨2, ![1, K]⟩) (hbk : (⟨2, ![1, K]⟩ : Shape).Broadcasts ⟨2, ![TM, K]⟩)
    (hs1 : (⟨2, ![1, C]⟩ : Shape).ShapeCasts ⟨2, ![1, C]⟩) (hb1 : (⟨2, ![1, C]⟩ : Shape).Broadcasts ⟨2, ![TM, C]⟩)
    (hb2 : (⟨2, ![TM, 1]⟩ : Shape).Broadcasts ⟨2, ![TM, C]⟩)
    (p : Fin TM) (q : Fin C) :
    (truncf ψ (mulf (addf (FloatOps.matmul (DotDims.plain TM K C) none
            (truncf ψ (maximumf (addf (mulf (mulf (shapeCast ⟨2, ![TM, K]⟩ a hsa)
                  (broadcastTo ⟨2, ![TM, K]⟩ (shapeCast ⟨2, ![TM, 1]⟩ dcol hsd) hbd))
                (broadcastTo ⟨2, ![TM, K]⟩ (shapeCast ⟨2, ![1, K]⟩ sc hsk) hbk))
                (broadcastTo ⟨2, ![TM, K]⟩ (shapeCast ⟨2, ![1, K]⟩ sh hsk) hbk))
              (broadcast ⟨2, ![TM, K]⟩ (Scalar.ofBits (F := Ideal) .f32 0x00000000#32))) hψ)
            (truncf ψ w hψ) (constant ⟨2, ![TM, C]⟩ .f32 0x00000000#32))
          (broadcastTo ⟨2, ![TM, C]⟩ (shapeCast ⟨2, ![1, C]⟩ brow hs1) hb1))
        (broadcastTo ⟨2, ![TM, C]⟩ (shapeCast ⟨2, ![TM, 1]⟩ dcol' hsd) hb2)) hψ : FVec Ideal ⟨2, ![TM, C]⟩ ψ) (ix2 p q)
      = ((∑ k : Fin K, max ((a (ix2 p k) * dcol (ix2 p (0 : Fin 1))) * sc (ix2 (0 : Fin 1) k) + sh (ix2 (0 : Fin 1) k)) 0
            * w (ix2 k q)) + brow (ix2 (0 : Fin 1) q)) * dcol' (ix2 p (0 : Fin 1)) := by
  simp only [shapeCast_self]
  rw [truncf_apply, mulf_apply, addf_apply, Cert.PlainMatmul.matmul_zero_apply, Cert.ColRowBroadcast.rowBroadcast_apply,
    Cert.ColRowBroadcast.colBroadcast_apply]
  refine congrArg (fun z => (z + brow (ix2 (0 : Fin 1) q)) * dcol' (ix2 p (0 : Fin 1))) (Finset.sum_congr rfl fun k _ => ?_)
  rw [truncf_apply, truncf_apply, maximumf_apply, addf_apply, mulf_apply, mulf_apply, broadcast_apply,
    Cert.ColRowBroadcast.rowBroadcast_apply, Cert.ColRowBroadcast.rowBroadcast_apply,
    Cert.ColRowBroadcast.colBroadcast_apply]
  show max _ (Ideal.ofBits .f32 0x00000000#32) * _ = _
  rw [Ideal.ofBits_zero_f32]

end Blocks

end Cert.GcnHost

end
-- ==== Proof.Region0.lean ====
/-
  Pallas call 0 of the kernel program, from blocks to the whole array.

  The grid has ten points; point t stages rows 5000·t … 5000·t + 4999 of each row-blocked operand and the whole of every
  other operand, and writes back rows 5000·t … 5000·t + 4999 of the result. `G` is the result array as one function of
  the operand arrays, entry by entry; what point t writes back is block t of `G` (`flushed_eq`), the ten blocks tile the
  array (`cover`), so after the call the array is `G` of the operand arrays as the call found them (`final`).
-/
import proofs.«135466_j22454089023507_2_alg».proof.Proof.Gen.KernelIdeal.Frame
import proofs.«135466_j22454089023507_2_alg».proof.Proof.LibGcnReads

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry by entry, from the operand arrays. -/
def G (a0 : S50000x128.Idx → EReal) (a1 : S128x128.Idx → EReal) (a2 : S1x128.Idx → EReal) (a3 : S50000x1.Idx → EReal) : S50000x128.Idx → EReal := fun i =>
  ((∑ k : Fin 128, a0 (ix2 (i 0) k) * a1 (ix2 k (i 1))) + a2 (ix2 (0 : Fin 1) (i 1))) * a3 (ix2 (i 0) (0 : Fin 1))

/-- The body's arithmetic on one block, read at one entry. -/
theorem pay_apply (x : Vec Ideal S5000x128 .f32) (w : Vec Ideal S128x128 .f32) (b : Vec Ideal S1x128 .f32) (d : Vec Ideal S5000x1 .f32)
    (p : Fin 5000) (q : Fin 128) :
    (k0_pay1 (F := Ideal) x w b d (ix2 p q) : EReal)
      = ((∑ k : Fin 128, x (ix2 p k) * w (ix2 k q)) + b (ix2 (0 : Fin 1) q)) * d (ix2 p (0 : Fin 1)) :=
  Cert.GcnHost.pay0_apply bitsLt_bf16_f32 x w b d shapeCasts_S1x128_S1x128 broadcasts_S1x128_S5000x128
    shapeCasts_S5000x1_S5000x1 broadcasts_S5000x1_S5000x128 p q

/-- The printed index maps, decided over the grid. -/
theorem idx_facts : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = win0_4.index t (0 : Fin 2)
    ∧ win0_3.index t (1 : Fin 2) = 0
    ∧ win0_4.index t (1 : Fin 2) = 0
    ∧ win0_4.index t (0 : Fin 2) ≤ 9 :=
  (by decide +kernel : ∀ t : Fin grid0.N, _)

/-- Every block of rows is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- WHAT POINT t WRITES BACK is block t of `G` of the operand arrays as the call finds them. -/
theorem flushed_eq (c : Dev nD) (t : Fin cfg0.N) :
    (dat0 V c).flushed 4 t = ((cfg0.win 4).blk t).view.read (Elt Ideal) (G (V c main_arg0) (V c main_arg2) (V c main_v15) (V c main_v14)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz, View.ld_unit_zero (S := S5000x1) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 3 t) p q).trans ?_
  show _ = G (V c main_arg0) (V c main_arg2) (V c main_v15) (V c main_v14) (((cfg0.win 4).blk t).view.emb (ix2 p q))
  unfold G
  have h0 : ∀ k : Fin 128, ((cfg0.win 0).blk t).view.emb (ix2 p k) = ix2 ((((cfg0.win 4).blk t).view.emb (ix2 p q)) 0) k := fun k => by
    funext a; apply Fin.ext
    match a with
    | ⟨0, _⟩ => show win0_0.index t (0 : Fin 2) * 5000 + 1 * (p : ℕ) = win0_4.index t (0 : Fin 2) * 5000 + 1 * (p : ℕ); omega
    | ⟨1, _⟩ => show win0_0.index t (1 : Fin 2) * 128 + 1 * (k : ℕ) = (k : ℕ); omega
  have h1 : ∀ k : Fin 128, ((cfg0.win 1).blk t).view.emb (ix2 k q) = ix2 k ((((cfg0.win 4).blk t).view.emb (ix2 p q)) 1) := fun k => by
    funext a; apply Fin.ext
    match a with
    | ⟨0, _⟩ => show win0_1.index t (0 : Fin 2) * 128 + 1 * (k : ℕ) = (k : ℕ); omega
    | ⟨1, _⟩ => show win0_1.index t (1 : Fin 2) * 128 + 1 * (q : ℕ) = win0_4.index t (1 : Fin 2) * 128 + 1 * (q : ℕ); omega
  have h2 : ((cfg0.win 2).blk t).view.emb (ix2 (0 : Fin 1) q) = ix2 (0 : Fin 1) ((((cfg0.win 4).blk t).view.emb (ix2 p q)) 1) := by
    funext a; apply Fin.ext
    match a with
    | ⟨0, _⟩ => show win0_2.index t (0 : Fin 2) * 1 + 1 * ((0 : Fin 1) : ℕ) = ((0 : Fin 1) : ℕ); omega
    | ⟨1, _⟩ => show win0_2.index t (1 : Fin 2) * 128 + 1 * (q : ℕ) = win0_4.index t (1 : Fin 2) * 128 + 1 * (q : ℕ); omega
  have h3 : ((cfg0.win 3).blk t).view.emb (ix2 p (0 : Fin 1)) = ix2 ((((cfg0.win 4).blk t).view.emb (ix2 p q)) 0) (0 : Fin 1) := by
    funext a; apply Fin.ext
    match a with
    | ⟨0, _⟩ => show win0_3.index t (0 : Fin 2) * 5000 + 1 * (p : ℕ) = win0_4.index t (0 : Fin 2) * 5000 + 1 * (p : ℕ); omega
    | ⟨1, _⟩ => show win0_3.index t (1 : Fin 2) * 1 + 1 * ((0 : Fin 1) : ℕ) = ((0 : Fin 1) : ℕ); omega
  have r0 : ∀ k : Fin 128, (iblk0 V c 0 t (ix2 p k) : EReal) = (V c main_arg0 (ix2 ((((cfg0.win 4).blk t).view.emb (ix2 p q)) 0) k) : EReal) := fun k => congrArg (V c main_arg0) (h0 k)
  have r1 : ∀ k : Fin 128, (iblk0 V c 1 t (ix2 k q) : EReal) = (V c main_arg2 (ix2 k ((((cfg0.win 4).blk t).view.emb (ix2 p q)) 1)) : EReal) := fun k => congrArg (V c main_arg2) (h1 k)
  have r2 : (iblk0 V c 2 t (ix2 (0 : Fin 1) q) : EReal) = (V c main_v15 (ix2 (0 : Fin 1) ((((cfg0.win 4).blk t).view.emb (ix2 p q)) 1)) : EReal) := congrArg (V c main_v15) h2
  have r3 : (iblk0 V c 3 t (ix2 p (0 : Fin 1)) : EReal) = (V c main_v14 (ix2 ((((cfg0.win 4).blk t).view.emb (ix2 p q)) 0) (0 : Fin 1)) : EReal) := congrArg (V c main_v14) h3
  rw [r2, r3]
  simp only [r0, r1]

/-- An index of the array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- The ten blocks tile the array: row r is in the block of point r / 5000. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY after the call: `G` of the operand arrays as the call found them. -/
theorem final (c : Dev nD) : (dat0 V c).arrAt 4 cfg0.N = G (V c main_arg0) (V c main_arg2) (V c main_v15) (V c main_v14) :=
  (dat0 V c).arrAt_eq_of_cover 4 _ (fun t _ => flushed_eq V c t) cover

end Cert.KernelIdeal.Region0

end
-- ==== Proof.Region1.lean ====
/-
  Pallas call 1 of the kernel program, from blocks to the whole array.

  The grid has ten points; point t stages rows 5000·t … 5000·t + 4999 of each row-blocked operand and the whole of every
  other operand, and writes back rows 5000·t … 5000·t + 4999 of the result. `G` is the result array as one function of
  the operand arrays, entry by entry; what point t writes back is block t of `G` (`flushed_eq`), the ten blocks tile the
  array (`cover`), so after the call the array is `G` of the operand arrays as the call found them (`final`).
-/
import proofs.«135466_j22454089023507_2_alg».proof.Proof.Gen.KernelIdeal.Frame
import proofs.«135466_j22454089023507_2_alg».proof.Proof.LibGcnReads

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry by entry, from the operand arrays. -/
def G (a0 : S50000x128.Idx → EReal) (a1 : S50000x1.Idx → EReal) (a2 : S1x128.Idx → EReal) (a3 : S1x128.Idx → EReal) (a4 : S128x128.Idx → EReal) (a5 : S1x128.Idx → EReal) : S50000x128.Idx → EReal := fun i =>
  ((∑ k : Fin 128, max ((a0 (ix2 (i 0) k) * a1 (ix2 (i 0) (0 : Fin 1))) * a2 (ix2 (0 : Fin 1) k) + a3 (ix2 (0 : Fin 1) k)) 0
      * a4 (ix2 k (i 1))) + a5 (ix2 (0 : Fin 1) (i 1))) * a1 (ix2 (i 0) (0 : Fin 1))

/-- The body's arithmetic on one block, read at one entry. -/
theorem pay_apply (a : Vec Ideal S5000x128 .f32) (d : Vec Ideal S5000x1 .f32) (sc sh : Vec Ideal S1x128 .f32)
    (w : Vec Ideal S128x128 .f32) (b : Vec Ideal S1x128 .f32) (d' : Vec Ideal S5000x1 .f32)
    (p : Fin 5000) (q : Fin 128) :
    (k1_pay1 (F := Ideal) a d sc sh w b d' (ix2 p q) : EReal)
      = ((∑ k : Fin 128, max ((a (ix2 p k) * d (ix2 p (0 : Fin 1))) * sc (ix2 (0 : Fin 1) k) + sh (ix2 (0 : Fin 1) k)) 0
            * w (ix2 k q)) + b (ix2 (0 : Fin 1) q)) * d' (ix2 p (0 : Fin 1)) :=
  Cert.GcnHost.pay1_apply bitsLt_bf16_f32 a d sc sh w b d' shapeCasts_S5000x128_S5000x128
    shapeCasts_S5000x1_S5000x1 broadcasts_S5000x1_S5000x128
    shapeCasts_S1x128_S1x128 broadcasts_S1x128_S5000x128
    shapeCasts_S1x128_S1x128 broadcasts_S1x128_S5000x128 broadcasts_S5000x1_S5000x128 p q

/-- The printed index maps, decided over the grid. -/
theorem idx_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (1 : Fin 2) = 0
    ∧ win1_6.index t (0 : Fin 2) ≤ 9 :=
  (by decide +kernel : ∀ t : Fin grid1.N, _)

/-- Every block of rows is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

set_option maxHeartbeats 4000000 in
/-- WHAT POINT t WRITES BACK is block t of `G` of the operand arrays as the call finds them. -/
theorem flushed_eq (c : Dev nD) (t : Fin cfg1.N) :
    (dat1 V c).flushed 6 t = ((cfg1.win 6).blk t).view.read (Elt Ideal) (G (V c main_v27) (V c main_v14) (V c main_v34) (V c main_v35) (V c main_arg4) (V c main_v36)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz, View.ld_unit_zero (S := S128x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) (iblk1 V c 4 t) (iblk1 V c 5 t) (iblk1 V c 1 t) p q).trans ?_
  show _ = G (V c main_v27) (V c main_v14) (V c main_v34) (V c main_v35) (V c main_arg4) (V c main_v36) (((cfg1.win 6).blk t).view.emb (ix2 p q))
  unfold G
  have h0 : ∀ k : Fin 128, ((cfg1.win 0).blk t).view.emb (ix2 p k) = ix2 ((((cfg1.win 6).blk t).view.emb (ix2 p q)) 0) k := fun k => by
    funext a; apply Fin.ext
    match a with
    | ⟨0, _⟩ => show win1_0.index t (0 : Fin 2) * 5000 + 1 * (p : ℕ) = win1_6.index t (0 : Fin 2) * 5000 + 1 * (p : ℕ); omega
    | ⟨1, _⟩ => show win1_0.index t (1 : Fin 2) * 128 + 1 * (k : ℕ) = (k : ℕ); omega
  have h1 : ((cfg1.win 1).blk t).view.emb (ix2 p (0 : Fin 1)) = ix2 ((((cfg1.win 6).blk t).view.emb (ix2 p q)) 0) (0 : Fin 1) := by
    funext a; apply Fin.ext
    match a with
    | ⟨0, _⟩ => show win1_1.index t (0 : Fin 2) * 5000 + 1 * (p : ℕ) = win1_6.index t (0 : Fin 2) * 5000 + 1 * (p : ℕ); omega
    | ⟨1, _⟩ => show win1_1.index t (1 : Fin 2) * 1 + 1 * ((0 : Fin 1) : ℕ) = ((0 : Fin 1) : ℕ); omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * ((0 : Fin 1) : ℕ) = ((0 : Fin 1) : ℕ); omega
    | ⟨1, _⟩ => show win1_2.index t (1 : Fin 2) * 128 + 1 * (k : ℕ) = (k : ℕ); omega
  have h3 : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * ((0 : Fin 1) : ℕ) = ((0 : Fin 1) : ℕ); omega
    | ⟨1, _⟩ => show win1_3.index t (1 : Fin 2) * 128 + 1 * (k : ℕ) = (k : ℕ); omega
  have h4 : ∀ k : Fin 128, ((cfg1.win 4).blk t).view.emb (ix2 k q) = ix2 k ((((cfg1.win 6).blk t).view.emb (ix2 p q)) 1) := fun k => by
    funext a; apply Fin.ext
    match a with
    | ⟨0, _⟩ => show win1_4.index t (0 : Fin 2) * 128 + 1 * (k : ℕ) = (k : ℕ); omega
    | ⟨1, _⟩ => show win1_4.index t (1 : Fin 2) * 128 + 1 * (q : ℕ) = win1_6.index t (1 : Fin 2) * 128 + 1 * (q : ℕ); omega
  have h5 : ((cfg1.win 5).blk t).view.emb (ix2 (0 : Fin 1) q) = ix2 (0 : Fin 1) ((((cfg1.win 6).blk t).view.emb (ix2 p q)) 1) := by
    funext a; apply Fin.ext
    match a with
    | ⟨0, _⟩ => show win1_5.index t (0 : Fin 2) * 1 + 1 * ((0 : Fin 1) : ℕ) = ((0 : Fin 1) : ℕ); omega
    | ⟨1, _⟩ => show win1_5.index t (1 : Fin 2) * 128 + 1 * (q : ℕ) = win1_6.index t (1 : Fin 2) * 128 + 1 * (q : ℕ); omega
  have r0 : ∀ k : Fin 128, (iblk1 V c 0 t (ix2 p k) : EReal) = (V c main_v27 (ix2 ((((cfg1.win 6).blk t).view.emb (ix2 p q)) 0) k) : EReal) := fun k => congrArg (V c main_v27) (h0 k)
  have r1 : (iblk1 V c 1 t (ix2 p (0 : Fin 1)) : EReal) = (V c main_v14 (ix2 ((((cfg1.win 6).blk t).view.emb (ix2 p q)) 0) (0 : Fin 1)) : EReal) := congrArg (V c main_v14) h1
  have r2 : ∀ k : Fin 128, (iblk1 V c 2 t (ix2 (0 : Fin 1) k) : EReal) = (V c main_v34 (ix2 (0 : Fin 1) k) : EReal) := fun k => congrArg (V c main_v34) (h2 k)
  have r3 : ∀ k : Fin 128, (iblk1 V c 3 t (ix2 (0 : Fin 1) k) : EReal) = (V c main_v35 (ix2 (0 : Fin 1) k) : EReal) := fun k => congrArg (V c main_v35) (h3 k)
  have r4 : ∀ k : Fin 128, (iblk1 V c 4 t (ix2 k q) : EReal) = (V c main_arg4 (ix2 k ((((cfg1.win 6).blk t).view.emb (ix2 p q)) 1)) : EReal) := fun k => congrArg (V c main_arg4) (h4 k)
  have r5 : (iblk1 V c 5 t (ix2 (0 : Fin 1) q) : EReal) = (V c main_v36 (ix2 (0 : Fin 1) ((((cfg1.win 6).blk t).view.emb (ix2 p q)) 1)) : EReal) := congrArg (V c main_v36) h5
  rw [r1, r5]
  simp only [r0, r2, r3, r4]

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v37).slice (win1_6.rect t)).set ↔ _
  rw [View.set_slice_whole, Rect.mem_set_unit]
  exact Iff.rfl

/-- The ten blocks tile the array: row r is in the block of point r / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE ARRAY after the call: `G` of the operand arrays as the call found them. -/
theorem final (c : Dev nD) : (dat1 V c).arrAt 6 cfg1.N = G (V c main_v27) (V c main_v14) (V c main_v34) (V c main_v35) (V c main_arg4) (V c main_v36) :=
  (dat1 V c).arrAt_eq_of_cover 6 _ (fun t _ => flushed_eq V c t) cover

end Cert.KernelIdeal.Region1

end
-- ==== Proof.Region2.lean ====
/-
  Pallas call 2 of the kernel program, from blocks to the whole array.

  The grid has ten points; point t stages rows 5000·t … 5000·t + 4999 of each row-blocked operand and the whole of every
  other operand, and writes back rows 5000·t … 5000·t + 4999 of the result. `G` is the result array as one function of
  the operand arrays, entry by entry; what point t writes back is block t of `G` (`flushed_eq`), the ten blocks tile the
  array (`cover`), so after the call the array is `G` of the operand arrays as the call found them (`final`).
-/
import proofs.«135466_j22454089023507_2_alg».proof.Proof.Gen.KernelIdeal.Frame
import proofs.«135466_j22454089023507_2_alg».proof.Proof.LibGcnReads

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry by entry, from the operand arrays. -/
def G (a0 : S50000x128.Idx → EReal) (a1 : S50000x1.Idx → EReal) (a2 : S1x128.Idx → EReal) (a3 : S1x128.Idx → EReal) (a4 : S128x40.Idx → EReal) (a5 : S1x40.Idx → EReal) : S50000x40.Idx → EReal := fun i =>
  ((∑ k : Fin 128, max ((a0 (ix2 (i 0) k) * a1 (ix2 (i 0) (0 : Fin 1))) * a2 (ix2 (0 : Fin 1) k) + a3 (ix2 (0 : Fin 1) k)) 0
      * a4 (ix2 k (i 1))) + a5 (ix2 (0 : Fin 1) (i 1))) * a1 (ix2 (i 0) (0 : Fin 1))

/-- The body's arithmetic on one block, read at one entry. -/
theorem pay_apply (a : Vec Ideal S5000x128 .f32) (d : Vec Ideal S5000x1 .f32) (sc sh : Vec Ideal S1x128 .f32)
    (w : Vec Ideal S128x40 .f32) (b : Vec Ideal S1x40 .f32) (d' : Vec Ideal S5000x1 .f32)
    (p : Fin 5000) (q : Fin 40) :
    (k2_pay1 (F := Ideal) a d sc sh w b d' (ix2 p q) : EReal)
      = ((∑ k : Fin 128, max ((a (ix2 p k) * d (ix2 p (0 : Fin 1))) * sc (ix2 (0 : Fin 1) k) + sh (ix2 (0 : Fin 1) k)) 0
            * w (ix2 k q)) + b (ix2 (0 : Fin 1) q)) * d' (ix2 p (0 : Fin 1)) :=
  Cert.GcnHost.pay1_apply bitsLt_bf16_f32 a d sc sh w b d' shapeCasts_S5000x128_S5000x128
    shapeCasts_S5000x1_S5000x1 broadcasts_S5000x1_S5000x128
    shapeCasts_S1x128_S1x128 broadcasts_S1x128_S5000x128
    shapeCasts_S1x40_S1x40 broadcasts_S1x40_S5000x40 broadcasts_S5000x1_S5000x40 p q

/-- The printed index maps, decided over the grid. -/
theorem idx_facts : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (1 : Fin 2) = 0
    ∧ win2_6.index t (0 : Fin 2) ≤ 9 :=
  (by decide +kernel : ∀ t : Fin grid2.N, _)

/-- Every block of rows is some point's. -/
theorem idx_onto : ∀ q0 : Fin 10, ∃ t : Fin cfg2.N, win2_6.index t = ![q0.val, 0] :=
  (by decide +kernel : ∀ q0 : Fin 10, ∃ t : Fin grid2.N, win2_6.index t = ![q0.val, 0])

set_option maxHeartbeats 4000000 in
/-- WHAT POINT t WRITES BACK is block t of `G` of the operand arrays as the call finds them. -/
theorem flushed_eq (c : Dev nD) (t : Fin cfg2.N) :
    (dat2 V c).flushed 6 t = ((cfg2.win 6).blk t).view.read (Elt Ideal) (G (V c main_v48) (V c main_v14) (V c main_v55) (V c main_v56) (V c main_arg6) (V c main_v57)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S1x128) hz, View.ld_unit_zero (S := S128x40) hz, View.ld_unit_zero (S := S1x40) hz, View.ld_unit_zero (S := S5000x40) hz]
  obtain ⟨e0, e1, e2, e3, e4, e5, e6, e7, e8, e9, e10, e11, e12, e13⟩ := idx_facts t
  funext j
  obtain ⟨p, q, rfl⟩ : ∃ (p : Fin 5000) (q : Fin 40), j = ix2 p q := ⟨j 0, j 1, eq_ix2 j⟩
  refine (pay_apply (iblk2 V c 0 t) (iblk2 V c 1 t) (iblk2 V c 2 t) (iblk2 V c 3 t) (iblk2 V c 4 t) (iblk2 V c 5 t) (iblk2 V c 1 t) p q).trans ?_
  show _ = G (V c main_v48) (V c main_v14) (V c main_v55) (V c main_v56) (V c main_arg6) (V c main_v57) (((cfg2.win 6).blk t).view.emb (ix2 p q))
  unfold G
  have h0 : ∀ k : Fin 128, ((cfg2.win 0).blk t).view.emb (ix2 p k) = ix2 ((((cfg2.win 6).blk t).view.emb (ix2 p q)) 0) k := fun k => by
    funext a; apply Fin.ext
    match a with
    | ⟨0, _⟩ => show win2_0.index t (0 : Fin 2) * 5000 + 1 * (p : ℕ) = win2_6.index t (0 : Fin 2) * 5000 + 1 * (p : ℕ); omega
    | ⟨1, _⟩ => show win2_0.index t (1 : Fin 2) * 128 + 1 * (k : ℕ) = (k : ℕ); omega
  have h1 : ((cfg2.win 1).blk t).view.emb (ix2 p (0 : Fin 1)) = ix2 ((((cfg2.win 6).blk t).view.emb (ix2 p q)) 0) (0 : Fin 1) := by
    funext a; apply Fin.ext
    match a with
    | ⟨0, _⟩ => show win2_1.index t (0 : Fin 2) * 5000 + 1 * (p : ℕ) = win2_6.index t (0 : Fin 2) * 5000 + 1 * (p : ℕ); omega
    | ⟨1, _⟩ => show win2_1.index t (1 : Fin 2) * 1 + 1 * ((0 : Fin 1) : ℕ) = ((0 : Fin 1) : ℕ); omega
  have h2 : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * ((0 : Fin 1) : ℕ) = ((0 : Fin 1) : ℕ); omega
    | ⟨1, _⟩ => show win2_2.index t (1 : Fin 2) * 128 + 1 * (k : ℕ) = (k : ℕ); omega
  have h3 : ∀ k : Fin 128, ((cfg2.win 3).blk t).view.emb (ix2 (0 : Fin 1) k) = ix2 (0 : Fin 1) k := fun k => by
    funext a; apply Fin.ext
    match a with
    | ⟨0, _⟩ => show win2_3.index t (0 : Fin 2) * 1 + 1 * ((0 : Fin 1) : ℕ) = ((0 : Fin 1) : ℕ); omega
    | ⟨1, _⟩ => show win2_3.index t (1 : Fin 2) * 128 + 1 * (k : ℕ) = (k : ℕ); omega
  have h4 : ∀ k : Fin 128, ((cfg2.win 4).blk t).view.emb (ix2 k q) = ix2 k ((((cfg2.win 6).blk t).view.emb (ix2 p q)) 1) := fun k => by
    funext a; apply Fin.ext
    match a with
    | ⟨0, _⟩ => show win2_4.index t (0 : Fin 2) * 128 + 1 * (k : ℕ) = (k : ℕ); omega
    | ⟨1, _⟩ => show win2_4.index t (1 : Fin 2) * 40 + 1 * (q : ℕ) = win2_6.index t (1 : Fin 2) * 40 + 1 * (q : ℕ); omega
  have h5 : ((cfg2.win 5).blk t).view.emb (ix2 (0 : Fin 1) q) = ix2 (0 : Fin 1) ((((cfg2.win 6).blk t).view.emb (ix2 p q)) 1) := by
    funext a; apply Fin.ext
    match a with
    | ⟨0, _⟩ => show win2_5.index t (0 : Fin 2) * 1 + 1 * ((0 : Fin 1) : ℕ) = ((0 : Fin 1) : ℕ); omega
    | ⟨1, _⟩ => show win2_5.index t (1 : Fin 2) * 40 + 1 * (q : ℕ) = win2_6.index t (1 : Fin 2) * 40 + 1 * (q : ℕ); omega
  have r0 : ∀ k : Fin 128, (iblk2 V c 0 t (ix2 p k) : EReal) = (V c main_v48 (ix2 ((((cfg2.win 6).blk t).view.emb (ix2 p q)) 0) k) : EReal) := fun k => congrArg (V c main_v48) (h0 k)
  have r1 : (iblk2 V c 1 t (ix2 p (0 : Fin 1)) : EReal) = (V c main_v14 (ix2 ((((cfg2.win 6).blk t).view.emb (ix2 p q)) 0) (0 : Fin 1)) : EReal) := congrArg (V c main_v14) h1
  have r2 : ∀ k : Fin 128, (iblk2 V c 2 t (ix2 (0 : Fin 1) k) : EReal) = (V c main_v55 (ix2 (0 : Fin 1) k) : EReal) := fun k => congrArg (V c main_v55) (h2 k)
  have r3 : ∀ k : Fin 128, (iblk2 V c 3 t (ix2 (0 : Fin 1) k) : EReal) = (V c main_v56 (ix2 (0 : Fin 1) k) : EReal) := fun k => congrArg (V c main_v56) (h3 k)
  have r4 : ∀ k : Fin 128, (iblk2 V c 4 t (ix2 k q) : EReal) = (V c main_arg6 (ix2 k ((((cfg2.win 6).blk t).view.emb (ix2 p q)) 1)) : EReal) := fun k => congrArg (V c main_arg6) (h4 k)
  have r5 : (iblk2 V c 5 t (ix2 (0 : Fin 1) q) : EReal) = (V c main_v57 (ix2 (0 : Fin 1) ((((cfg2.win 6).blk t).view.emb (ix2 p q)) 1)) : EReal) := congrArg (V c main_v57) h5
  rw [r1, r5]
  simp only [r0, r2, r3, r4]

/-- An index of the array is in point t's block iff each coordinate is in the block's range on its axis. -/
theorem mem_blk (t : Fin cfg2.N) (i : S50000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v58).slice (win2_6.rect t)).set ↔ _
  rw [View.set_slice_whole, Rect.mem_set_unit]
  exact Iff.rfl

/-- The ten blocks tile the array: row r is in the block of point r / 5000. -/
theorem cover (i : S50000x40.Idx) : ∃ t : Fin cfg2.N, (cfg2.win 6).flush t = true ∧ i ∈ ((cfg2.win 6).blk t).view.set := by
  have hi0 : (i 0).val < 50000 := (i 0).isLt
  have hi1 : (i 1).val < 40 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 40 ≤ (i 1).val ∧ (i 1).val < win2_6.index t (1 : Fin 2) * 40 + 40; omega

/-- THE ARRAY after the call: `G` of the operand arrays as the call found them. -/
theorem final (c : Dev nD) : (dat2 V c).arrAt 6 cfg2.N = G (V c main_v48) (V c main_v14) (V c main_v55) (V c main_v56) (V c main_arg6) (V c main_v57) :=
  (dat2 V c).arrAt_eq_of_cover 6 _ (fun t _ => flushed_eq V c t) cover

end Cert.KernelIdeal.Region2

end
-- ==== Proof.Region3.lean ====
/-
  Pallas call 3 of the kernel program, from blocks to the whole array.

  The grid has ten points; point t stages rows 5000·t … 5000·t + 4999 of each row-blocked operand and the whole of every
  other operand, and writes back rows 5000·t … 5000·t + 4999 of the result. `G` is the result array as one function of
  the operand arrays, entry by entry; what point t writes back is block t of `G` (`flushed_eq`), the ten blocks tile the
  array (`cover`), so after the call the array is `G` of the operand arrays as the call found them (`final`).
-/
import proofs.«135466_j22454089023507_2_alg».proof.Proof.Gen.KernelIdeal.Frame
import proofs.«135466_j22454089023507_2_alg».proof.Proof.LibGcnReads
import proofs.«135466_j22454089023507_2_alg».proof.Proof.LibRowLogSoftmax
import proofs.«135466_j22454089023507_2_alg».proof.Proof.LibColRowBroadcast

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry by entry, from the operand arrays. -/
def G (a0 : S50000x40.Idx → EReal) (a1 : S50000x1.Idx → EReal) : S50000x40.Idx → EReal := fun i =>
  Cert.RowLogSoftmax.rowLogSoftmax (fun k : Fin 40 => a0 (ix2 (i 0) k) * a1 (ix2 (i 0) (0 : Fin 1))) (i 1)

/-- The body's arithmetic on one block, read at one entry. -/
theorem pay_apply (a : Vec Ideal S5000x40 .f32) (d : Vec Ideal S5000x1 .f32) (p : Fin 5000) (q : Fin 40) :
    (k3_pay1 (F := Ideal) a d (ix2 p q) : EReal)
      = Cert.RowLogSoftmax.rowLogSoftmax (fun k : Fin 40 => a (ix2 p k) * d (ix2 p (0 : Fin 1))) q := by
  have hv : ∀ k : Fin 40, ((mulf (shapeCast S5000x40 a shapeCasts_S5000x40_S5000x40 : FVec Ideal S5000x40 .f32)
      (broadcastTo S5000x40 (shapeCast S5000x1 d shapeCasts_S5000x1_S5000x1 : FVec Ideal S5000x1 .f32) broadcasts_S5000x1_S5000x40)
        : FVec Ideal S5000x40 .f32) (ix2 p k) : EReal)
      = a (ix2 p k) * d (ix2 p (0 : Fin 1)) := fun k => by
    rw [mulf_apply, Cert.ColRowBroadcast.colBroadcast_apply, shapeCast_self, shapeCast_self]
  refine (Cert.RowLogSoftmax.vector_apply _ reduces_S5000x40_S5000 (.inl rfl) (.inl rfl) rfl rfl
    shapeCasts_S5000_S5000x1 broadcasts_S5000x1_S5000x40 p q).trans ?_
  exact congrArg (fun r => Cert.RowLogSoftmax.rowLogSoftmax r q) (funext hv)

/-- The printed index maps, decided over the grid. -/
theorem idx_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (1 : Fin 2) = 0
    ∧ win3_2.index t (0 : Fin 2) ≤ 9 :=
  (by decide +kernel : ∀ t : Fin grid3.N, _)

/-- Every block of rows is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

set_option maxHeartbeats 4000000 in
/-- WHAT POINT t WRITES BACK is block t of `G` of the operand arrays as the call finds them. -/
theorem flushed_eq (c : Dev nD) (t : Fin cfg3.N) :
    (dat3 V c).flushed 2 t = ((cfg3.win 2).blk t).view.read (Elt Ideal) (G (V c main_v69) (V c main_v14)) := by
  show (cfg3.win 2).cut (grid3.coords t) ((dat3 V c).after 2 t) = _
  rw [after3_2]
  unfold out3_2
  rw [View.canon_unit_zero hz]
  simp only [View.ld_unit_zero (S := S5000x40) hz, View.ld_unit_zero (S := S5000x1) hz]
  obtain ⟨e0, e1, e2, e3, e4, e5⟩ := idx_facts t
  funext j
  obtain ⟨p, q, rfl⟩ : ∃ (p : Fin 5000) (q : Fin 40), j = ix2 p q := ⟨j 0, j 1, eq_ix2 j⟩
  refine (pay_apply (iblk3 V c 0 t) (iblk3 V c 1 t) p q).trans ?_
  show _ = G (V c main_v69) (V c main_v14) (((cfg3.win 2).blk t).view.emb (ix2 p q))
  unfold G
  have h0 : ∀ k : Fin 40, ((cfg3.win 0).blk t).view.emb (ix2 p k) = ix2 ((((cfg3.win 2).blk t).view.emb (ix2 p q)) 0) k := fun k => by
    funext a; apply Fin.ext
    match a with
    | ⟨0, _⟩ => show win3_0.index t (0 : Fin 2) * 5000 + 1 * (p : ℕ) = win3_2.index t (0 : Fin 2) * 5000 + 1 * (p : ℕ); omega
    | ⟨1, _⟩ => show win3_0.index t (1 : Fin 2) * 40 + 1 * (k : ℕ) = (k : ℕ); omega
  have h1 : ((cfg3.win 1).blk t).view.emb (ix2 p (0 : Fin 1)) = ix2 ((((cfg3.win 2).blk t).view.emb (ix2 p q)) 0) (0 : Fin 1) := by
    funext a; apply Fin.ext
    match a with
    | ⟨0, _⟩ => show win3_1.index t (0 : Fin 2) * 5000 + 1 * (p : ℕ) = win3_2.index t (0 : Fin 2) * 5000 + 1 * (p : ℕ); omega
    | ⟨1, _⟩ => show win3_1.index t (1 : Fin 2) * 1 + 1 * ((0 : Fin 1) : ℕ) = ((0 : Fin 1) : ℕ); omega
  have hq : q = ((((cfg3.win 2).blk t).view.emb (ix2 p q)) 1) := by
    apply Fin.ext
    show (q : ℕ) = win3_2.index t (1 : Fin 2) * 40 + 1 * (q : ℕ); omega
  have r0 : ∀ k : Fin 40, (iblk3 V c 0 t (ix2 p k) : EReal) = (V c main_v69 (ix2 ((((cfg3.win 2).blk t).view.emb (ix2 p q)) 0) k) : EReal) := fun k => congrArg (V c main_v69) (h0 k)
  have r1 : (iblk3 V c 1 t (ix2 p (0 : Fin 1)) : EReal) = (V c main_v14 (ix2 ((((cfg3.win 2).blk t).view.emb (ix2 p q)) 0) (0 : Fin 1)) : EReal) := congrArg (V c main_v14) h1
  rw [r1]
  simp only [r0]
  exact congrArg _ hq

/-- An index of the array is in point t's block iff each coordinate is in the block's range on its axis. -/
theorem mem_blk (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v70).slice (win3_2.rect t)).set ↔ _
  rw [View.set_slice_whole, Rect.mem_set_unit]
  exact Iff.rfl

/-- The ten blocks tile the array: row r is in the block of point r / 5000. -/
theorem cover (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- THE ARRAY after the call: `G` of the operand arrays as the call found them. -/
theorem final (c : Dev nD) : (dat3 V c).arrAt 2 cfg3.N = G (V c main_v69) (V c main_v14) :=
  (dat3 V c).arrAt_eq_of_cover 2 _ (fun t _ => flushed_eq V c t) cover

end Cert.KernelIdeal.Region3

end
-- ==== Proof.KernelValue.lean ====
/-
  The kernel program's result buffer as one function of the argument arrays.

  The run's buffer contents are followed boundary by boundary. The first stretch of host operations leaves the edge
  words with the loops appended, the nodes' scale column and the first bias row; each pallas_call leaves its result array
  at the whole-array function of its operands (Region0 … Region3); each later stretch gathers the rows of that array along
  the edges and scatter-adds them by destination (`agg128`, `agg40`), and lays out the next normalisation's scale and
  shift rows. Buffers no segment writes are carried along unchanged. The end is `OUT`.
-/
import proofs.«135466_j22454089023507_2_alg».proof.Proof.Gen.KernelIdeal.Frame
import proofs.«135466_j22454089023507_2_alg».proof.Proof.RefRead
import proofs.«135466_j22454089023507_2_alg».proof.Proof.Region0
import proofs.«135466_j22454089023507_2_alg».proof.Proof.Region1
import proofs.«135466_j22454089023507_2_alg».proof.Proof.Region2
import proofs.«135466_j22454089023507_2_alg».proof.Proof.Region3

set_option maxRecDepth 16384
set_option maxHeartbeats 4000000

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- The edge words normalised (50000 added to a negative word) and laid as a column: a gather's start indices. -/
def srcCol (w : IVec S650000 32) : IVec S650000x1 32 :=
  broadcastInDim S650000x1 ![0] bcast_S650000_S650000x1_0
    (select (cmpi .slt w (broadcastInDim S650000 ![] bcast_S_S650000 (constantI S_ 32 0#32)))
      (addi w (broadcastInDim S650000 ![] bcast_S_S650000 (constantI S_ 32 50000#32))) w)
/-- The edge words laid as a column: a scatter's indices. -/
def dstCol (w : IVec S650000 32) : IVec S650000x1 32 :=
  broadcastInDim S650000x1 ![0] bcast_S650000_S650000x1_0 w
/-- Rows of a 128-column table gathered along the edges and scatter-added by destination, into zeros. -/
def agg128 (dw sw : IVec S650000 32) (P : FVec Ideal S50000x128 .bf16) :
    FVec Ideal S50000x128 .f32 :=
  Host.scatterAdd (F := Ideal) scatter_S50000x128_S650000x1_S650000x128_1_0_0_1
    (broadcastInDim S50000x128 ![] bcast_S_S50000x128 (constant (F := Ideal) S_ .f32 0x00000000#32)) (dstCol dw)
    (extf .f32 (Host.gather gather_S50000x128_S650000x1_S650000x128_1_0_n_n_0_1_1128 P (srcCol sw)) bitsLt_bf16_f32)
/-- The same for a 40-column table. -/
def agg40 (dw sw : IVec S650000 32) (P : FVec Ideal S50000x40 .bf16) :
    FVec Ideal S50000x40 .f32 :=
  Host.scatterAdd (F := Ideal) scatter_S50000x40_S650000x1_S650000x40_1_0_0_1
    (broadcastInDim S50000x40 ![] bcast_S_S50000x40 (constant (F := Ideal) S_ .f32 0x00000000#32)) (dstCol dw)
    (extf .f32 (Host.gather gather_S50000x40_S650000x1_S650000x40_1_0_n_n_0_1_140 P (srcCol sw)) bitsLt_bf16_f32)
/-- A normalisation's scale vector γ · 1/√(v + ε). -/
def scaleVec (g v : FVec Ideal S128 .f32) : FVec Ideal S128 .f32 :=
  mulf g (Host.rsqrt (addf v (broadcastInDim S128 ![] bcast_S_S128 (constant (F := Ideal) S_ .f32 0x3727C5AC#32))))
/-- Its shift vector β − μ · σ. -/
def shiftVec (be mu g v : FVec Ideal S128 .f32) : FVec Ideal S128 .f32 :=
  subf be (mulf mu (scaleVec g v))
/-- A vector of 128 laid as one row. -/
def row128 (v : FVec Ideal S128 .f32) : FVec Ideal S1x128 .f32 :=
  shapeCast S1x128 v shapeCasts_S128_S1x128
/-- A vector of 40 laid as one row. -/
def row40 (v : FVec Ideal S40 .f32) : FVec Ideal S1x40 .f32 :=
  shapeCast S1x40 v shapeCasts_S40_S1x40

variable (m : (ℓ : Loc nD τ sig) → Buf (Elt Ideal) ℓ) (ρ : Dev nD → PrngReg) (c : Dev nD)

/-- The nodes' scales as a column. -/
def DCOL : FVec Ideal S50000x1 .f32 :=
  shapeCast S50000x1 (Cert.ReferenceIdeal.Read.val_main_v13 (F := Ideal) (m ((c.tc : Thread nD τ).loc main_arg1))) shapeCasts_S50000_S50000x1
/-- Layer 0's scaled dense rows. -/
def P0 : FVec Ideal S50000x128 .bf16 := Region0.G (m ((c.tc : Thread nD τ).loc main_arg0)) (m ((c.tc : Thread nD τ).loc main_arg2)) (row128 (m ((c.tc : Thread nD τ).loc main_arg3))) (DCOL m c)
def AG0 : FVec Ideal S50000x128 .f32 := agg128 (Cert.ReferenceIdeal.Read.val_main_v6 (F := Ideal) (m ((c.tc : Thread nD τ).loc main_arg1))) (Cert.ReferenceIdeal.Read.val_main_v3 (F := Ideal) (m ((c.tc : Thread nD τ).loc main_arg1))) (P0 m c)
/-- Layer 1's scaled dense rows of the normalised sums. -/
def P1 : FVec Ideal S50000x128 .bf16 :=
  Region1.G (AG0 m c) (DCOL m c) (row128 (scaleVec (m ((c.tc : Thread nD τ).loc main_arg8)) (m ((c.tc : Thread nD τ).loc main_arg11)))) (row128 (shiftVec (m ((c.tc : Thread nD τ).loc main_arg9)) (m ((c.tc : Thread nD τ).loc main_arg10)) (m ((c.tc : Thread nD τ).loc main_arg8)) (m ((c.tc : Thread nD τ).loc main_arg11)))) (m ((c.tc : Thread nD τ).loc main_arg4)) (row128 (m ((c.tc : Thread nD τ).loc main_arg5)))
def AG1 : FVec Ideal S50000x128 .f32 := agg128 (Cert.ReferenceIdeal.Read.val_main_v6 (F := Ideal) (m ((c.tc : Thread nD τ).loc main_arg1))) (Cert.ReferenceIdeal.Read.val_main_v3 (F := Ideal) (m ((c.tc : Thread nD τ).loc main_arg1))) (P1 m c)
/-- Layer 2's. -/
def P2 : FVec Ideal S50000x40 .bf16 :=
  Region2.G (AG1 m c) (DCOL m c) (row128 (scaleVec (m ((c.tc : Thread nD τ).loc main_arg12)) (m ((c.tc : Thread nD τ).loc main_arg15)))) (row128 (shiftVec (m ((c.tc : Thread nD τ).loc main_arg13)) (m ((c.tc : Thread nD τ).loc main_arg14)) (m ((c.tc : Thread nD τ).loc main_arg12)) (m ((c.tc : Thread nD τ).loc main_arg15)))) (m ((c.tc : Thread nD τ).loc main_arg6)) (row40 (m ((c.tc : Thread nD τ).loc main_arg7)))
def AG2 : FVec Ideal S50000x40 .f32 := agg40 (Cert.ReferenceIdeal.Read.val_main_v6 (F := Ideal) (m ((c.tc : Thread nD τ).loc main_arg1))) (Cert.ReferenceIdeal.Read.val_main_v3 (F := Ideal) (m ((c.tc : Thread nD τ).loc main_arg1))) (P2 m c)
/-- The result array: the log-softmax of the rows of the scaled third sums. -/
def OUT : FVec Ideal S50000x40 .f32 := Region3.G (AG2 m c) (DCOL m c)

variable (Wg : Valuation τ sig (Elt Ideal))
theorem keepH1_main_arg4 : after (hostOps1 (F := Ideal)) Wg (Proc.devRef .tc main_arg4) = Wg (Proc.devRef .tc main_arg4) := by after_results
theorem keepH1_main_v14 : after (hostOps1 (F := Ideal)) Wg (Proc.devRef .tc main_v14) = Wg (Proc.devRef .tc main_v14) := by after_results
theorem keepH1_main_v3 : after (hostOps1 (F := Ideal)) Wg (Proc.devRef .tc main_v3) = Wg (Proc.devRef .tc main_v3) := by after_results
theorem keepH1_main_v6 : after (hostOps1 (F := Ideal)) Wg (Proc.devRef .tc main_v6) = Wg (Proc.devRef .tc main_v6) := by after_results
theorem keepH1_main_arg6 : after (hostOps1 (F := Ideal)) Wg (Proc.devRef .tc main_arg6) = Wg (Proc.devRef .tc main_arg6) := by after_results
theorem keepH1_main_arg7 : after (hostOps1 (F := Ideal)) Wg (Proc.devRef .tc main_arg7) = Wg (Proc.devRef .tc main_arg7) := by after_results
theorem keepH1_main_arg12 : after (hostOps1 (F := Ideal)) Wg (Proc.devRef .tc main_arg12) = Wg (Proc.devRef .tc main_arg12) := by after_results
theorem keepH1_main_arg13 : after (hostOps1 (F := Ideal)) Wg (Proc.devRef .tc main_arg13) = Wg (Proc.devRef .tc main_arg13) := by after_results
theorem keepH1_main_arg14 : after (hostOps1 (F := Ideal)) Wg (Proc.devRef .tc main_arg14) = Wg (Proc.devRef .tc main_arg14) := by after_results
theorem keepH1_main_arg15 : after (hostOps1 (F := Ideal)) Wg (Proc.devRef .tc main_arg15) = Wg (Proc.devRef .tc main_arg15) := by after_results
theorem keepH2_main_arg6 : after (hostOps2 (F := Ideal)) Wg (Proc.devRef .tc main_arg6) = Wg (Proc.devRef .tc main_arg6) := by after_results
theorem keepH2_main_v14 : after (hostOps2 (F := Ideal)) Wg (Proc.devRef .tc main_v14) = Wg (Proc.devRef .tc main_v14) := by after_results
theorem keepH2_main_v3 : after (hostOps2 (F := Ideal)) Wg (Proc.devRef .tc main_v3) = Wg (Proc.devRef .tc main_v3) := by after_results
theorem keepH2_main_v6 : after (hostOps2 (F := Ideal)) Wg (Proc.devRef .tc main_v6) = Wg (Proc.devRef .tc main_v6) := by after_results
theorem keepH3_main_v14 : after (hostOps3 (F := Ideal)) Wg (Proc.devRef .tc main_v14) = Wg (Proc.devRef .tc main_v14) := by after_results

theorem w1_main_arg0 : W1 (F := Ideal) m ρ c (Proc.devRef .tc main_arg0) = (m ((c.tc : Thread nD τ).loc main_arg0)) := by
  show after (hostOps0 (F := Ideal)) (W0 m ρ c) _ = _
  after_results
  all_goals rfl
theorem w1_main_arg2 : W1 (F := Ideal) m ρ c (Proc.devRef .tc main_arg2) = (m ((c.tc : Thread nD τ).loc main_arg2)) := by
  show after (hostOps0 (F := Ideal)) (W0 m ρ c) _ = _
  after_results
  all_goals rfl
theorem w1_main_arg4 : W1 (F := Ideal) m ρ c (Proc.devRef .tc main_arg4) = (m ((c.tc : Thread nD τ).loc main_arg4)) := by
  show after (hostOps0 (F := Ideal)) (W0 m ρ c) _ = _
  after_results
  all_goals rfl
theorem w1_main_arg5 : W1 (F := Ideal) m ρ c (Proc.devRef .tc main_arg5) = (m ((c.tc : Thread nD τ).loc main_arg5)) := by
  show after (hostOps0 (F := Ideal)) (W0 m ρ c) _ = _
  after_results
  all_goals rfl
theorem w1_main_arg6 : W1 (F := Ideal) m ρ c (Proc.devRef .tc main_arg6) = (m ((c.tc : Thread nD τ).loc main_arg6)) := by
  show after (hostOps0 (F := Ideal)) (W0 m ρ c) _ = _
  after_results
  all_goals rfl
theorem w1_main_arg7 : W1 (F := Ideal) m ρ c (Proc.devRef .tc main_arg7) = (m ((c.tc : Thread nD τ).loc main_arg7)) := by
  show after (hostOps0 (F := Ideal)) (W0 m ρ c) _ = _
  after_results
  all_goals rfl
theorem w1_main_arg8 : W1 (F := Ideal) m ρ c (Proc.devRef .tc main_arg8) = (m ((c.tc : Thread nD τ).loc main_arg8)) := by
  show after (hostOps0 (F := Ideal)) (W0 m ρ c) _ = _
  after_results
  all_goals rfl
theorem w1_main_arg9 : W1 (F := Ideal) m ρ c (Proc.devRef .tc main_arg9) = (m ((c.tc : Thread nD τ).loc main_arg9)) := by
  show after (hostOps0 (F := Ideal)) (W0 m ρ c) _ = _
  after_results
  all_goals rfl
theorem w1_main_arg10 : W1 (F := Ideal) m ρ c (Proc.devRef .tc main_arg10) = (m ((c.tc : Thread nD τ).loc main_arg10)) := by
  show after (hostOps0 (F := Ideal)) (W0 m ρ c) _ = _
  after_results
  all_goals rfl
theorem w1_main_arg11 : W1 (F := Ideal) m ρ c (Proc.devRef .tc main_arg11) = (m ((c.tc : Thread nD τ).loc main_arg11)) := by
  show after (hostOps0 (F := Ideal)) (W0 m ρ c) _ = _
  after_results
  all_goals rfl
theorem w1_main_arg12 : W1 (F := Ideal) m ρ c (Proc.devRef .tc main_arg12) = (m ((c.tc : Thread nD τ).loc main_arg12)) := by
  show after (hostOps0 (F := Ideal)) (W0 m ρ c) _ = _
  after_results
  all_goals rfl
theorem w1_main_arg13 : W1 (F := Ideal) m ρ c (Proc.devRef .tc main_arg13) = (m ((c.tc : Thread nD τ).loc main_arg13)) := by
  show after (hostOps0 (F := Ideal)) (W0 m ρ c) _ = _
  after_results
  all_goals rfl
theorem w1_main_arg14 : W1 (F := Ideal) m ρ c (Proc.devRef .tc main_arg14) = (m ((c.tc : Thread nD τ).loc main_arg14)) := by
  show after (hostOps0 (F := Ideal)) (W0 m ρ c) _ = _
  after_results
  all_goals rfl
theorem w1_main_arg15 : W1 (F := Ideal) m ρ c (Proc.devRef .tc main_arg15) = (m ((c.tc : Thread nD τ).loc main_arg15)) := by
  show after (hostOps0 (F := Ideal)) (W0 m ρ c) _ = _
  after_results
  all_goals rfl
theorem w1_main_v3 : W1 (F := Ideal) m ρ c (Proc.devRef .tc main_v3) = (Cert.ReferenceIdeal.Read.val_main_v3 (F := Ideal) (m ((c.tc : Thread nD τ).loc main_arg1))) := by
  show after (hostOps0 (F := Ideal)) (W0 m ρ c) _ = _
  after_results
  all_goals rfl
theorem w1_main_v6 : W1 (F := Ideal) m ρ c (Proc.devRef .tc main_v6) = (Cert.ReferenceIdeal.Read.val_main_v6 (F := Ideal) (m ((c.tc : Thread nD τ).loc main_arg1))) := by
  show after (hostOps0 (F := Ideal)) (W0 m ρ c) _ = _
  after_results
  all_goals rfl
theorem w1_main_v14 : W1 (F := Ideal) m ρ c (Proc.devRef .tc main_v14) = DCOL m c := by
  show after (hostOps0 (F := Ideal)) (W0 m ρ c) _ = _
  after_results
  all_goals rfl
theorem w1_main_v15 : W1 (F := Ideal) m ρ c (Proc.devRef .tc main_v15) = row128 (m ((c.tc : Thread nD τ).loc main_arg3)) := by
  show after (hostOps0 (F := Ideal)) (W0 m ρ c) _ = _
  after_results
  all_goals rfl
theorem w2_main_v16 : W2 (F := Ideal) m ρ c (Proc.devRef .tc main_v16) = P0 m c := by
  have h := (W2_arr (F := Ideal) m ρ c 4).trans (Region0.final (V1 (F := Ideal) m ρ) c)
  rw [show V1 (F := Ideal) m ρ c main_arg0 = _ from w1_main_arg0 m ρ c, show V1 (F := Ideal) m ρ c main_arg2 = _ from w1_main_arg2 m ρ c, show V1 (F := Ideal) m ρ c main_v15 = _ from w1_main_v15 m ρ c, show V1 (F := Ideal) m ρ c main_v14 = _ from w1_main_v14 m ρ c] at h
  exact h
theorem w2_main_v3 : W2 (F := Ideal) m ρ c (Proc.devRef .tc main_v3) = (Cert.ReferenceIdeal.Read.val_main_v3 (F := Ideal) (m ((c.tc : Thread nD τ).loc main_arg1))) :=
  (W2_of_ne (F := Ideal) m ρ c main_v3 (by decide)).trans (w1_main_v3 m ρ c)
theorem w2_main_v6 : W2 (F := Ideal) m ρ c (Proc.devRef .tc main_v6) = (Cert.ReferenceIdeal.Read.val_main_v6 (F := Ideal) (m ((c.tc : Thread nD τ).loc main_arg1))) :=
  (W2_of_ne (F := Ideal) m ρ c main_v6 (by decide)).trans (w1_main_v6 m ρ c)
theorem w2_main_v14 : W2 (F := Ideal) m ρ c (Proc.devRef .tc main_v14) = (DCOL m c) :=
  ((W2_arr (F := Ideal) m ρ c 3).trans (((dat0 (V1 (F := Ideal) m ρ) c).arrAt_in 3 rfl _).trans (A_eq0 (V1 (F := Ideal) m ρ) c 3))).trans (w1_main_v14 m ρ c)
theorem w2_main_arg4 : W2 (F := Ideal) m ρ c (Proc.devRef .tc main_arg4) = (m ((c.tc : Thread nD τ).loc main_arg4)) :=
  (W2_of_ne (F := Ideal) m ρ c main_arg4 (by decide)).trans (w1_main_arg4 m ρ c)
theorem w2_main_arg5 : W2 (F := Ideal) m ρ c (Proc.devRef .tc main_arg5) = (m ((c.tc : Thread nD τ).loc main_arg5)) :=
  (W2_of_ne (F := Ideal) m ρ c main_arg5 (by decide)).trans (w1_main_arg5 m ρ c)
theorem w2_main_arg6 : W2 (F := Ideal) m ρ c (Proc.devRef .tc main_arg6) = (m ((c.tc : Thread nD τ).loc main_arg6)) :=
  (W2_of_ne (F := Ideal) m ρ c main_arg6 (by decide)).trans (w1_main_arg6 m ρ c)
theorem w2_main_arg7 : W2 (F := Ideal) m ρ c (Proc.devRef .tc main_arg7) = (m ((c.tc : Thread nD τ).loc main_arg7)) :=
  (W2_of_ne (F := Ideal) m ρ c main_arg7 (by decide)).trans (w1_main_arg7 m ρ c)
theorem w2_main_arg8 : W2 (F := Ideal) m ρ c (Proc.devRef .tc main_arg8) = (m ((c.tc : Thread nD τ).loc main_arg8)) :=
  (W2_of_ne (F := Ideal) m ρ c main_arg8 (by decide)).trans (w1_main_arg8 m ρ c)
theorem w2_main_arg9 : W2 (F := Ideal) m ρ c (Proc.devRef .tc main_arg9) = (m ((c.tc : Thread nD τ).loc main_arg9)) :=
  (W2_of_ne (F := Ideal) m ρ c main_arg9 (by decide)).trans (w1_main_arg9 m ρ c)
theorem w2_main_arg10 : W2 (F := Ideal) m ρ c (Proc.devRef .tc main_arg10) = (m ((c.tc : Thread nD τ).loc main_arg10)) :=
  (W2_of_ne (F := Ideal) m ρ c main_arg10 (by decide)).trans (w1_main_arg10 m ρ c)
theorem w2_main_arg11 : W2 (F := Ideal) m ρ c (Proc.devRef .tc main_arg11) = (m ((c.tc : Thread nD τ).loc main_arg11)) :=
  (W2_of_ne (F := Ideal) m ρ c main_arg11 (by decide)).trans (w1_main_arg11 m ρ c)
theorem w2_main_arg12 : W2 (F := Ideal) m ρ c (Proc.devRef .tc main_arg12) = (m ((c.tc : Thread nD τ).loc main_arg12)) :=
  (W2_of_ne (F := Ideal) m ρ c main_arg12 (by decide)).trans (w1_main_arg12 m ρ c)
theorem w2_main_arg13 : W2 (F := Ideal) m ρ c (Proc.devRef .tc main_arg13) = (m ((c.tc : Thread nD τ).loc main_arg13)) :=
  (W2_of_ne (F := Ideal) m ρ c main_arg13 (by decide)).trans (w1_main_arg13 m ρ c)
theorem w2_main_arg14 : W2 (F := Ideal) m ρ c (Proc.devRef .tc main_arg14) = (m ((c.tc : Thread nD τ).loc main_arg14)) :=
  (W2_of_ne (F := Ideal) m ρ c main_arg14 (by decide)).trans (w1_main_arg14 m ρ c)
theorem w2_main_arg15 : W2 (F := Ideal) m ρ c (Proc.devRef .tc main_arg15) = (m ((c.tc : Thread nD τ).loc main_arg15)) :=
  (W2_of_ne (F := Ideal) m ρ c main_arg15 (by decide)).trans (w1_main_arg15 m ρ c)
theorem w3_main_v27 : W3 (F := Ideal) m ρ c (Proc.devRef .tc main_v27) = AG0 m c := by
  show after (hostOps1 (F := Ideal)) (W2 (F := Ideal) m ρ c) _ = _
  after_results
  rw [w2_main_v16 m ρ c, w2_main_v3 m ρ c, w2_main_v6 m ρ c]
  all_goals rfl
theorem w3_main_v34 : W3 (F := Ideal) m ρ c (Proc.devRef .tc main_v34) = row128 (scaleVec (m ((c.tc : Thread nD τ).loc main_arg8)) (m ((c.tc : Thread nD τ).loc main_arg11))) := by
  show after (hostOps1 (F := Ideal)) (W2 (F := Ideal) m ρ c) _ = _
  after_results
  rw [w2_main_arg8 m ρ c, w2_main_arg11 m ρ c]
  all_goals rfl
theorem w3_main_v35 : W3 (F := Ideal) m ρ c (Proc.devRef .tc main_v35) = row128 (shiftVec (m ((c.tc : Thread nD τ).loc main_arg9)) (m ((c.tc : Thread nD τ).loc main_arg10)) (m ((c.tc : Thread nD τ).loc main_arg8)) (m ((c.tc : Thread nD τ).loc main_arg11))) := by
  show after (hostOps1 (F := Ideal)) (W2 (F := Ideal) m ρ c) _ = _
  after_results
  rw [w2_main_arg9 m ρ c, w2_main_arg10 m ρ c, w2_main_arg8 m ρ c, w2_main_arg11 m ρ c]
  all_goals rfl
theorem w3_main_v36 : W3 (F := Ideal) m ρ c (Proc.devRef .tc main_v36) = row128 (m ((c.tc : Thread nD τ).loc main_arg5)) := by
  show after (hostOps1 (F := Ideal)) (W2 (F := Ideal) m ρ c) _ = _
  after_results
  rw [w2_main_arg5 m ρ c]
  all_goals rfl
theorem w3_main_arg4 : W3 (F := Ideal) m ρ c (Proc.devRef .tc main_arg4) = (m ((c.tc : Thread nD τ).loc main_arg4)) :=
  (keepH1_main_arg4 (W2 (F := Ideal) m ρ c)).trans (w2_main_arg4 m ρ c)
theorem w3_main_v14 : W3 (F := Ideal) m ρ c (Proc.devRef .tc main_v14) = (DCOL m c) :=
  (keepH1_main_v14 (W2 (F := Ideal) m ρ c)).trans (w2_main_v14 m ρ c)
theorem w3_main_v3 : W3 (F := Ideal) m ρ c (Proc.devRef .tc main_v3) = (Cert.ReferenceIdeal.Read.val_main_v3 (F := Ideal) (m ((c.tc : Thread nD τ).loc main_arg1))) :=
  (keepH1_main_v3 (W2 (F := Ideal) m ρ c)).trans (w2_main_v3 m ρ c)
theorem w3_main_v6 : W3 (F := Ideal) m ρ c (Proc.devRef .tc main_v6) = (Cert.ReferenceIdeal.Read.val_main_v6 (F := Ideal) (m ((c.tc : Thread nD τ).loc main_arg1))) :=
  (keepH1_main_v6 (W2 (F := Ideal) m ρ c)).trans (w2_main_v6 m ρ c)
theorem w3_main_arg6 : W3 (F := Ideal) m ρ c (Proc.devRef .tc main_arg6) = (m ((c.tc : Thread nD τ).loc main_arg6)) :=
  (keepH1_main_arg6 (W2 (F := Ideal) m ρ c)).trans (w2_main_arg6 m ρ c)
theorem w3_main_arg7 : W3 (F := Ideal) m ρ c (Proc.devRef .tc main_arg7) = (m ((c.tc : Thread nD τ).loc main_arg7)) :=
  (keepH1_main_arg7 (W2 (F := Ideal) m ρ c)).trans (w2_main_arg7 m ρ c)
theorem w3_main_arg12 : W3 (F := Ideal) m ρ c (Proc.devRef .tc main_arg12) = (m ((c.tc : Thread nD τ).loc main_arg12)) :=
  (keepH1_main_arg12 (W2 (F := Ideal) m ρ c)).trans (w2_main_arg12 m ρ c)
theorem w3_main_arg13 : W3 (F := Ideal) m ρ c (Proc.devRef .tc main_arg13) = (m ((c.tc : Thread nD τ).loc main_arg13)) :=
  (keepH1_main_arg13 (W2 (F := Ideal) m ρ c)).trans (w2_main_arg13 m ρ c)
theorem w3_main_arg14 : W3 (F := Ideal) m ρ c (Proc.devRef .tc main_arg14) = (m ((c.tc : Thread nD τ).loc main_arg14)) :=
  (keepH1_main_arg14 (W2 (F := Ideal) m ρ c)).trans (w2_main_arg14 m ρ c)
theorem w3_main_arg15 : W3 (F := Ideal) m ρ c (Proc.devRef .tc main_arg15) = (m ((c.tc : Thread nD τ).loc main_arg15)) :=
  (keepH1_main_arg15 (W2 (F := Ideal) m ρ c)).trans (w2_main_arg15 m ρ c)
theorem w4_main_v37 : W4 (F := Ideal) m ρ c (Proc.devRef .tc main_v37) = P1 m c := by
  have h := (W4_arr (F := Ideal) m ρ c 6).trans (Region1.final (V3 (F := Ideal) m ρ) c)
  rw [show V3 (F := Ideal) m ρ c main_v27 = _ from w3_main_v27 m ρ c, show V3 (F := Ideal) m ρ c main_v14 = _ from w3_main_v14 m ρ c, show V3 (F := Ideal) m ρ c main_v34 = _ from w3_main_v34 m ρ c, show V3 (F := Ideal) m ρ c main_v35 = _ from w3_main_v35 m ρ c, show V3 (F := Ideal) m ρ c main_arg4 = _ from w3_main_arg4 m ρ c, show V3 (F := Ideal) m ρ c main_v36 = _ from w3_main_v36 m ρ c] at h
  exact h
theorem w4_main_v3 : W4 (F := Ideal) m ρ c (Proc.devRef .tc main_v3) = (Cert.ReferenceIdeal.Read.val_main_v3 (F := Ideal) (m ((c.tc : Thread nD τ).loc main_arg1))) :=
  (W4_of_ne (F := Ideal) m ρ c main_v3 (by decide)).trans (w3_main_v3 m ρ c)
theorem w4_main_v6 : W4 (F := Ideal) m ρ c (Proc.devRef .tc main_v6) = (Cert.ReferenceIdeal.Read.val_main_v6 (F := Ideal) (m ((c.tc : Thread nD τ).loc main_arg1))) :=
  (W4_of_ne (F := Ideal) m ρ c main_v6 (by decide)).trans (w3_main_v6 m ρ c)
theorem w4_main_v14 : W4 (F := Ideal) m ρ c (Proc.devRef .tc main_v14) = (DCOL m c) :=
  ((W4_arr (F := Ideal) m ρ c 1).trans (((dat1 (V3 (F := Ideal) m ρ) c).arrAt_in 1 rfl _).trans (A_eq1 (V3 (F := Ideal) m ρ) c 1))).trans (w3_main_v14 m ρ c)
theorem w4_main_arg6 : W4 (F := Ideal) m ρ c (Proc.devRef .tc main_arg6) = (m ((c.tc : Thread nD τ).loc main_arg6)) :=
  (W4_of_ne (F := Ideal) m ρ c main_arg6 (by decide)).trans (w3_main_arg6 m ρ c)
theorem w4_main_arg7 : W4 (F := Ideal) m ρ c (Proc.devRef .tc main_arg7) = (m ((c.tc : Thread nD τ).loc main_arg7)) :=
  (W4_of_ne (F := Ideal) m ρ c main_arg7 (by decide)).trans (w3_main_arg7 m ρ c)
theorem w4_main_arg12 : W4 (F := Ideal) m ρ c (Proc.devRef .tc main_arg12) = (m ((c.tc : Thread nD τ).loc main_arg12)) :=
  (W4_of_ne (F := Ideal) m ρ c main_arg12 (by decide)).trans (w3_main_arg12 m ρ c)
theorem w4_main_arg13 : W4 (F := Ideal) m ρ c (Proc.devRef .tc main_arg13) = (m ((c.tc : Thread nD τ).loc main_arg13)) :=
  (W4_of_ne (F := Ideal) m ρ c main_arg13 (by decide)).trans (w3_main_arg13 m ρ c)
theorem w4_main_arg14 : W4 (F := Ideal) m ρ c (Proc.devRef .tc main_arg14) = (m ((c.tc : Thread nD τ).loc main_arg14)) :=
  (W4_of_ne (F := Ideal) m ρ c main_arg14 (by decide)).trans (w3_main_arg14 m ρ c)
theorem w4_main_arg15 : W4 (F := Ideal) m ρ c (Proc.devRef .tc main_arg15) = (m ((c.tc : Thread nD τ).loc main_arg15)) :=
  (W4_of_ne (F := Ideal) m ρ c main_arg15 (by decide)).trans (w3_main_arg15 m ρ c)
theorem w5_main_v48 : W5 (F := Ideal) m ρ c (Proc.devRef .tc main_v48) = AG1 m c := by
  show after (hostOps2 (F := Ideal)) (W4 (F := Ideal) m ρ c) _ = _
  after_results
  rw [w4_main_v37 m ρ c, w4_main_v3 m ρ c, w4_main_v6 m ρ c]
  all_goals rfl
theorem w5_main_v55 : W5 (F := Ideal) m ρ c (Proc.devRef .tc main_v55) = row128 (scaleVec (m ((c.tc : Thread nD τ).loc main_arg12)) (m ((c.tc : Thread nD τ).loc main_arg15))) := by
  show after (hostOps2 (F := Ideal)) (W4 (F := Ideal) m ρ c) _ = _
  after_results
  rw [w4_main_arg12 m ρ c, w4_main_arg15 m ρ c]
  all_goals rfl
theorem w5_main_v56 : W5 (F := Ideal) m ρ c (Proc.devRef .tc main_v56) = row128 (shiftVec (m ((c.tc : Thread nD τ).loc main_arg13)) (m ((c.tc : Thread nD τ).loc main_arg14)) (m ((c.tc : Thread nD τ).loc main_arg12)) (m ((c.tc : Thread nD τ).loc main_arg15))) := by
  show after (hostOps2 (F := Ideal)) (W4 (F := Ideal) m ρ c) _ = _
  after_results
  rw [w4_main_arg13 m ρ c, w4_main_arg14 m ρ c, w4_main_arg12 m ρ c, w4_main_arg15 m ρ c]
  all_goals rfl
theorem w5_main_v57 : W5 (F := Ideal) m ρ c (Proc.devRef .tc main_v57) = row40 (m ((c.tc : Thread nD τ).loc main_arg7)) := by
  show after (hostOps2 (F := Ideal)) (W4 (F := Ideal) m ρ c) _ = _
  after_results
  rw [w4_main_arg7 m ρ c]
  all_goals rfl
theorem w5_main_arg6 : W5 (F := Ideal) m ρ c (Proc.devRef .tc main_arg6) = (m ((c.tc : Thread nD τ).loc main_arg6)) :=
  (keepH2_main_arg6 (W4 (F := Ideal) m ρ c)).trans (w4_main_arg6 m ρ c)
theorem w5_main_v14 : W5 (F := Ideal) m ρ c (Proc.devRef .tc main_v14) = (DCOL m c) :=
  (keepH2_main_v14 (W4 (F := Ideal) m ρ c)).trans (w4_main_v14 m ρ c)
theorem w5_main_v3 : W5 (F := Ideal) m ρ c (Proc.devRef .tc main_v3) = (Cert.ReferenceIdeal.Read.val_main_v3 (F := Ideal) (m ((c.tc : Thread nD τ).loc main_arg1))) :=
  (keepH2_main_v3 (W4 (F := Ideal) m ρ c)).trans (w4_main_v3 m ρ c)
theorem w5_main_v6 : W5 (F := Ideal) m ρ c (Proc.devRef .tc main_v6) = (Cert.ReferenceIdeal.Read.val_main_v6 (F := Ideal) (m ((c.tc : Thread nD τ).loc main_arg1))) :=
  (keepH2_main_v6 (W4 (F := Ideal) m ρ c)).trans (w4_main_v6 m ρ c)
theorem w6_main_v58 : W6 (F := Ideal) m ρ c (Proc.devRef .tc main_v58) = P2 m c := by
  have h := (W6_arr (F := Ideal) m ρ c 6).trans (Region2.final (V5 (F := Ideal) m ρ) c)
  rw [show V5 (F := Ideal) m ρ c main_v48 = _ from w5_main_v48 m ρ c, show V5 (F := Ideal) m ρ c main_v14 = _ from w5_main_v14 m ρ c, show V5 (F := Ideal) m ρ c main_v55 = _ from w5_main_v55 m ρ c, show V5 (F := Ideal) m ρ c main_v56 = _ from w5_main_v56 m ρ c, show V5 (F := Ideal) m ρ c main_arg6 = _ from w5_main_arg6 m ρ c, show V5 (F := Ideal) m ρ c main_v57 = _ from w5_main_v57 m ρ c] at h
  exact h
theorem w6_main_v3 : W6 (F := Ideal) m ρ c (Proc.devRef .tc main_v3) = (Cert.ReferenceIdeal.Read.val_main_v3 (F := Ideal) (m ((c.tc : Thread nD τ).loc main_arg1))) :=
  (W6_of_ne (F := Ideal) m ρ c main_v3 (by decide)).trans (w5_main_v3 m ρ c)
theorem w6_main_v6 : W6 (F := Ideal) m ρ c (Proc.devRef .tc main_v6) = (Cert.ReferenceIdeal.Read.val_main_v6 (F := Ideal) (m ((c.tc : Thread nD τ).loc main_arg1))) :=
  (W6_of_ne (F := Ideal) m ρ c main_v6 (by decide)).trans (w5_main_v6 m ρ c)
theorem w6_main_v14 : W6 (F := Ideal) m ρ c (Proc.devRef .tc main_v14) = (DCOL m c) :=
  ((W6_arr (F := Ideal) m ρ c 1).trans (((dat2 (V5 (F := Ideal) m ρ) c).arrAt_in 1 rfl _).trans (A_eq2 (V5 (F := Ideal) m ρ) c 1))).trans (w5_main_v14 m ρ c)
theorem w7_main_v69 : W7 (F := Ideal) m ρ c (Proc.devRef .tc main_v69) = AG2 m c := by
  show after (hostOps3 (F := Ideal)) (W6 (F := Ideal) m ρ c) _ = _
  after_results
  rw [w6_main_v58 m ρ c, w6_main_v3 m ρ c, w6_main_v6 m ρ c]
  all_goals rfl
theorem w7_main_v14 : W7 (F := Ideal) m ρ c (Proc.devRef .tc main_v14) = (DCOL m c) :=
  (keepH3_main_v14 (W6 (F := Ideal) m ρ c)).trans (w6_main_v14 m ρ c)
theorem w8_main_v70 : W8 (F := Ideal) m ρ c (Proc.devRef .tc main_v70) = OUT m c := by
  have h := (W8_arr (F := Ideal) m ρ c 2).trans (Region3.final (V7 (F := Ideal) m ρ) c)
  rw [show V7 (F := Ideal) m ρ c main_v69 = _ from w7_main_v69 m ρ c, show V7 (F := Ideal) m ρ c main_v14 = _ from w7_main_v14 m ρ c] at h
  exact h

end Cert.KernelIdeal.KValue

end
-- ==== Proof.LibSelfLoops.lean ====
/-
  Self-loops appended to a list of edges, read against the list without them; and a vector gathered by index words.

  A graph on R nodes is given as n edges, each a pair of index words (a source and a destination) and a weight. One
  way to give every node a loop onto itself is to lengthen the three lists by R entries, entry n + j being the loop of
  node j: its two index words are the word of j and its weight is one. Whatever is then summed over the edges sent
  to a node r is the sum over the first n entries sent to r plus the one loop of r — a sum over n + R terms cut after
  the n-th, and among the last R terms only the r-th survives. Nothing but the commutative monoid is used.

  The rest is how such lists read at one entry, over any sizes: the two-piece concatenation along the one axis of a
  vector (left piece below the cut, right piece above it), the counting vector 0, 1, 2, …, the words of small numbers
  (a number below 2^31 read signed is itself, is not negative, so the index normalisation "add R when negative"
  leaves it alone, and clamped into [0, R − 1] it is still itself when below R), a vector laid as a column of words,
  and a vector gathered by a column of index words (the rank-one gather: element n of the result is the operand at
  the clamped word n).
-/
import Idealize.ShloMosaic.PureOps.Ideal
import Idealize.ShloMosaic.Lib.ValueIdx
import Idealize.ShloMosaic.Lib.Pipeline.Value
import proofs.«135466_j22454089023507_2_alg».proof.Proof.LibRowGatherScatter

noncomputable section

open scoped BigOperators

namespace Cert.LibSelfLoops

open Idealize.ShloMosaic Idealize.ShloMosaic.ValueIdx Cert.LibRowGatherScatter

/-! ## Sums -/

/-- A sum over a + b terms is the sum over the first a plus the sum over the last b. -/
theorem sum_append {M : Type*} [AddCommMonoid M] {a b t : Nat} (h : a + b = t) (f : Fin t → M) :
    ∑ i, f i = ∑ i : Fin a, f ⟨i.val, by have := i.isLt; omega⟩ + ∑ j : Fin b, f ⟨a + j.val, by have := j.isLt; omega⟩ := by
  subst h
  rw [Fin.sum_univ_add]
  rfl

/-- Of the loops, one per node, only node r's is sent to r. -/
theorem sum_loops {M : Type*} [AddCommMonoid M] {R : Nat} (r : Fin R) (g : Fin R → M) :
    ∑ j : Fin R, (if (j.val : ℤ) = (r.val : ℤ) then g j else 0) = g r := by
  rw [Finset.sum_eq_single r]
  · rw [if_pos rfl]
  · intro j _ hj
    rw [if_neg]
    intro h
    exact hj (Fin.ext (by exact_mod_cast h))
  · intro h
    exact absurd (Finset.mem_univ r) h

/-- THE EDGES WITH THE LOOPS APPENDED, SUMMED AT r: when the first n of the n + R entries are the edges (same
    destination, same term) and entry n + j is node j's loop (destination j, term g j), the terms sent to r sum to
    the edges' terms sent to r plus g r. -/
theorem sum_edges_loops {M : Type*} [AddCommMonoid M] {n R t : Nat} (h : n + R = t) (r : Fin R)
    (dst' : Fin t → ℤ) (f' : Fin t → M) (dst : Fin n → ℤ) (f : Fin n → M) (g : Fin R → M)
    (hd : ∀ e : Fin n, dst' ⟨e.val, by have := e.isLt; omega⟩ = dst e)
    (hf : ∀ e : Fin n, f' ⟨e.val, by have := e.isLt; omega⟩ = f e)
    (hdl : ∀ j : Fin R, dst' ⟨n + j.val, by have := j.isLt; omega⟩ = (j.val : ℤ))
    (hfl : ∀ j : Fin R, f' ⟨n + j.val, by have := j.isLt; omega⟩ = g j) :
    ∑ e : Fin t, (if dst' e = (r.val : ℤ) then f' e else 0)
      = ∑ e : Fin n, (if dst e = (r.val : ℤ) then f e else 0) + g r := by
  rw [sum_append h]
  refine congrArg₂ (· + ·) (Finset.sum_congr rfl fun e _ => ?_) ?_
  · rw [hd e, hf e]
  · rw [← sum_loops r g]
    refine Finset.sum_congr rfl fun j _ => ?_
    rw [hdl j, hfl j]

/-! ## The words of small numbers -/

/-- A number below 2^31, as a 32-bit word read signed, is itself. -/
theorem toInt_word {j : Nat} (h : j < 2 ^ 31) : (BitVec.ofNat 32 j).toInt = (j : ℤ) := by
  rw [BitVec.toInt_eq_toNat_cond, BitVec.toNat_ofNat, Nat.mod_eq_of_lt (by omega)]
  rw [if_pos (by omega)]

/-- The index normalisation — add k when the word is negative — leaves a word that is not negative alone. -/
theorem wrap_nonneg (b k : BitVec 32) (h : 0 ≤ b.toInt) :
    Scalar.select (IntOp.cmpi .slt b 0#32) (IntOp.addi b k) b = b := by
  have hs : b.slt 0#32 = false := by
    rw [BitVec.slt]
    simp only [BitVec.toInt_zero, decide_eq_false_iff_not, not_lt]
    exact h
  simp only [Scalar.select, IntOp.cmpi, hs, BitVec.ofBool_false]
  rw [if_neg (by decide)]

/-- So it leaves the word of a number below 2^31 alone. -/
theorem wrap_word {j : Nat} (h : j < 2 ^ 31) (k : BitVec 32) :
    Scalar.select (IntOp.cmpi .slt (BitVec.ofNat 32 j) 0#32) (IntOp.addi (BitVec.ofNat 32 j) k) (BitVec.ofNat 32 j)
      = BitVec.ofNat 32 j :=
  wrap_nonneg _ k (by rw [toInt_word h]; exact Int.natCast_nonneg j)

/-- The index normalisation of a word: k added when the word, read signed, is negative. -/
def wrapWord (k b : BitVec 32) : BitVec 32 := Scalar.select (IntOp.cmpi .slt b 0#32) (IntOp.addi b k) b

/-- It leaves the word of a number below 2^31 alone. -/
theorem wrapWord_word {j : Nat} (h : j < 2 ^ 31) (k : BitVec 32) : wrapWord k (BitVec.ofNat 32 j) = BitVec.ofNat 32 j :=
  wrap_word h k

/-- The normalisation spelt on a whole array of words — compare with a splat zero, add a splat k, select — read at
    one entry: the normalised word of the entry. -/
theorem wrap_apply {s : Shape} (k : BitVec 32) (h0 hk : (⟨0, ![]⟩ : Shape).BroadcastsInDim s ![]) (v : IVec s 32)
    (i : s.Idx) :
    select (cmpi .slt v (broadcastInDim s ![] h0 (constantI ⟨0, ![]⟩ 32 0#32)))
      (addi v (broadcastInDim s ![] hk (constantI ⟨0, ![]⟩ 32 k))) v i = wrapWord k (v i) := by
  show Scalar.select (IntOp.cmpi .slt (v i) (broadcastInDim s ![] h0 (constantI ⟨0, ![]⟩ 32 0#32) i))
      (IntOp.addi (v i) (broadcastInDim s ![] hk (constantI ⟨0, ![]⟩ 32 k) i)) (v i) = _
  have e0 : broadcastInDim s ![] h0 (constantI ⟨0, ![]⟩ 32 0#32) i = 0#32 :=
    broadcastInDim_apply _ h0 _ i (fun a => a.elim0) (fun a => a.elim0)
  have ek : broadcastInDim s ![] hk (constantI ⟨0, ![]⟩ 32 k) i = k :=
    broadcastInDim_apply _ hk _ i (fun a => a.elim0) (fun a => a.elim0)
  rw [e0, ek]
  rfl

/-- The word of node j, clamped into the R rows, is row j. -/
theorem clampRow_word {R : Nat} (hR : 0 < R) (hR31 : R ≤ 2 ^ 31) (j : Fin R) :
    clampRow R hR (BitVec.ofNat 32 j.val) = j := by
  refine Fin.ext ?_
  show min (BitVec.ofNat 32 j.val).toInt.toNat (R - 1) = j.val
  rw [toInt_word (by have := j.isLt; omega)]
  have := j.isLt
  rw [Int.toNat_natCast]
  omega

/-! ## Vectors read at an entry -/

/-- The counting vector at entry j is the word of j. -/
theorem iota_apply {N : Nat} (j : Fin N) : iotaInDim ⟨1, ![N]⟩ 32 0 (ix1 j) = BitVec.ofNat 32 j.val := rfl

/-- A vector of N entries laid as a column [N, 1], read at (n, 0): entry n. -/
theorem column_apply {α : Type} {N : Nat} (hN : N ≠ 1) (v : (⟨1, ![N]⟩ : Shape).Idx → α)
    (h : (⟨1, ![N]⟩ : Shape).BroadcastsInDim ⟨2, ![N, 1]⟩ ![0]) (n : Fin N) :
    broadcastInDim ⟨2, ![N, 1]⟩ ![0] h v (ix2 n (0 : Fin 1)) = v (ix1 n) := by
  refine broadcastInDim_apply _ h v (ix2 n (0 : Fin 1)) (ix1 n) ?_
  intro a
  match a with
  | ⟨0, _⟩ => show n.val = if N = 1 then 0 else n.val; rw [if_neg hN]

/-- A join of a vector of a entries and one of b entries, read below the cut: the first vector there. -/
theorem join_left {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (i : Fin a) (hi : i.val < t) :
    concatenate ⟨1, ![t]⟩ 0 [⟨⟨1, ![a]⟩, u⟩, ⟨⟨1, ![b]⟩, v⟩] h (ix1 ⟨i.val, hi⟩) = u (ix1 i) := by
  refine concatenate_pair_apply_left 0 u v h (ix1 ⟨i.val, hi⟩) rfl (ix1 i) ?_
  intro c
  match c with
  | ⟨0, _⟩ => rfl

/-- The same join read above the cut, at a + j: the second vector at j. -/
theorem join_right {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (j : Fin b) (hj : a + j.val < t) :
    concatenate ⟨1, ![t]⟩ 0 [⟨⟨1, ![a]⟩, u⟩, ⟨⟨1, ![b]⟩, v⟩] h (ix1 ⟨a + j.val, hj⟩) = v (ix1 j) := by
  refine concatenate_pair_apply_right 0 u v h (ix1 ⟨a + j.val, hj⟩) rfl rfl (ix1 j) ?_ ?_
  · intro c hc
    match c with
    | ⟨0, _⟩ => exact absurd rfl hc
  · show j.val + a = a + j.val
    omega

/-! ## A vector gathered by a column of index words -/

section Gather

variable {α : Type} {R N : Nat}

/-- The dimension numbers of the gather of a vector [R] by start indices [N, 1] into a vector [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vecDims_apply (hR : 0 < R)
    (wf : GatherDims.WF ⟨1, ![R]⟩ ⟨2, ![N, 1]⟩ ⟨1, ![N]⟩ [] [0] [] [0] [] 1 ![1]) {w : Nat}
    (x : (⟨1, ![R]⟩ : Shape).Idx → α) (idx : IVec ⟨2, ![N, 1]⟩ w) (n : Fin N) :
    Host.gather (vecGatherDims R N wf) x idx (ix1 n) = x (ix1 (clampRow R hR (idx (ix2 n (0 : Fin 1))))) := by
  unfold Host.gather
  congr 1
  funext a
  refine Fin.ext ?_
  have e0 : ((vecGatherDims R N wf).operandIdx (ix1 n) idx 0).val = min (idx (ix2 n (0 : Fin 1))).toInt.toNat (R - 1) := by
    show (vecGatherDims R N wf).start (ix1 n) idx 0 + (vecGatherDims R N wf).batchCoord (ix1 n) 0
      + (vecGatherDims R N wf).offCoord (ix1 n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims R N wf).startIndexMap from List.mem_singleton.mpr rfl)]
    have hsi : (vecGatherDims R N wf).siIdx (ix1 n) ⟨List.idxOf (0 : Fin 1) (vecGatherDims R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  match a with
  | ⟨0, _⟩ => exact e0

/-- THE VECTOR GATHER READ AT n: the operand at the clamped word n. -/
theorem gather_vec (g : GatherDims ⟨1, ![R]⟩ ⟨2, ![N, 1]⟩ ⟨1, ![N]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1]) (hR : 0 < R) {w : Nat}
    (x : (⟨1, ![R]⟩ : Shape).Idx → α) (idx : IVec ⟨2, ![N, 1]⟩ w) (n : Fin N) :
    Host.gather g x idx (ix1 n) = x (ix1 (clampRow R hR (idx (ix2 n (0 : Fin 1))))) := by
  obtain ⟨od, cd, ob, sb, sm, iv, ss, wf⟩ := g
  simp only at h1 h2 h3 h4 h5 h6 h7
  subst h1 h2 h3 h4 h5 h6 h7
  exact gather_vecDims_apply hR wf x idx n

end Gather

end Cert.LibSelfLoops

end
-- ==== Proof.LibRowNet.lean ====
/-
  The function both programs compute, one row at a time.

  Every output row depends on ONE input row `v` (1024 numbers) and on the weight tables:
    q   = v · Wq + bq                                   (a dense layer)
    qn  = the row q normalised: mean subtracted, scaled by rsqrt (variance + e)
    h   = three dense layers each followed by x ↦ x · logistic x, then a fourth dense layer, on qn
    out = h · Wo + bo.
  The two programs differ in how the variance is spelt. One computes it in ONE pass,
  max (Σ q² / c − (Σ q / c)², 0); the other in TWO passes, Σ (q − mean)² / c, and also adds
  qn − qn to h before the last layer. `netOnePass` and `netTwoPass` are those two spellings on the
  extended reals; that they agree on rows of real numbers when c is the row length is proved in
  LibRowNetLaw.lean. Here: the definitions only, over any sizes, and the vocabulary that reads rows and
  tables out of arrays indexed by literal shapes. (Imports PureOps.Ideal and Lib.ValueIdx only.)
-/
import Idealize.ShloMosaic.PureOps.Ideal
import Idealize.ShloMosaic.Lib.ValueIdx

noncomputable section

open scoped BigOperators

namespace Cert.RowNet

open Idealize.ShloMosaic Idealize.ShloMosaic.ValueIdx

/-- A dense layer on one row: entry j is Σ_k v k · W k j, plus the bias b j. -/
def dense {K N : ℕ} (W : Fin K → Fin N → EReal) (b : Fin N → EReal) (v : Fin K → EReal) : Fin N → EReal :=
  fun j => (∑ k : Fin K, v k * W k j) + b j

/-- x ↦ x · logistic x, with logistic x = 1 / (1 + e^(−x)). -/
def silu (x : EReal) : EReal := x * Ideal.logistic x

/-- The row's sum divided by c. -/
def mean {N : ℕ} (c : EReal) (v : Fin N → EReal) : EReal := Ideal.div (∑ j : Fin N, v j) c

/-- Normalisation with the variance in one pass: max (Σ v² / c − mean², 0). -/
def normOnePass {N : ℕ} (c e : EReal) (v : Fin N → EReal) : Fin N → EReal :=
  fun j => (v j - mean c v) * Ideal.rsqrt (max (Ideal.div (∑ i : Fin N, v i * v i) c - mean c v * mean c v) 0 + e)

/-- Normalisation with the variance in two passes: Σ (v − mean)² / c. -/
def normTwoPass {N : ℕ} (c e : EReal) (v : Fin N → EReal) : Fin N → EReal :=
  fun j => (v j - mean c v) * Ideal.rsqrt (Ideal.div (∑ i : Fin N, (v i - mean c v) * (v i - mean c v)) c + e)

/-- Four dense layers over the tables Wm 0 … Wm 3, the first three followed by `silu`. -/
def mlp {D : ℕ} (Wm : Fin 4 → Fin D → Fin D → EReal) (bm : Fin 4 → Fin D → EReal) (u : Fin D → EReal) : Fin D → EReal :=
  dense (Wm 3) (bm 3) fun j₃ => silu (dense (Wm 2) (bm 2) (fun j₂ => silu (dense (Wm 1) (bm 1)
    (fun j₁ => silu (dense (Wm 0) (bm 0) u j₁)) j₂)) j₃)

/-- The row network with the one-pass variance. -/
def netOnePass {K D : ℕ} (c e : EReal) (Wq : Fin K → Fin D → EReal) (bq : Fin D → EReal)
    (Wm : Fin 4 → Fin D → Fin D → EReal) (bm : Fin 4 → Fin D → EReal) (Wo : Fin D → Fin D → EReal) (bo : Fin D → EReal)
    (v : Fin K → EReal) : Fin D → EReal :=
  dense Wo bo (mlp Wm bm (normOnePass c e (dense Wq bq v)))

/-- The row network with the two-pass variance and the term qn − qn added before the last layer. -/
def netTwoPass {K D : ℕ} (c e : EReal) (Wq : Fin K → Fin D → EReal) (bq : Fin D → EReal)
    (Wm : Fin 4 → Fin D → Fin D → EReal) (bm : Fin 4 → Fin D → EReal) (Wo : Fin D → Fin D → EReal) (bo : Fin D → EReal)
    (v : Fin K → EReal) : Fin D → EReal :=
  dense Wo bo fun j => mlp Wm bm (normTwoPass c e (dense Wq bq v)) j
    + (normTwoPass c e (dense Wq bq v) j - normTwoPass c e (dense Wq bq v) j)

/-! ## Rows and tables read out of arrays -/

/-- Row (i, j) of an array [a, b, k]. -/
def row3 {a b k : ℕ} (x : (⟨3, ![a, b, k]⟩ : Shape).Idx → EReal) (i : Fin a) (j : Fin b) : Fin k → EReal :=
  fun q => x (ix3 i j q)

/-- Row i of a matrix [a, k]. -/
def row2 {a k : ℕ} (x : (⟨2, ![a, k]⟩ : Shape).Idx → EReal) (i : Fin a) : Fin k → EReal := fun q => x (ix2 i q)

/-- A matrix [a, b] as a table. -/
def mat2 {a b : ℕ} (w : (⟨2, ![a, b]⟩ : Shape).Idx → EReal) : Fin a → Fin b → EReal := fun i j => w (ix2 i j)

/-- A vector [n] as a row. -/
def vec1 {n : ℕ} (u : (⟨1, ![n]⟩ : Shape).Idx → EReal) : Fin n → EReal := fun j => u (ix1 j)

/-- A stack [l, a, b] as l tables. -/
def mat3 {l a b : ℕ} (w : (⟨3, ![l, a, b]⟩ : Shape).Idx → EReal) : Fin l → Fin a → Fin b → EReal :=
  fun t i j => w (ix3 t i j)

/-- The array [A, B, D] whose row (i, j) is `net` of row (i, j) of x : [A, B, K]. -/
def rowwise {A B K D : ℕ} (net : (Fin K → EReal) → Fin D → EReal) (x : (⟨3, ![A, B, K]⟩ : Shape).Idx → EReal) :
    (⟨3, ![A, B, D]⟩ : Shape).Idx → EReal :=
  fun i => net (row3 x (i 0) (i 1)) (i 2)

theorem rowwise_apply {A B K D : ℕ} (net : (Fin K → EReal) → Fin D → EReal) (x : (⟨3, ![A, B, K]⟩ : Shape).Idx → EReal)
    (i : Fin A) (j : Fin B) (d : Fin D) : rowwise net x (ix3 i j d) = net (row3 x i j) d := rfl

/-- The array [M, D] whose row r is `net` of row r of x : [M, K]. -/
def rowwise2 {M K D : ℕ} (net : (Fin K → EReal) → Fin D → EReal) (x : (⟨2, ![M, K]⟩ : Shape).Idx → EReal) :
    (⟨2, ![M, D]⟩ : Shape).Idx → EReal :=
  fun i => net (row2 x (i 0)) (i 1)

theorem rowwise2_apply {M K D : ℕ} (net : (Fin K → EReal) → Fin D → EReal) (x : (⟨2, ![M, K]⟩ : Shape).Idx → EReal)
    (r : Fin M) (d : Fin D) : rowwise2 net x (ix2 r d) = net (row2 x r) d := rfl

/-- The two constants of the normalisation as the programs spell them: the f32 words of 1024 and of 1e-5. -/
abbrev cWord : EReal := Ideal.ofBits .f32 0x44800000#32
abbrev eWord : EReal := Ideal.ofBits .f32 0x3727C5AC#32

end Cert.RowNet

end
-- ==== Proof.LibRowNetLaw.lean ====
/-
  The one-pass and the two-pass spelling of a row's variance agree on rows of real numbers.

  Write the row as real numbers r 0 … r (D−1), let c = D be the row length and μ = (Σ r) / D. Expanding the square,
    Σ (r i − μ)² / D = Σ r i² / D − 2 μ (Σ r i) / D + μ² = Σ r i² / D − μ²,
  because Σ 1 = D and Σ r i = D μ. The left side is a sum of squares divided by a positive number, hence ≥ 0, so
  taking the maximum with 0 of the right side changes nothing: the two normalisations feed the SAME number to the
  reciprocal square root. That number plus a positive e is a positive real, so the normalised row has real entries;
  for a real t, t − t = 0, and adding 0 changes nothing. The later layers are the same function of equal rows.
  Over any sizes. (Imports LibRowNet and LibRealEntries beside it.)
-/
import proofs.«135466_j22454089023507_2_alg».proof.Proof.LibRowNet
import proofs.«135466_j22454089023507_2_alg».proof.Proof.LibRealEntries
import Mathlib.Tactic

noncomputable section

open scoped BigOperators

namespace Cert.RowNet

open Idealize.ShloMosaic Cert.LibRealEntries

/-- The coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dense layer of real tables on a real row has real entries. -/
theorem dense_isReal {K N : ℕ} {W : Fin K → Fin N → EReal} {b : Fin N → EReal} {v : Fin K → EReal}
    (hW : ∀ k j, IsReal (W k j)) (hb : ∀ j, IsReal (b j)) (hv : ∀ k, IsReal (v k)) :
    ∀ j, IsReal (dense W b v j) := by
  intro j
  exact (isReal_sum _ _ fun k _ => (hv k).mul (hW k j)).add (hb j)

/-- The mean of a real row, the divisor a nonzero real. -/
theorem mean_coe {N : ℕ} {d : ℝ} (hd : d ≠ 0) (r : Fin N → ℝ) :
    mean (d : EReal) (fun j => (r j : EReal)) = (((∑ j, r j) * (1 / d) : ℝ) : EReal) := by
  rw [mean, Ideal.div_coe hd, ← coe_sum, ← EReal.coe_mul]

/-- The variance identity on the reals: with μ = (Σ r) / D,  Σ (r i − μ)² / D = Σ r i² / D − μ². -/
theorem var_identity {D : ℕ} (hD : 0 < D) (r : Fin D → ℝ) :
    (∑ i, (r i - (∑ j, r j) * (1 / (D : ℝ))) * (r i - (∑ j, r j) * (1 / (D : ℝ)))) * (1 / (D : ℝ))
      = (∑ i, r i * r i) * (1 / (D : ℝ)) - ((∑ j, r j) * (1 / (D : ℝ))) * ((∑ j, r j) * (1 / (D : ℝ))) := by
  have hD' : (D : ℝ) ≠ 0 := by exact_mod_cast hD.ne'
  set μ : ℝ := (∑ j, r j) * (1 / (D : ℝ)) with hμ
  have hS : ∑ j, r j = (D : ℝ) * μ := by rw [hμ]; field_simp
  have hexp : ∀ i, (r i - μ) * (r i - μ) = r i * r i - 2 * μ * r i + μ * μ := fun i => by ring
  simp_rw [hexp, Finset.sum_add_distrib, Finset.sum_sub_distrib, ← Finset.mul_sum, Finset.sum_const,
    Finset.card_univ, Fintype.card_fin, nsmul_eq_mul, hS]
  field_simp
  ring

/-- The two-pass variance of a real row is ≥ 0. -/
theorem var_nonneg {D : ℕ} (r : Fin D → ℝ) (μ : ℝ) :
    0 ≤ (∑ i, (r i - μ) * (r i - μ)) * (1 / (D : ℝ)) :=
  mul_nonneg (Finset.sum_nonneg fun i _ => mul_self_nonneg _) (by positivity)

/-- The reciprocal square root of a positive real is a real. -/
theorem rsqrt_isReal {x : ℝ} (hx : 0 < x) : IsReal (Ideal.rsqrt (x : EReal)) := by
  rw [Ideal.rsqrt_coe, if_neg (not_lt.mpr hx.le), if_neg hx.ne']
  exact isReal_coe _

section norm

variable {D : ℕ} (hD : 0 < D) {ε : ℝ} (hε : 0 < ε) (r : Fin D → ℝ)

include hD in
/-- The argument of the reciprocal square root in the two-pass spelling, as a real number. -/
theorem twoPass_arg :
    Ideal.div (∑ i : Fin D, ((r i : EReal) - mean ((D : ℝ) : EReal) fun j => (r j : EReal))
        * ((r i : EReal) - mean ((D : ℝ) : EReal) fun j => (r j : EReal))) ((D : ℝ) : EReal) + (ε : EReal)
      = (((∑ i, (r i - (∑ j, r j) * (1 / (D : ℝ))) * (r i - (∑ j, r j) * (1 / (D : ℝ)))) * (1 / (D : ℝ)) + ε : ℝ) : EReal) := by
  have hD' : (D : ℝ) ≠ 0 := by exact_mod_cast hD.ne'
  rw [mean_coe hD', Ideal.div_coe hD']
  simp_rw [← EReal.coe_sub, ← EReal.coe_mul]
  rw [← coe_sum, ← EReal.coe_mul, ← EReal.coe_add]

include hD in
/-- The argument of the reciprocal square root in the one-pass spelling is the same real number. -/
theorem onePass_arg :
    max (Ideal.div (∑ i : Fin D, (r i : EReal) * (r i : EReal)) ((D : ℝ) : EReal)
        - mean ((D : ℝ) : EReal) (fun j => (r j : EReal)) * mean ((D : ℝ) : EReal) (fun j => (r j : EReal))) 0 + (ε : EReal)
      = (((∑ i, (r i - (∑ j, r j) * (1 / (D : ℝ))) * (r i - (∑ j, r j) * (1 / (D : ℝ)))) * (1 / (D : ℝ)) + ε : ℝ) : EReal) := by
  have hD' : (D : ℝ) ≠ 0 := by exact_mod_cast hD.ne'
  rw [mean_coe hD', Ideal.div_coe hD']
  simp_rw [← EReal.coe_mul]
  rw [← coe_sum, ← EReal.coe_mul, ← EReal.coe_sub, ← var_identity hD r,
    max_eq_left (by rw [← EReal.coe_zero, EReal.coe_le_coe_iff]; exact var_nonneg r _), ← EReal.coe_add]

include hD in
/-- The two normalisations agree on a real row whose length is the divisor. -/
theorem normOnePass_eq_normTwoPass :
    normOnePass ((D : ℝ) : EReal) (ε : EReal) (fun j => (r j : EReal))
      = normTwoPass ((D : ℝ) : EReal) (ε : EReal) (fun j => (r j : EReal)) := by
  funext j
  simp only [normOnePass, normTwoPass]
  rw [onePass_arg hD r, twoPass_arg hD r]

include hD hε in
/-- The normalised row has real entries. -/
theorem normTwoPass_isReal (j : Fin D) :
    IsReal (normTwoPass ((D : ℝ) : EReal) (ε : EReal) (fun j => (r j : EReal)) j) := by
  have hD' : (D : ℝ) ≠ 0 := by exact_mod_cast hD.ne'
  simp only [normTwoPass]
  rw [twoPass_arg hD r, mean_coe hD', ← EReal.coe_sub]
  exact (isReal_coe _).mul (rsqrt_isReal (add_pos_of_nonneg_of_pos (var_nonneg r _) hε))

end norm

/-- A real number minus itself is 0 on the extended reals. -/
theorem sub_self_of_isReal {x : EReal} (hx : IsReal x) : x - x = 0 := by
  obtain ⟨t, rfl⟩ := hx
  rw [← EReal.coe_sub, sub_self, EReal.coe_zero]

/-- The two row networks agree as soon as the first dense layer's output is a row of real numbers, the divisor c
    is the row length and e is a positive real. Nothing is asked of the later tables. -/
theorem netOnePass_eq_netTwoPass {K D : ℕ} (hD : 0 < D) {c e : EReal} (hc : c = ((D : ℝ) : EReal))
    (he : ∃ r : ℝ, 0 < r ∧ e = (r : EReal))
    (Wq : Fin K → Fin D → EReal) (bq : Fin D → EReal) (Wm : Fin 4 → Fin D → Fin D → EReal) (bm : Fin 4 → Fin D → EReal)
    (Wo : Fin D → Fin D → EReal) (bo : Fin D → EReal) (v : Fin K → EReal)
    (hq : ∀ j, IsReal (dense Wq bq v j)) :
    netOnePass c e Wq bq Wm bm Wo bo v = netTwoPass c e Wq bq Wm bm Wo bo v := by
  obtain ⟨ε, hε, rfl⟩ := he
  subst hc
  choose r hr using hq
  have hqr : dense Wq bq v = fun j => (r j : EReal) := funext hr
  simp only [netOnePass, netTwoPass]
  rw [hqr, normOnePass_eq_normTwoPass hD r]
  congr 1
  funext j
  rw [sub_self_of_isReal (normTwoPass_isReal hD hε r j), add_zero]

/-! ## The two constants

  The f32 word 0x44800000 has sign 0, exponent field 137 and fraction 0: it is 2²³ · 2^(137 − 127 − 23) = 2¹⁰ = 1024.
  The word 0x3727C5AC has sign 0, exponent field 110 and fraction 2606508: it is (2²³ + 2606508) · 2^(110 − 127 − 23)
  = 10995116 · 2⁻⁴⁰, a positive real (about 10⁻⁵). -/

theorem cWord_eq : cWord = ((1024 : ℝ) : EReal) := by
  simp only [cWord, Ideal.ofBits, Ideal.ieee]
  simp
  rw [← EReal.coe_mul]
  norm_num

theorem eWord_pos : ∃ r : ℝ, 0 < r ∧ eWord = (r : EReal) := by
  simp [eWord, Ideal.ofBits, Ideal.ieee]
  exact ⟨10995116 * (2 ^ 40)⁻¹, by positivity, by rw [EReal.coe_mul]⟩

end Cert.RowNet

end
-- ==== Proof.GcnEdges.lean ====
/-
  The graph the two programs share, as functions of the edge array.

  Both programs append one loop per node to the edge list and compute, from the destination words alone, each node's
  degree (a scatter-add of ones) and its scale D = 1 / √(max (degree, 1)). From the reference's own stages: edge n is sent
  to node r (`sel`) when its destination word, read signed, is r; it reads node `s n`, its source word normalised and
  clamped; its destination word normalised and clamped is `t n`. An edge sent to r has t n = r (`hsel`): a word that is
  a row number is not negative, so the normalisation and the clamp leave it alone. D is a real number at every node
  (`hD`): the degree is a finite sum of ones, its maximum with 1 is at least 1, and 1/√ of a positive real is real.
-/
import Mathlib.Tactic
import Idealize.ShloMosaic.Lib.IdealHost
import proofs.«135466_j22454089023507_2_alg».proof.Proof.RefRead
import proofs.«135466_j22454089023507_2_alg».proof.Proof.LibGcnReads
import proofs.«135466_j22454089023507_2_alg».proof.Proof.LibSelfLoops
import proofs.«135466_j22454089023507_2_alg».proof.Proof.LibRealEntries
import proofs.«135466_j22454089023507_2_alg».proof.Proof.LibRowNetLaw

noncomputable section

open scoped BigOperators

namespace Cert.GcnEdges

open Cert.ReferenceIdeal Cert.ReferenceIdeal.Gen Cert.ReferenceIdeal.Read Idealize.ShloMosaic Idealize.ShloMosaic.ValueIdx
open Cert.GcnHost Cert.LibRowGatherScatter Cert.LibRealEntries

/-- The edge array: two rows of 600000 words, sources then destinations. -/
abbrev Edges := (⟨S2x600000, .i32⟩ : BufTy).Contents (Elt Ideal)

theorem hR : 0 < 50000 := by decide

variable (x1 : Edges)

/-- The nodes' scales. -/
abbrev D : Fin 50000 → EReal := vec (val_main_v13 (F := Ideal) x1)
/-- Edge n is sent to node r. -/
abbrev sel : Fin 650000 → Fin 50000 → Prop := sentTo (val_main_v9 (F := Ideal) x1)
/-- The node edge n reads. -/
abbrev s : Fin 650000 → Fin 50000 := srcOf hR (val_main_v19 (F := Ideal) x1)
/-- The node edge n names as its destination, normalised and clamped. -/
abbrev t : Fin 650000 → Fin 50000 := srcOf hR (val_main_v26 (F := Ideal) x1)

/-- AN EDGE SENT TO r NAMES r. -/
theorem hsel (n : Fin 650000) (r : Fin 50000) (h : sel x1 n r) : t x1 n = r := by
  have e9 : val_main_v9 (F := Ideal) x1 (ix2 n (0 : Fin 1)) = val_main_v6 (F := Ideal) x1 (ix1 n) :=
    Cert.RowLogSoftmax.hostColCast_apply (val_main_v6 (F := Ideal) x1) bcast_S650000_S650000x1_0 n 0
  have e26 : val_main_v26 (F := Ideal) x1 (ix2 n (0 : Fin 1)) = val_main_v25 (F := Ideal) x1 (ix1 n) :=
    Cert.RowLogSoftmax.hostColCast_apply (val_main_v25 (F := Ideal) x1) bcast_S650000_S650000x1_0 n 0
  have e25 : val_main_v25 (F := Ideal) x1 (ix1 n) = Cert.LibSelfLoops.wrapWord 50000#32 (val_main_v6 (F := Ideal) x1 (ix1 n)) :=
    Cert.LibSelfLoops.wrap_apply 50000#32 bcast_S_S650000 bcast_S_S650000 (val_main_v6 (F := Ideal) x1) (ix1 n)
  have h' : (val_main_v6 (F := Ideal) x1 (ix1 n)).toInt = (r.val : ℤ) := by
    have h0 : (val_main_v9 (F := Ideal) x1 (ix2 n (0 : Fin 1))).toInt = (r.val : ℤ) := h
    rwa [e9] at h0
  show clampRow 50000 hR (val_main_v26 (F := Ideal) x1 (ix2 n (0 : Fin 1))) = r
  rw [e26, e25]
  unfold Cert.LibSelfLoops.wrapWord
  rw [Cert.LibSelfLoops.wrap_nonneg _ _ (by rw [h']; exact Int.natCast_nonneg _)]
  exact clampRow_of_toInt hR _ r h'

/-- A scatter-add of real updates into a real operand is real. -/
theorem isReal_scatterAdd {sh si su : Shape} (d : ScatterDims sh si su) {w : Nat} (x : FVec Ideal sh .f32)
    (idx : IVec si w) (upd : FVec Ideal su .f32) (hx : ∀ i, IsReal (x i)) (hu : ∀ j, IsReal (upd j)) (i : sh.Idx) :
    IsReal (Host.scatterAdd (F := Ideal) d x idx upd i) := by
  simp only [Host.scatterAdd, Ideal.hostScatterAdd_def, Ideal.hostScatterAdd]
  exact (hx i).add (isReal_sum _ _ fun j _ => hu j)

/-- EVERY NODE'S SCALE IS A REAL NUMBER. -/
theorem hD (r : Fin 50000) : IsReal (D x1 r) := by
  have h8 : ∀ i, IsReal (val_main_v8 (F := Ideal) i) := fun i => by
    show IsReal (broadcastInDim S50000 ![] bcast_S_S50000 (constant (F := Ideal) S_ .f32 0x00000000#32) i)
    rw [Cert.HostLayout.scalar_apply, constant_apply, Ideal.ofBits_zero_f32]; exact isReal_zero
  have h7 : ∀ j, IsReal (val_main_v7 (F := Ideal) j) := fun j => by
    show IsReal (broadcastInDim S650000 ![] bcast_S_S650000 (constant (F := Ideal) S_ .f32 0x3F800000#32) j)
    rw [Cert.HostLayout.scalar_apply, constant_apply, Ideal.ofBits_one_f32]; exact ⟨1, EReal.coe_one.symm⟩
  have h10 : IsReal (val_main_v10 (F := Ideal) x1 (ix1 r)) := isReal_scatterAdd _ _ _ _ h8 h7 _
  have h11 : val_main_v11 (F := Ideal) (ix1 r) = 1 := by
    show broadcastInDim S50000 ![] bcast_S_S50000 (constant (F := Ideal) S_ .f32 0x3F800000#32) (ix1 r) = 1
    rw [Cert.HostLayout.scalar_apply, constant_apply, Ideal.ofBits_one_f32]
  obtain ⟨y, hy⟩ := h10.max (⟨1, h11.trans EReal.coe_one.symm⟩ : IsReal (val_main_v11 (F := Ideal) (ix1 r)))
  have hy1 : (1 : ℝ) ≤ y := by
    have := le_max_right (val_main_v10 (F := Ideal) x1 (ix1 r)) (val_main_v11 (F := Ideal) (ix1 r))
    rw [hy, h11, ← EReal.coe_one] at this
    exact EReal.coe_le_coe_iff.mp this
  unfold D vec
  rw [val_main_v13_apply, Ideal.hostUnary_rsqrt_def, val_main_v12_apply, Ideal.maximumf_def, hy, Ideal.rsqrt_coe,
    if_neg (by linarith), if_neg (by linarith)]
  exact isReal_coe _

/-- 1/√(v + ε) is a real number for a real v ≥ 0, ε the f32 word of 1e-5. -/
theorem isReal_rsqrt_add_eps {v : EReal} (hv : ∃ a : ℝ, 0 ≤ a ∧ v = (a : EReal)) :
    IsReal (Ideal.rsqrt (v + Ideal.ofBits .f32 0x3727C5AC#32)) := by
  obtain ⟨a, ha, rfl⟩ := hv
  obtain ⟨e, he, hE⟩ := Cert.RowNet.eWord_pos
  rw [show Ideal.ofBits .f32 0x3727C5AC#32 = (e : EReal) from hE, ← EReal.coe_add, Ideal.rsqrt_coe, if_neg (by linarith),
    if_neg (by linarith)]
  exact isReal_coe _

end Cert.GcnEdges

end
-- ==== Proof.RefValue.lean ====
/-
  The reference program's result, entry by entry.

  The reference's stages, read as functions of node and edge numbers: each layer is a dense layer (`lin`), the edgewise
  propagation with the weight D (s n) · D (t n) on edge n (`convR`), and — after the first two layers — the normalisation
  (h − μ) · σ + β cut off below at zero (`bnR`), with σ = γ · 1/√(v + ε). The result at (r, c) is the log-softmax of row r
  of the third propagation.
-/
import proofs.«135466_j22454089023507_2_alg».proof.Proof.GcnEdges
import proofs.«135466_j22454089023507_2_alg».proof.Proof.LibRowLogSoftmax

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GcnHost Cert.GcnBn Cert.GcnEdges Cert.LibRowGatherScatter

/-- The normalisation's scale row: γ · 1/√(v + ε), ε the f32 word of 1e-5. -/
def sigma (g v : Fin 128 → EReal) (k : Fin 128) : EReal := g k * Ideal.rsqrt (v k + Ideal.ofBits .f32 0x3727C5AC#32)

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal))

/-- The per-edge weight column: D at the node the edge reads times D at the node it names. -/
theorem weight_apply (n : Fin 650000) :
    val_main_v33 (F := Ideal) x1 (ix2 n (0 : Fin 1)) = D x1 (s x1 n) * D x1 (t x1 n) := by
  have e33 : val_main_v33 (F := Ideal) x1 (ix2 n (0 : Fin 1)) = val_main_v28 (F := Ideal) x1 (ix1 n) :=
    Cert.RowLogSoftmax.hostColCast_apply (val_main_v28 (F := Ideal) x1) bcast_S650000_S650000x1_0 n 0
  rw [e33, val_main_v28_apply, Ideal.mulf_def]
  have e20 : val_main_v20 (F := Ideal) x1 (ix1 n) = D x1 (s x1 n) :=
    Cert.LibSelfLoops.gather_vec gather_S50000_S650000x1_S650000_n_0_n_n_0_1_1 rfl rfl rfl rfl rfl rfl rfl hR
      (val_main_v13 (F := Ideal) x1) (val_main_v19 (F := Ideal) x1) n
  have e27 : val_main_v27 (F := Ideal) x1 (ix1 n) = D x1 (t x1 n) :=
    Cert.LibSelfLoops.gather_vec gather_S50000_S650000x1_S650000_n_0_n_n_0_1_1 rfl rfl rfl rfl rfl rfl rfl hR
      (val_main_v13 (F := Ideal) x1) (val_main_v26 (F := Ideal) x1) n
  rw [e20, e27]

/-- The scale row of a normalisation as the host computes it. -/
theorem sigma_vec (g v : (⟨S128, .f32⟩ : BufTy).Contents (Elt Ideal)) :
    vec (mulf g (Host.rsqrt (addf v (broadcastInDim S128 ![] bcast_S_S128 (constant (F := Ideal) S_ .f32 0x3727C5AC#32)))))
      = sigma (vec g) (vec v) := by
  funext k
  show g (ix1 k) * Ideal.rsqrt (v (ix1 k) + broadcastInDim S128 ![] bcast_S_S128 (constant (F := Ideal) S_ .f32 0x3727C5AC#32) (ix1 k)) = _
  rw [Cert.HostLayout.scalar_apply, constant_apply]
  rfl

/-- Layer 0's dense part. -/
theorem lin0 : mat (val_main_v32 (F := Ideal) x0 x2 x3) = lin (mat x0) (mat x2) (vec x3) :=
  hostLin_mat none x0 x2 x3 bcast_S128_S1x128_1 bcast_S1x128_S50000x128_0_1

/-- Layer 0's propagation. -/
theorem conv0 : mat (val_main_v45 (F := Ideal) x0 x1 x2 x3)
    = convR (sel x1) (s x1) (t x1) (D x1) (lin (mat x0) (mat x2) (vec x3)) := by
  rw [← lin0]
  exact refConv_mat scatter_S50000x128_S650000x1_S650000x128_1_0_0_1 gather_S50000x128_S650000x1_S650000x128_1_0_n_n_0_1_1128
    rfl rfl rfl rfl rfl rfl rfl rfl rfl rfl rfl hR bcast_S_S50000x128 bcast_S650000x1_S650000x128_0_1
    (val_main_v33 (F := Ideal) x1) (val_main_v32 (F := Ideal) x0 x2 x3) (val_main_v9 (F := Ideal) x1)
    (val_main_v19 (F := Ideal) x1) (t x1) (D x1) (weight_apply x1)

/-- Layer 0's normalisation. -/
theorem bn0 : mat (val_main_v59 (F := Ideal) x0 x1 x2 x3 x8 x9 x10 x11)
    = bnR (sigma (vec x8) (vec x11)) (vec x10) (vec x9) (mat (val_main_v45 (F := Ideal) x0 x1 x2 x3)) := by
  rw [← sigma_vec]
  exact hostBn_mat (val_main_v45 (F := Ideal) x0 x1 x2 x3) x10 (val_main_v52 (F := Ideal) x8 x11) x9
    bcast_S128_S1x128_1 bcast_S1x128_S50000x128_0_1 bcast_S_S50000x128

/-- Layer 1's dense part. -/
theorem lin1 : mat (val_main_v63 (F := Ideal) x0 x1 x2 x3 x4 x5 x8 x9 x10 x11)
    = lin (mat (val_main_v59 (F := Ideal) x0 x1 x2 x3 x8 x9 x10 x11)) (mat x4) (vec x5) :=
  hostLin_mat none (val_main_v59 (F := Ideal) x0 x1 x2 x3 x8 x9 x10 x11) x4 x5 bcast_S128_S1x128_1 bcast_S1x128_S50000x128_0_1

/-- Layer 1's propagation. -/
theorem conv1 : mat (val_main_v76 (F := Ideal) x0 x1 x2 x3 x4 x5 x8 x9 x10 x11)
    = convR (sel x1) (s x1) (t x1) (D x1) (mat (val_main_v63 (F := Ideal) x0 x1 x2 x3 x4 x5 x8 x9 x10 x11)) :=
  refConv_mat scatter_S50000x128_S650000x1_S650000x128_1_0_0_1 gather_S50000x128_S650000x1_S650000x128_1_0_n_n_0_1_1128
    rfl rfl rfl rfl rfl rfl rfl rfl rfl rfl rfl hR bcast_S_S50000x128 bcast_S650000x1_S650000x128_0_1
    (val_main_v33 (F := Ideal) x1) (val_main_v63 (F := Ideal) x0 x1 x2 x3 x4 x5 x8 x9 x10 x11) (val_main_v9 (F := Ideal) x1)
    (val_main_v19 (F := Ideal) x1) (t x1) (D x1) (weight_apply x1)

/-- Layer 1's normalisation. -/
theorem bn1 : mat (val_main_v90 (F := Ideal) x0 x1 x2 x3 x4 x5 x8 x9 x10 x11 x12 x13 x14 x15)
    = bnR (sigma (vec x12) (vec x15)) (vec x14) (vec x13) (mat (val_main_v76 (F := Ideal) x0 x1 x2 x3 x4 x5 x8 x9 x10 x11)) := by
  rw [← sigma_vec]
  exact hostBn_mat (val_main_v76 (F := Ideal) x0 x1 x2 x3 x4 x5 x8 x9 x10 x11) x14 (val_main_v83 (F := Ideal) x12 x15) x13
    bcast_S128_S1x128_1 bcast_S1x128_S50000x128_0_1 bcast_S_S50000x128

/-- Layer 2's dense part. -/
theorem lin2 : mat (val_main_v94 (F := Ideal) x0 x1 x2 x3 x4 x5 x6 x7 x8 x9 x10 x11 x12 x13 x14 x15)
    = lin (mat (val_main_v90 (F := Ideal) x0 x1 x2 x3 x4 x5 x8 x9 x10 x11 x12 x13 x14 x15)) (mat x6) (vec x7) :=
  hostLin_mat none (val_main_v90 (F := Ideal) x0 x1 x2 x3 x4 x5 x8 x9 x10 x11 x12 x13 x14 x15) x6 x7 bcast_S40_S1x40_1 bcast_S1x40_S50000x40_0_1

/-- Layer 2's propagation. -/
theorem conv2 : mat (val_main_v107 (F := Ideal) x0 x1 x2 x3 x4 x5 x6 x7 x8 x9 x10 x11 x12 x13 x14 x15)
    = convR (sel x1) (s x1) (t x1) (D x1) (mat (val_main_v94 (F := Ideal) x0 x1 x2 x3 x4 x5 x6 x7 x8 x9 x10 x11 x12 x13 x14 x15)) :=
  refConv_mat scatter_S50000x40_S650000x1_S650000x40_1_0_0_1 gather_S50000x40_S650000x1_S650000x40_1_0_n_n_0_1_140
    rfl rfl rfl rfl rfl rfl rfl rfl rfl rfl rfl hR bcast_S_S50000x40 bcast_S650000x1_S650000x40_0_1
    (val_main_v33 (F := Ideal) x1) (val_main_v94 (F := Ideal) x0 x1 x2 x3 x4 x5 x6 x7 x8 x9 x10 x11 x12 x13 x14 x15) (val_main_v9 (F := Ideal) x1)
    (val_main_v19 (F := Ideal) x1) (t x1) (D x1) (weight_apply x1)

/-- THE SCORES: the third propagation is the network with both scales on every edge. -/
theorem logits : mat (val_main_v107 (F := Ideal) x0 x1 x2 x3 x4 x5 x6 x7 x8 x9 x10 x11 x12 x13 x14 x15)
    = logitsR (sel x1) (s x1) (t x1) (D x1) (mat x0) (mat x2) (vec x3) (sigma (vec x8) (vec x11)) (vec x10) (vec x9)
        (mat x4) (vec x5) (sigma (vec x12) (vec x15)) (vec x14) (vec x13) (mat x6) (vec x7) := by
  unfold logitsR
  rw [conv2, lin2, bn1, conv1, lin1, bn0, conv0]

/-- THE RESULT at (r, c): the log-softmax of row r of the scores. -/
theorem value (r : Fin 50000) (c : Fin 40) :
    val_main_v108 (F := Ideal) x0 x1 x2 x3 x4 x5 x6 x7 x8 x9 x10 x11 x12 x13 x14 x15 (ix2 r c)
      = Cert.RowLogSoftmax.rowLogSoftmax (fun q => logitsR (sel x1) (s x1) (t x1) (D x1) (mat x0) (mat x2) (vec x3)
          (sigma (vec x8) (vec x11)) (vec x10) (vec x9) (mat x4) (vec x5) (sigma (vec x12) (vec x15)) (vec x14) (vec x13)
          (mat x6) (vec x7) r q) c := by
  rw [← logits]
  have hred : Shape.Reduces S50000x40 [1] S50000 := by
    obtain ⟨h1, h2⟩ := reducesTo_S50000x40_S50000_d1
    exact ⟨h1, Nat.one_pos, h2⟩
  exact Cert.RowLogSoftmax.host_apply (val_main_v107 (F := Ideal) x0 x1 x2 x3 x4 x5 x6 x7 x8 x9 x10 x11 x12 x13 x14 x15) reducesTo_S50000x40_S50000_d1 hred h_S_
    bcast_S_S50000 bcast_S50000_S50000x1_0 bcast_S50000x1_S50000x40_0_1 r c

end Cert.ReferenceIdeal.RefValue

end
-- ==== Proof.KernelLogits.lean ====
/-
  The kernel program's result, entry by entry.

  The whole-array functions of the four pallas_calls and the gathers and scatters between them, read as functions of node
  and edge numbers: a pallas_call's array is its rows scaled by D (`scaleRows`) of a dense layer (`lin`) of — for the later
  two — the normalised (`bnK`), scaled sums; a gather followed by the scatter-add is the sum over the edges sent to a node
  (`gsum`). Scaling, summing and scaling again is `convK`, so the result at (r, c) is the log-softmax of row r of the
  network `logitsK`.
-/
import proofs.«135466_j22454089023507_2_alg».proof.Proof.KernelValue
import proofs.«135466_j22454089023507_2_alg».proof.Proof.RefValue

set_option maxRecDepth 16384

noncomputable section

open scoped BigOperators

namespace Cert.KernelIdeal.KLogits

open Cert.KernelIdeal Cert.KernelIdeal.Gen Cert.KernelIdeal.KValue
open Idealize.ShloMosaic Idealize.ShloMosaic.TcCoe Idealize.ShloMosaic.ValueIdx Idealize.SL.Sem
open Cert.GcnHost Cert.GcnBn Cert.GcnEdges Cert.LibRowGatherScatter Cert.ReferenceIdeal.RefValue

/-- Column 0 of an array with one column. -/
def col {a : Nat} (x : (⟨2, ![a, 1]⟩ : Shape).Idx → EReal) (r : Fin a) : EReal := x (ix2 r (0 : Fin 1))
/-- Row 0 of an array with one row. -/
def rowv {b : Nat} (x : (⟨2, ![1, b]⟩ : Shape).Idx → EReal) (k : Fin b) : EReal := x (ix2 (0 : Fin 1) k)

theorem mat_G0 (X : S50000x128.Idx → EReal) (W : S128x128.Idx → EReal) (B : S1x128.Idx → EReal) (Dc : S50000x1.Idx → EReal) :
    mat (Region0.G X W B Dc) = scaleRows (col Dc) (lin (mat X) (mat W) (rowv B)) := rfl

theorem mat_G1 (A : S50000x128.Idx → EReal) (Dc : S50000x1.Idx → EReal) (Sc Sh : S1x128.Idx → EReal)
    (W : S128x128.Idx → EReal) (B : S1x128.Idx → EReal) :
    mat (Region1.G A Dc Sc Sh W B)
      = scaleRows (col Dc) (lin (bnK (rowv Sc) (rowv Sh) (scaleRows (col Dc) (mat A))) (mat W) (rowv B)) := rfl

theorem mat_G2 (A : S50000x128.Idx → EReal) (Dc : S50000x1.Idx → EReal) (Sc Sh : S1x128.Idx → EReal)
    (W : S128x40.Idx → EReal) (B : S1x40.Idx → EReal) :
    mat (Region2.G A Dc Sc Sh W B)
      = scaleRows (col Dc) (lin (bnK (rowv Sc) (rowv Sh) (scaleRows (col Dc) (mat A))) (mat W) (rowv B)) := rfl

theorem G3_apply (A : S50000x40.Idx → EReal) (Dc : S50000x1.Idx → EReal) (r : Fin 50000) (q : Fin 40) :
    Region3.G A Dc (ix2 r q) = Cert.RowLogSoftmax.rowLogSoftmax (fun k => scaleRows (col Dc) (mat A) r k) q := rfl

variable (x1 : Edges)

/-- Rows of a 128-column table gathered along the edges and summed by destination. -/
theorem mat_agg128 (P : (⟨S50000x128, .bf16⟩ : BufTy).Contents (Elt Ideal)) :
    mat (agg128 (Cert.ReferenceIdeal.Read.val_main_v6 (F := Ideal) x1) (Cert.ReferenceIdeal.Read.val_main_v3 (F := Ideal) x1) P)
      = gsum (sel x1) (s x1) (mat (P : S50000x128.Idx → EReal)) :=
  agg_mat scatter_S50000x128_S650000x1_S650000x128_1_0_0_1 gather_S50000x128_S650000x1_S650000x128_1_0_n_n_0_1_1128
    rfl rfl rfl rfl rfl rfl rfl rfl rfl rfl rfl hR bitsLt_bf16_f32 bcast_S_S50000x128 P
    (Cert.ReferenceIdeal.Read.val_main_v9 (F := Ideal) x1) (Cert.ReferenceIdeal.Read.val_main_v19 (F := Ideal) x1)

/-- The same for a 40-column table. -/
theorem mat_agg40 (P : (⟨S50000x40, .bf16⟩ : BufTy).Contents (Elt Ideal)) :
    mat (agg40 (Cert.ReferenceIdeal.Read.val_main_v6 (F := Ideal) x1) (Cert.ReferenceIdeal.Read.val_main_v3 (F := Ideal) x1) P)
      = gsum (sel x1) (s x1) (mat (P : S50000x40.Idx → EReal)) :=
  agg_mat scatter_S50000x40_S650000x1_S650000x40_1_0_0_1 gather_S50000x40_S650000x1_S650000x40_1_0_n_n_0_1_140
    rfl rfl rfl rfl rfl rfl rfl rfl rfl rfl rfl hR bitsLt_bf16_f32 bcast_S_S50000x40 P
    (Cert.ReferenceIdeal.Read.val_main_v9 (F := Ideal) x1) (Cert.ReferenceIdeal.Read.val_main_v19 (F := Ideal) x1)

/-- A vector laid as one row, read back. -/
theorem rowv_row128 (v : (⟨S128, .f32⟩ : BufTy).Contents (Elt Ideal)) : rowv (row128 v) = vec v :=
  funext fun k => Cert.ColRowBroadcast.rowCast_apply v shapeCasts_S128_S1x128 0 k
theorem rowv_row40 (v : (⟨S40, .f32⟩ : BufTy).Contents (Elt Ideal)) : rowv (row40 v) = vec v :=
  funext fun k => Cert.ColRowBroadcast.rowCast_apply v shapeCasts_S40_S1x40 0 k

/-- The scale vector is γ · 1/√(v + ε), entry by entry. -/
theorem vec_scaleVec (g v : (⟨S128, .f32⟩ : BufTy).Contents (Elt Ideal)) : vec (scaleVec g v) = sigma (vec g) (vec v) :=
  Cert.ReferenceIdeal.RefValue.sigma_vec g v

/-- The shift vector is β − μ · σ, entry by entry. -/
theorem vec_shiftVec (be mu g v : (⟨S128, .f32⟩ : BufTy).Contents (Elt Ideal)) :
    vec (shiftVec be mu g v) = fun k => vec be k - vec mu k * sigma (vec g) (vec v) k := by
  funext k
  show be (ix1 k) - mu (ix1 k) * vec (scaleVec g v) k = _
  rw [vec_scaleVec]
  rfl

variable (m : (ℓ : Loc nD τ sig) → Buf (Elt Ideal) ℓ) (ρ : Dev nD → PrngReg) (c : Dev nD)

/-- The scale column read back: the nodes' scales. -/
theorem col_DCOL : col (DCOL m c) = D (m ((c.tc : Thread nD τ).loc main_arg1)) :=
  funext fun r => Cert.ColRowBroadcast.colCast_apply (Cert.ReferenceIdeal.Read.val_main_v13 (F := Ideal) (m ((c.tc : Thread nD τ).loc main_arg1))) shapeCasts_S50000_S50000x1 r 0

/-- THE RESULT at (r, q): the log-softmax of row r of the network with the scale applied to rows. -/
theorem value (r : Fin 50000) (q : Fin 40) :
    OUT m c (ix2 r q)
      = Cert.RowLogSoftmax.rowLogSoftmax (fun k => logitsK (sel (m ((c.tc : Thread nD τ).loc main_arg1))) (s (m ((c.tc : Thread nD τ).loc main_arg1))) (D (m ((c.tc : Thread nD τ).loc main_arg1)))
          (mat (α := EReal) (m ((c.tc : Thread nD τ).loc main_arg0))) (mat (α := EReal) (m ((c.tc : Thread nD τ).loc main_arg2))) (vec (α := EReal) (m ((c.tc : Thread nD τ).loc main_arg3)))
          (sigma (vec (α := EReal) (m ((c.tc : Thread nD τ).loc main_arg8))) (vec (α := EReal) (m ((c.tc : Thread nD τ).loc main_arg11)))) (fun k => vec (α := EReal) (m ((c.tc : Thread nD τ).loc main_arg9)) k - vec (α := EReal) (m ((c.tc : Thread nD τ).loc main_arg10)) k * sigma (vec (α := EReal) (m ((c.tc : Thread nD τ).loc main_arg8))) (vec (α := EReal) (m ((c.tc : Thread nD τ).loc main_arg11))) k)
          (mat (α := EReal) (m ((c.tc : Thread nD τ).loc main_arg4))) (vec (α := EReal) (m ((c.tc : Thread nD τ).loc main_arg5)))
          (sigma (vec (α := EReal) (m ((c.tc : Thread nD τ).loc main_arg12))) (vec (α := EReal) (m ((c.tc : Thread nD τ).loc main_arg15)))) (fun k => vec (α := EReal) (m ((c.tc : Thread nD τ).loc main_arg13)) k - vec (α := EReal) (m ((c.tc : Thread nD τ).loc main_arg14)) k * sigma (vec (α := EReal) (m ((c.tc : Thread nD τ).loc main_arg12))) (vec (α := EReal) (m ((c.tc : Thread nD τ).loc main_arg15))) k)
          (mat (α := EReal) (m ((c.tc : Thread nD τ).loc main_arg6))) (vec (α := EReal) (m ((c.tc : Thread nD τ).loc main_arg7))) r k) q := by
  unfold OUT
  rw [G3_apply]
  refine congrArg (fun f : Fin 50000 → Fin 40 → EReal => Cert.RowLogSoftmax.rowLogSoftmax (fun k => f r k) q) ?_
  unfold logitsK convK AG2 P2 AG1 P1 AG0 P0
  rw [mat_agg40, mat_G2, mat_agg128, mat_G1, mat_agg128, mat_G0, col_DCOL, rowv_row128, rowv_row128, rowv_row128,
    rowv_row128, rowv_row128, rowv_row128, rowv_row40, vec_scaleVec, vec_scaleVec, vec_shiftVec, vec_shiftVec]

end Cert.KernelIdeal.KLogits

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.PreFacts.lean ====
/-
  What the precondition says of the argument arrays.

  The precondition is one bit: the conjunction, over the float arrays, of "every entry's absolute value is below +∞", and,
  for the two variance rows, of "every entry is at least 0". When the bit is 1 every conjunct is 1; a conjunction over an
  array that is 1 is 1 at every entry; an extended real whose absolute value is below +∞ is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Affine
import proofs.«135466_j22454089023507_2_alg».proof.Pre_finite_inputs
import proofs.«135466_j22454089023507_2_alg».proof.Proof.Gen.Pre_finite_inputs
import proofs.«135466_j22454089023507_2_alg».proof.Proof.LibSingletonSoftmax
import proofs.«135466_j22454089023507_2_alg».proof.Proof.LibRealEntries

set_option maxRecDepth 16384

noncomputable section

namespace Cert.PreFacts

open Cert.Pre_finite_inputs Cert.Pre_finite_inputs.Gen Idealize.ShloMosaic Idealize.ShloMosaic.ValueIdx Cert.LibRealEntries

instance : Subsingleton S_.Idx := ⟨fun a b => funext fun d => d.elim0⟩

/-- A comparison "x ≥ 0" that answers 1 says 0 ≤ x. -/
theorem nonneg_of_cmp (x : EReal) (h : Ideal.cmp .oge x (Ideal.ofBits .f32 0x00000000#32) = 1#1) : 0 ≤ x := by
  rw [Ideal.ofBits_zero_f32] at h
  by_contra hn
  simp [Ideal.cmp, hn] at h

set_option maxHeartbeats 4000000 in
/-- THE PRECONDITION, DECODED: every float entry is a real number and the two variance rows are nowhere negative. -/
theorem decode (x0 : FVec Ideal S50000x128 .f32) (x1 : IVec S2x600000 32) (x2 : FVec Ideal S128x128 .f32) (x3 : FVec Ideal S128 .f32) (x4 : FVec Ideal S128x128 .f32) (x5 : FVec Ideal S128 .f32) (x6 : FVec Ideal S128x40 .f32) (x7 : FVec Ideal S40 .f32) (x8 : FVec Ideal S128 .f32) (x9 : FVec Ideal S128 .f32) (x10 : FVec Ideal S128 .f32) (x11 : FVec Ideal S128 .f32) (x12 : FVec Ideal S128 .f32) (x13 : FVec Ideal S128 .f32) (x14 : FVec Ideal S128 .f32) (x15 : FVec Ideal S128 .f32)
    (h : fn (F := Ideal) x0 x1 x2 x3 x4 x5 x6 x7 x8 x9 x10 x11 x12 x13 x14 x15 = fun _ => 1#1) :
    (∀ i, IsReal (x0 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, (0 : EReal) ≤ x11 i) ∧ (∀ i, (0 : EReal) ≤ x15 i) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨⟨⟨c0, c2⟩, c3⟩, c4⟩, c5⟩, c6⟩, c7⟩, c8⟩, c9⟩, c10⟩, c11⟩, c12⟩, c13⟩, c14⟩, c15⟩, g0⟩, g1⟩ := h0
  exact ⟨fun i => SingletonSoftmax.real_of_abs_lt_top _ (Host.reduce_andi_all _ _ _ _ ix0 c0 i),
    fun i => SingletonSoftmax.real_of_abs_lt_top _ (Host.reduce_andi_all _ _ _ _ ix0 c2 i),
    fun i => SingletonSoftmax.real_of_abs_lt_top _ (Host.reduce_andi_all _ _ _ _ ix0 c3 i),
    fun i => SingletonSoftmax.real_of_abs_lt_top _ (Host.reduce_andi_all _ _ _ _ ix0 c4 i),
    fun i => SingletonSoftmax.real_of_abs_lt_top _ (Host.reduce_andi_all _ _ _ _ ix0 c5 i),
    fun i => SingletonSoftmax.real_of_abs_lt_top _ (Host.reduce_andi_all _ _ _ _ ix0 c6 i),
    fun i => SingletonSoftmax.real_of_abs_lt_top _ (Host.reduce_andi_all _ _ _ _ ix0 c7 i),
    fun i => SingletonSoftmax.real_of_abs_lt_top _ (Host.reduce_andi_all _ _ _ _ ix0 c8 i),
    fun i => SingletonSoftmax.real_of_abs_lt_top _ (Host.reduce_andi_all _ _ _ _ ix0 c9 i),
    fun i => SingletonSoftmax.real_of_abs_lt_top _ (Host.reduce_andi_all _ _ _ _ ix0 c10 i),
    fun i => SingletonSoftmax.real_of_abs_lt_top _ (Host.reduce_andi_all _ _ _ _ ix0 c11 i),
    fun i => SingletonSoftmax.real_of_abs_lt_top _ (Host.reduce_andi_all _ _ _ _ ix0 c12 i),
    fun i => SingletonSoftmax.real_of_abs_lt_top _ (Host.reduce_andi_all _ _ _ _ ix0 c13 i),
    fun i => SingletonSoftmax.real_of_abs_lt_top _ (Host.reduce_andi_all _ _ _ _ ix0 c14 i),
    fun i => SingletonSoftmax.real_of_abs_lt_top _ (Host.reduce_andi_all _ _ _ _ ix0 c15 i),
    fun i => nonneg_of_cmp _ (Host.reduce_andi_all _ _ _ _ ix0 g0 i),
    fun i => nonneg_of_cmp _ (Host.reduce_andi_all _ _ _ _ ix0 g1 i)⟩

end Cert.PreFacts

end
-- ==== Proof.Bridge.lean ====
/-
  The two programs compute one function.

  At (r, q) the kernel program's result is the log-softmax of row r of the network with the nodes' scale applied to rows
  before and after each propagation and the normalisation's shift folded; the reference's is the log-softmax of row r
  of the network with both scales on every edge and the normalisation written out. Under the precondition every float
  entry is a real number and the variances are not negative, so every scale, every normalisation row and every
  intermediate table is real, and the two networks agree (distributivity over finite sums of reals).
-/
import proofs.«135466_j22454089023507_2_alg».proof.Proof.KernelLogits
import proofs.«135466_j22454089023507_2_alg».proof.Proof.RefValue
import proofs.«135466_j22454089023507_2_alg».proof.Proof.PreFacts

set_option maxRecDepth 16384

noncomputable section

namespace Cert.Bridge

open Idealize.ShloMosaic Idealize.ShloMosaic.TcCoe Idealize.ShloMosaic.ValueIdx Idealize.SL.Sem
open Cert.GcnHost Cert.GcnBn Cert.GcnEdges Cert.LibRealEntries Cert.ReferenceIdeal.RefValue

/-- A real, nowhere negative variance row gives a real scale row γ · 1/√(v + ε) when γ is real. -/
theorem isReal_sigma (g v : Fin 128 → EReal) (hg : ∀ k, IsReal (g k)) (hv : ∀ k, IsReal (v k)) (hv0 : ∀ k, (0 : EReal) ≤ v k)
    (k : Fin 128) : IsReal (sigma g v k) := by
  obtain ⟨a, ha⟩ := hv k
  have h0 := hv0 k
  rw [ha] at h0
  exact (hg k).mul (isReal_rsqrt_add_eps ⟨a, EReal.coe_nonneg.mp h0, ha⟩)

set_option maxHeartbeats 4000000 in
/-- THE TWO RESULTS ARE EQUAL under the precondition. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1) :
    Cert.KernelIdeal.KValue.OUT m c
      = Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  obtain ⟨r0, r2, r3, r4, r5, r6, r7, r8, r9, r10, r11, r12, r13, r14, r15, g11, g15⟩ := Cert.PreFacts.decode _ _ _ _ _ _ _ _ _ _ _ _ _ _ _ _ hpre
  funext i
  obtain ⟨r, q, rfl⟩ : ∃ (r : Fin 50000) (q : Fin 40), i = ix2 r q := ⟨i 0, i 1, eq_ix2 i⟩
  rw [Cert.KernelIdeal.KLogits.value, Cert.ReferenceIdeal.RefValue.value]
  refine congrArg (fun f : Fin 50000 → Fin 40 → EReal => Cert.RowLogSoftmax.rowLogSoftmax (fun k => f r k) q) ?_
  exact logitsK_eq_logitsR _ _ _ (hsel _) _ _ _ _ _ _ _ _ _ _ _ _ _ _ (hD _)
    (fun a b => r0 (ix2 a b)) (fun a b => r2 (ix2 a b)) (fun a => r3 (ix1 a))
    (isReal_sigma _ _ (fun a => r8 (ix1 a)) (fun a => r11 (ix1 a)) (fun a => g11 (ix1 a)))
    (fun a => r10 (ix1 a)) (fun a => r9 (ix1 a))
    (fun a b => r4 (ix2 a b)) (fun a => r5 (ix1 a))
    (isReal_sigma _ _ (fun a => r12 (ix1 a)) (fun a => r15 (ix1 a)) (fun a => g15 (ix1 a)))
    (fun a => r14 (ix1 a)) (fun a => r13 (ix1 a))
    (fun a b => r6 (ix2 a b)) (fun a => r7 (ix1 a))

end Cert.Bridge

end
-- ==== Proof.lean ====
/-
  The certificate of a three-layer graph-convolution network with batch normalisation, the kernel program against its
  reference.

  The kernel program runs four pallas_calls — the first layer's dense part with the nodes' scale D applied to rows; twice
  the previous layer's sums scaled, normalised, cut off at zero and put through the next dense layer, scaled again; a
  final scale and log-softmax — and, between them, gathers the rows along the edges and scatter-adds them by
  destination. The reference puts the product D (source) · D (destination) on every edge instead and writes the
  normalisation as (h − μ) · σ + β. On real entries the two are one function: D at a node is a common factor of the sum
  over the edges sent to that node, and h · σ + (β − μ · σ) = (h − μ) · σ + β. The precondition makes every float entry
  real and keeps the two variance rows from being negative, so 1/√(v + ε) is real too; the same equality fails at an
  infinite scale, which is why the variance rows are asked to be at least 0.

  The three frames: the two kernel programs' are the generated ones; the reference's is its run with the result dropped.
  The idealization rewrote nothing, so `preserves` asks nothing.
-/
import proofs.«135466_j22454089023507_2_alg».proof.Defs
import proofs.«135466_j22454089023507_2_alg».proof.Proof.Gen.Kernel
import proofs.«135466_j22454089023507_2_alg».proof.Proof.Gen.Kernel.Skeleton
import proofs.«135466_j22454089023507_2_alg».proof.Proof.Gen.Kernel.Launch
import proofs.«135466_j22454089023507_2_alg».proof.Proof.Gen.Kernel.Points
import proofs.«135466_j22454089023507_2_alg».proof.Proof.Gen.Kernel.Frame
import proofs.«135466_j22454089023507_2_alg».proof.Proof.Gen.KernelIdeal
import proofs.«135466_j22454089023507_2_alg».proof.Proof.Gen.KernelIdeal.Skeleton
import proofs.«135466_j22454089023507_2_alg».proof.Proof.Gen.KernelIdeal.Launch
import proofs.«135466_j22454089023507_2_alg».proof.Proof.Gen.KernelIdeal.Points
import proofs.«135466_j22454089023507_2_alg».proof.Proof.Gen.KernelIdeal.Frame
import proofs.«135466_j22454089023507_2_alg».proof.Proof.Gen.ReferenceIdeal
import proofs.«135466_j22454089023507_2_alg».proof.Proof.Gen.Pre_finite_inputs
import proofs.«135466_j22454089023507_2_alg».proof.Proof.KernelRun
import proofs.«135466_j22454089023507_2_alg».proof.Proof.RefStaged
import proofs.«135466_j22454089023507_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Staged.run (F := Ideal) m ρ)

set_option maxHeartbeats 4000000 in
/-- Both programs run; the kernel program's result array is `OUT` of its arguments, the reference's is its last stage of
    arguments that agree with them, and the two are one function under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.OUT m c, ?_, ?_⟩
  · exact (θ_run Cert.KernelIdeal.defs _ _).mono
      (fun r h c => ⟨(h c).1.trans (Cert.KernelIdeal.KValue.w8_main_v70 m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Staged.run (F := Ideal) m' ρ')
    obtain ⟨a0, a1, a2, a3, a4, a5, a6, a7, a8, a9, a10, a11, a12, a13, a14, a15⟩ := hagree c
    rw [a0, a1, a2, a3, a4, a5, a6, a7, a8, a9, a10, a11, a12, a13, a14, a15]
    exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
